-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x65536 : Shape := ⟨3, ![1, 128, 65536]⟩
abbrev S8x128x65536 : Shape := ⟨3, ![8, 128, 65536]⟩
abbrev S256x4 : Shape := ⟨2, ![256, 4]⟩
abbrev S128 : Shape := ⟨1, ![128]⟩
abbrev S128x128 : Shape := ⟨2, ![128, 128]⟩
abbrev S128x1 : Shape := ⟨2, ![128, 1]⟩
abbrev S_ : Shape := ⟨0, ![]⟩

class Facts : Prop where
  bcast_S_S1x128x65536 : S_.BroadcastsInDim S1x128x65536 (![] : Fin 0 → Fin S1x128x65536.rank)
  reducesTo_S1x128x65536_S_d0_1_2 : S1x128x65536.ReducesTo [0, 1, 2] S_
  h_S_ : 0 < S_.numel
  bcast_S_S8x128x65536 : S_.BroadcastsInDim S8x128x65536 (![] : Fin 0 → Fin S8x128x65536.rank)
  reducesTo_S8x128x65536_S_d0_1_2 : S8x128x65536.ReducesTo [0, 1, 2] S_
  bcast_S_S256x4 : S_.BroadcastsInDim S256x4 (![] : Fin 0 → Fin S256x4.rank)
  reducesTo_S256x4_S_d0_1 : S256x4.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128x1 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_v33

def fn {F : FTy → Type} [FloatOps F] (main_arg0 : FVec F S1x128x65536 .f32) (main_arg1 : FVec F S8x128x65536 .f32) (main_arg2 : FVec F S256x4 .f32) (main_arg3 : FVec F S128 .f32) (main_arg4 : FVec F S128 .f32) (main_arg5 : FVec F S128x128 .f32) (main_arg6 : FVec F S128x1 .f32) (main_arg7 : FVec F S128 .f32) (main_arg8 : FVec F S128 .f32) : IVec S_ 1 :=
  let main_v0 : FVec F S1x128x65536 .f32 := Host.absf main_arg0
  let main_cst : FVec F S_ .f32 := constant S_ .f32 0x7F800000#32
  let main_v1 : FVec F S1x128x65536 .f32 := broadcastInDim S1x128x65536 ![] bcast_S_S1x128x65536 main_cst
  let main_v2 : IVec S1x128x65536 1 := cmpf .olt main_v0 main_v1
  let main_c : IVec S_ 1 := constantI S_ 1 1#1
  let main_v3 : IVec S_ 1 := (fun x v => Host.reduce IntOp.andi x v reducesTo_S1x128x65536_S_d0_1_2 h_S_) main_v2 main_c
  let main_v4 : FVec F S8x128x65536 .f32 := Host.absf main_arg1
  let main_cst_0 : FVec F S_ .f32 := constant S_ .f32 0x7F800000#32
  let main_v5 : FVec F S8x128x65536 .f32 := broadcastInDim S8x128x65536 ![] bcast_S_S8x128x65536 main_cst_0
  let main_v6 : IVec S8x128x65536 1 := cmpf .olt main_v4 main_v5
  let main_c_1 : IVec S_ 1 := constantI S_ 1 1#1
  let main_v7 : IVec S_ 1 := (fun x v => Host.reduce IntOp.andi x v reducesTo_S8x128x65536_S_d0_1_2 h_S_) main_v6 main_c_1
  let main_v8 : IVec S_ 1 := andi main_v3 main_v7
  let main_v9 : FVec F S256x4 .f32 := Host.absf main_arg2
  let main_cst_2 : FVec F S_ .f32 := constant S_ .f32 0x7F800000#32
  let main_v10 : FVec F S256x4 .f32 := broadcastInDim S256x4 ![] bcast_S_S256x4 main_cst_2
  let main_v11 : IVec S256x4 1 := cmpf .olt main_v9 main_v10
  let main_c_3 : IVec S_ 1 := constantI S_ 1 1#1
  let main_v12 : IVec S_ 1 := (fun x v => Host.reduce IntOp.andi x v reducesTo_S256x4_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S1x128x65536 : Shape := ⟨3, ![1, 128, 65536]⟩
abbrev S8x128x65536 : Shape := ⟨3, ![8, 128, 65536]⟩
abbrev S256x4 : Shape := ⟨2, ![256, 4]⟩
abbrev S128 : Shape := ⟨1, ![128]⟩
abbrev S128x128 : Shape := ⟨2, ![128, 128]⟩
abbrev S128x1 : Shape := ⟨2, ![128, 1]⟩
abbrev S128x65536 : Shape := ⟨2, ![128, 65536]⟩
abbrev S128x5 : Shape := ⟨2, ![128, 5]⟩
abbrev S128x2048 : Shape := ⟨2, ![128, 2048]⟩
abbrev S8x128x2048 : Shape := ⟨3, ![8, 128, 2048]⟩
abbrev S128x4 : Shape := ⟨2, ![128, 4]⟩
abbrev S4x2048 : Shape := ⟨2, ![4, 2048]⟩
abbrev S1x128x2048 : Shape := ⟨3, ![1, 128, 2048]⟩
abbrev S2048 : Shape := ⟨1, ![2048]⟩
abbrev S1x2048 : Shape := ⟨2, ![1, 2048]⟩

abbrev nBuf : Space → Nat
  | .hbm => 16
  | .vmem => 9
  | .smem => 0
  | _ => 0

abbrev bufTy : (tb : Table) → Fin (tcTables nBuf tb) → BufTy
  | .hbm, ⟨0, _⟩ => ⟨S1x128x65536, .f32⟩
  | .hbm, ⟨1, _⟩ => ⟨S8x128x65536, .f32⟩
  | .hbm, ⟨2, _⟩ => ⟨S256x4, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128x1, .f32⟩
  | .hbm, ⟨7, _⟩ => ⟨S128, .f32⟩
  | .hbm, ⟨8, _⟩ => ⟨S128, .f32⟩
  | .hbm, ⟨9, _⟩ => ⟨S128x65536, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x5, .f32⟩
  | .hbm, ⟨15, _⟩ => ⟨S128x65536, .f32⟩
  | .local _ .vmem, ⟨0, _⟩ => ⟨S128x2048, .f32⟩
  | .local _ .vmem, ⟨1, _⟩ => ⟨S128x2048, .f32⟩
  | .local _ .vmem, ⟨2, _⟩ => ⟨S8x128x2048, .f32⟩
  | .local _ .vmem, ⟨3, _⟩ => ⟨S8x128x2048, .f32⟩
  | .local _ .vmem, ⟨4, _⟩ => ⟨S256x4, .f32⟩
  | .local _ .vmem, ⟨5, _⟩ => ⟨S128x128, .f32⟩
  | .local _ .vmem, ⟨6, _⟩ => ⟨S128x5, .f32⟩
  | .local _ .vmem, ⟨7, _⟩ => ⟨S128x2048, .f32⟩
  | .local _ .vmem, ⟨8, _⟩ => ⟨S128x2048, .f32⟩
  | _, _ => ⟨S1x128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x128x65536_S128x65536 : S1x128x65536.ShapeCasts S128x65536
  shapeCasts_S128_S128x1 : S128.ShapeCasts S128x1
  concatenates_S128x1_S128x1_S128x1_S128x1_S128x1_S128x5_d1 : Shape.Concatenates [S128x1, S128x1, S128x1, S128x1, S128x1] S128x5 1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S256x4_S256x4_0_0 : ∀ a, (![0, 0] : Fin 2 → Nat) a + S256x4.size a ≤ S256x4.size a
  h_S256x4 : 0 < S256x4.numel
  slices_S256x4_o0_0_S128x4 : S256x4.Slices ![0, 0] S128x4
  slices_S256x4_o128_0_S128x4 : S256x4.Slices ![128, 0] S128x4
  inb_S8x128x2048_S1x128x2048_0_0_0 : ∀ a, (![0, 0, 0] : Fin 3 → Nat) a + S1x128x2048.size a ≤ S8x128x2048.size a
  h_S1x128x2048 : 0 < S1x128x2048.numel
  shapeCasts_S1x128x2048_S128x2048 : S1x128x2048.ShapeCasts S128x2048
  inb_S8x128x2048_S1x128x2048_1_0_0 : ∀ a, (![1, 0, 0] : Fin 3 → Nat) a + S1x128x2048.size a ≤ S8x128x2048.size a
  inb_S8x128x2048_S1x128x2048_2_0_0 : ∀ a, (![2, 0, 0] : Fin 3 → Nat) a + S1x128x2048.size a ≤ S8x128x2048.size a
  inb_S8x128x2048_S1x128x2048_3_0_0 : ∀ a, (![3, 0, 0] : Fin 3 → Nat) a + S1x128x2048.size a ≤ S8x128x2048.size a
  inb_S8x128x2048_S1x128x2048_4_0_0 : ∀ a, (![4, 0, 0] : Fin 3 → Nat) a + S1x128x2048.size a ≤ S8x128x2048.size a
  inb_S8x128x2048_S1x128x2048_5_0_0 : ∀ a, (![5, 0, 0] : Fin 3 → Nat) a + S1x128x2048.size a ≤ S8x128x2048.size a
  inb_S8x128x2048_S1x128x2048_6_0_0 : ∀ a, (![6, 0, 0] : Fin 3 → Nat) a + S1x128x2048.size a ≤ S8x128x2048.size a
  inb_S8x128x2048_S1x128x2048_7_0_0 : ∀ a, (![7, 0, 0] : Fin 3 → Nat) a + S1x128x2048.size a ≤ S8x128x2048.size a
  reduces_S4x2048_S2048 : S4x2048.Reduces [0] S2048
  shapeCasts_S2048_S1x2048 : S2048.ShapeCasts S1x2048
  broadcasts_S1x2048_S128x2048 : S1x2048.Broadcasts S128x2048
  inb_S128x5_S128x5_0_0 : ∀ a, (![0, 0] : Fin 2 → Nat) a + S128x5.size a ≤ S128x5.size a
  h_S128x5 : 0 < S128x5.numel
  shapeCasts_S128x5_S128x5 : S128x5.ShapeCasts S128x5
  slices_S128x5_o0_0_S128x1 : S128x5.Slices ![0, 0] S128x1
  slices_S128x5_o0_1_S128x1 : S128x5.Slices ![0, 1] S128x1
  slices_S128x5_o0_2_S128x1 : S128x5.Slices ![0, 2] S128x1
  slices_S128x5_o0_3_S128x1 : S128x5.Slices ![0, 3] S128x1
  slices_S128x5_o0_4_S128x1 : S128x5.Slices ![0, 4] S128x1
  reduces_S128x2048_S2048 : S128x2048.Reduces [0] S2048
  broadcasts_S128x1_S128x2048 : S128x1.Broadcasts S128x2048
  inb_S128x128_S128x128_0_0 : ∀ a, (![0, 0] : Fin 2 → Nat) a + S128x128.size a ≤ S128x128.size a
  h_S128x128 : 0 < S128x128.numel
  dot_S128x4_S128x2048_S4x2048_0_0_1_1_n_n_wf : DotDims.WF S128x4 S128x2048 S4x2048 [0] [0] [1] [1] [] []
  dot_S128x128_S128x2048_S128x2048_1_0_0_1_n_n_wf : DotDims.WF S128x128 S128x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x65536.size a
  hwx0_0 : ∀ i : grid0.Coords, EltTy.bits .f32 = 32 ∨ (Rect.block (s := S128x65536) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x2048.size a ≤ S8x128x65536.size a
  hwx0_1 : ∀ i : grid0.Coords, EltTy.bits .f32 = 32 ∨ (Rect.block (s := S8x128x65536) S8x128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S256x4.size a
  hwx0_2 : ∀ i : grid0.Coords, EltTy.bits .f32 = 32 ∨ (Rect.block (s := S256x4) S256x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x5.size a ≤ S128x5.size a
  hwx0_4 : ∀ i : grid0.Coords, EltTy.bits .f32 = 32 ∨ (Rect.block (s := S128x5) S128x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S128x65536.size a
  hwx0_5 : ∀ i : grid0.Coords, EltTy.bits .f32 = 32 ∨ (Rect.block (s := S128x65536) S128x2048.size (cc0_transform_5 i) (hinb0_5 i)).WholeWords (EltTy.packing .f32)

variable [Facts₀]

def dot_S128x4_S128x2048_S4x2048_0_0_1_1_n_n : DotDims S128x4 S128x2048 S4x2048 where
  lhsContracting := [0]
  rhsContracting := [0]
  lhsNonContracting := [1]
  rhsNonContracting := [1]
  lhsBatch := []
  rhsBatch := []
  wf := dot_S128x4_S128x2048_S4x2048_0_0_1_1_n_n_wf
def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x128x65536 : Shape := ⟨3, ![1, 128, 65536]⟩
abbrev S8x128x65536 : Shape := ⟨3, ![8, 128, 65536]⟩
abbrev S256x4 : Shape := ⟨2, ![256, 4]⟩
abbrev S128 : Shape := ⟨1, ![128]⟩
abbrev S128x128 : Shape := ⟨2, ![128, 128]⟩
abbrev S128x1 : Shape := ⟨2, ![128, 1]⟩
abbrev S128x65536 : Shape := ⟨2, ![128, 65536]⟩
abbrev S8x256x65536 : Shape := ⟨3, ![8, 256, 65536]⟩
abbrev S8x65536x256 : Shape := ⟨3, ![8, 65536, 256]⟩
abbrev S8x65536x4 : Shape := ⟨3, ![8, 65536, 4]⟩
abbrev S_ : Shape := ⟨0, ![]⟩
abbrev S65536x4 : Shape := ⟨2, ![65536, 4]⟩
abbrev S1x65536x4 : Shape := ⟨3, ![1, 65536, 4]⟩
abbrev S65536x4x8 : Shape := ⟨3, ![65536, 4, 8]⟩
abbrev S65536x8x128 : Shape := ⟨3, ![65536, 8, 128]⟩
abbrev S65536x4x128 : Shape := ⟨3, ![65536, 4, 128]⟩
abbrev S65536x128 : Shape := ⟨2, ![65536, 128]⟩
abbrev S65536 : Shape := ⟨1, ![65536]⟩
abbrev S65536x1 : Shape := ⟨2, ![65536, 1]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S1x128x65536, .f32⟩
  | .hbm, ⟨1, _⟩ => ⟨S8x128x65536, .f32⟩
  | .hbm, ⟨2, _⟩ => ⟨S256x4, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128x1, .f32⟩
  | .hbm, ⟨7, _⟩ => ⟨S128, .f32⟩
  | .hbm, ⟨8, _⟩ => ⟨S128, .f32⟩
  | .hbm, ⟨9, _⟩ => ⟨S128x65536, .f32⟩
  | .hbm, ⟨10, _⟩ => ⟨S8x128x65536, .f32⟩
  | .hbm, ⟨11, _⟩ => ⟨S8x256x65536, .f32⟩
  | .hbm, ⟨12, _⟩ => ⟨S8x65536x256, .f32⟩
  | .hbm, ⟨13, _⟩ => ⟨S8x65536x4, .f32⟩
  | .hbm, ⟨14, _⟩ => ⟨S_, .f32⟩
  | .hbm, ⟨15, _⟩ => ⟨S_, .f32⟩
  | .hbm, ⟨16, _⟩ => ⟨S8x65536x4, .f32⟩
  | .hbm, ⟨17, _⟩ => ⟨S8x65536x4, .i1⟩
  | .hbm, ⟨18, _⟩ => ⟨S_, .f32⟩
  | .hbm, ⟨19, _⟩ => ⟨S8x65536x4, .f32⟩
  | .hbm, ⟨20, _⟩ => ⟨S8x65536x4, .f32⟩
  | .hbm, ⟨21, _⟩ => ⟨S8x65536x4, .f32⟩
  | .hbm, ⟨22, _⟩ => ⟨S_, .f32⟩
  | .hbm, ⟨23, _⟩ => ⟨S65536x4, .f32⟩
  | .hbm, ⟨24, _⟩ => ⟨S_, .f32⟩
  | .hbm, ⟨25, _⟩ => ⟨S65536x4, .f32⟩
  | .hbm, ⟨26, _⟩ => ⟨S65536x4, .f32⟩
  | .hbm, ⟨27, _⟩ => ⟨S1x65536x4, .f32⟩
  | .hbm, ⟨28, _⟩ => ⟨S8x65536x4, .f32⟩
  | .hbm, ⟨29, _⟩ => ⟨S8x65536x4, .f32⟩
  | .hbm, ⟨30, _⟩ => ⟨S8x65536x4, .f32⟩
  | .hbm, ⟨31, _⟩ => ⟨S_, .f32⟩
  | .hbm, ⟨32, _⟩ => ⟨S65536x4, .f32⟩
  | .hbm, ⟨33, _⟩ => ⟨S1x65536x4, .f32⟩
  | .hbm, ⟨34, _⟩ => ⟨S8x65536x4, .f32⟩
  | .hbm, ⟨35, _⟩ => ⟨S8x65536x4, .f32⟩
  | .hbm, ⟨36, _⟩ => ⟨S65536x4x8, .f32⟩
  | .hbm, ⟨37, _⟩ => ⟨S65536x8x128, .f32⟩
  | .hbm, ⟨38, _⟩ => ⟨S65536x4x128, .f32⟩
  | .hbm, ⟨39, _⟩ => ⟨S_, .f32⟩
  | .hbm, ⟨40, _⟩ => ⟨S65536x128, .f32⟩
  | .hbm, ⟨41, _⟩ => ⟨S_, .f32⟩
  | .hbm, ⟨42, _⟩ => ⟨S65536x128, .f32⟩
  | .hbm, ⟨43, _⟩ => ⟨S65536x128, .f32⟩
  | .hbm, ⟨44, _⟩ => ⟨S_, .f32⟩
  | .hbm, ⟨45, _⟩ => ⟨S65536x128, .f32⟩
  | .hbm, ⟨46, _⟩ => ⟨S65536x128, .f32⟩
  | .hbm, ⟨47, _⟩ => ⟨S128x65536, .f32⟩
  | .hbm, ⟨48, _⟩ => ⟨S128x65536, .f32⟩
  | .hbm, ⟨49, _⟩ => ⟨S128x65536, .f32⟩
  | .hbm, ⟨50, _⟩ => ⟨S65536x128, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S65536x128, .f32⟩
  | .hbm, ⟨58, _⟩ => ⟨S65536x128, .f32⟩
  | .hbm, ⟨59, _⟩ => ⟨S65536x128, .f32⟩
  | .hbm, ⟨60, _⟩ => ⟨S_, .f32⟩
  | .hbm, ⟨61, _⟩ => ⟨S65536, .f32⟩
  | .hbm, ⟨62, _⟩ => ⟨S65536x1, .f32⟩
  | .hbm, ⟨63, _⟩ => ⟨S_, .f32⟩
  | .hbm, ⟨64, _⟩ => ⟨S65536x1, .f32⟩
  | .hbm, ⟨65, _⟩ => ⟨S65536x1, .f32⟩
  | .hbm, ⟨66, _⟩ => ⟨S65536x128, .f32⟩
  | .hbm, ⟨67, _⟩ => ⟨S65536x128, .f32⟩
  | .hbm, ⟨68, _⟩ => ⟨S1x128, .f32⟩
  | .hbm, ⟨69, _⟩ => ⟨S65536x128, .f32⟩
  | .hbm, ⟨70, _⟩ => ⟨S65536x128, .f32⟩
  | .hbm, ⟨71, _⟩ => ⟨S_, .f32⟩
  | .hbm, ⟨72, _⟩ => ⟨S65536x1, .f32⟩
  | .hbm, ⟨73, _⟩ => ⟨S65536x1, .f32⟩
  | .hbm, ⟨74, _⟩ => ⟨S65536x1, .f32⟩
  | .hbm, ⟨75, _⟩ => ⟨S65536x128, .f32⟩
  | .hbm, ⟨76, _⟩ => ⟨S65536x128, .f32⟩
  | .hbm, ⟨77, _⟩ => ⟨S1x128, .f32⟩
  | .hbm, ⟨78, _⟩ => ⟨S65536x128, .f32⟩
  | .hbm, ⟨79, _⟩ => ⟨S65536x128, .f32⟩
  | .hbm, ⟨80, _⟩ => ⟨S128x65536, .f32⟩
  | .hbm, ⟨81, _⟩ => ⟨S128x65536, .f32⟩
  | .hbm, ⟨82, _⟩ => ⟨S128x65536, .f32⟩
  | .hbm, ⟨83, _⟩ => ⟨S128x65536, .f32⟩
  | .hbm, ⟨84, _⟩ => ⟨S128x65536, .f32⟩
  | .hbm, ⟨85, _⟩ => ⟨S65536x128, .f32⟩
  | .hbm, ⟨86, _⟩ => ⟨S_, .f32⟩
  | .hbm, ⟨87, _⟩ => ⟨S65536, .f32⟩
  | .hbm, ⟨88, _⟩ => ⟨S65536x1, .f32⟩
  | .hbm, ⟨89, _⟩ => ⟨S_, .f32⟩
  | .hbm, ⟨90, _⟩ => ⟨S65536x1, .f32⟩
  | .hbm, ⟨91, _⟩ => ⟨S65536x1, .f32⟩
  | .hbm, ⟨92, _⟩ => ⟨S65536x128, .f32⟩
  | .hbm, ⟨93, _⟩ => ⟨S65536x128, .f32⟩
  | .hbm, ⟨94, _⟩ => ⟨S65536x128, .f32⟩
  | .hbm, ⟨95, _⟩ => ⟨S_, .f32⟩
  | .hbm, ⟨96, _⟩ => ⟨S65536, .f32⟩
  | .hbm, ⟨97, _⟩ => ⟨S65536x1, .f32⟩
  | .hbm, ⟨98, _⟩ => ⟨S_, .f32⟩
  | .hbm, ⟨99, _⟩ => ⟨S65536x1, .f32⟩
  | .hbm, ⟨100, _⟩ => ⟨S65536x1, .f32⟩
  | .hbm, ⟨101, _⟩ => ⟨S65536x128, .f32⟩
  | .hbm, ⟨102, _⟩ => ⟨S65536x128, .f32⟩
  | .hbm, ⟨103, _⟩ => ⟨S1x128, .f32⟩
  | .hbm, ⟨104, _⟩ => ⟨S65536x128, .f32⟩
  | .hbm, ⟨105, _⟩ => ⟨S65536x128, .f32⟩
  | .hbm, ⟨106, _⟩ => ⟨S_, .f32⟩
  | .hbm, ⟨107, _⟩ => ⟨S65536x1, .f32⟩
  | .hbm, ⟨108, _⟩ => ⟨S65536x1, .f32⟩
  | .hbm, ⟨109, _⟩ => ⟨S65536x1, .f32⟩
  | .hbm, ⟨110, _⟩ => ⟨S65536x128, .f32⟩
  | .hbm, ⟨111, _⟩ => ⟨S65536x128, .f32⟩
  | .hbm, ⟨112, _⟩ => ⟨S1x128, .f32⟩
  | .hbm, ⟨113, _⟩ => ⟨S65536x128, .f32⟩
  | .hbm, ⟨114, _⟩ => ⟨S65536x128, .f32⟩
  | .hbm, ⟨115, _⟩ => ⟨S128x65536, .f32⟩
  | _, _ => ⟨S1x128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_call1_cst : Ref sig .tc := ⟨.hbm, 44, rfl⟩
abbrev main_call1_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]

class Facts₀ : Prop where
  shapeCasts_S1x128x65536_S128x65536 : S1x128x65536.ShapeCasts S128x65536
  bcast_S128x65536_S8x128x65536_1_2 : S128x65536.BroadcastsInDim S8x128x65536 (![1, 2] : Fin 2 → Fin S8x128x65536.rank)
  concatenates_S8x128x65536_S8x128x65536_S8x256x65536_d1 : Shape.Concatenates [S8x128x65536, S8x128x65536] S8x256x65536 1
  transposes_S8x256x65536_S8x65536x256_0_2_1 : S8x256x65536.Transposes [0, 2, 1] S8x65536x256
  bcast_S_S8x65536x4 : S_.BroadcastsInDim S8x65536x4 (![] : Fin 0 → Fin S8x65536x4.rank)
  reducesTo_S8x65536x4_S65536x4_d0 : S8x65536x4.ReducesTo [0] S65536x4
  h_S_ : 0 < S_.numel
  bcast_S_S65536x4 : S_.BroadcastsInDim S65536x4 (![] : Fin 0 → Fin S65536x4.rank)
  bcast_S65536x4_S1x65536x4_1_2 : S65536x4.BroadcastsInDim S1x65536x4 (![1, 2] : Fin 2 → Fin S1x65536x4.rank)
  bcast_S1x65536x4_S8x65536x4_0_1_2 : S1x65536x4.BroadcastsInDim S8x65536x4 (![0, 1, 2] : Fin 3 → Fin S8x65536x4.rank)
  transposes_S8x65536x4_S65536x4x8_1_2_0 : S8x65536x4.Transposes [1, 2, 0] S65536x4x8
  transposes_S8x128x65536_S65536x8x128_2_0_1 : S8x128x65536.Transposes [2, 0, 1] S65536x8x128
  reducesTo_S65536x4x128_S65536x128_d1 : S65536x4x128.ReducesTo [1] S65536x128
  bcast_S_S65536x128 : S_.BroadcastsInDim S65536x128 (![] : Fin 0 → Fin S65536x128.rank)
  transposes_S65536x128_S128x65536_1_0 : S65536x128.Transposes [1, 0] S128x65536
  transposes_S128x65536_S65536x128_1_0 : S128x65536.Transposes [1, 0] S65536x128
  reducesTo_S65536x128_S65536_d1 : S65536x128.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x128_0_1 : S65536x1.BroadcastsInDim S65536x128 (![0, 1] : Fin 2 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S128x1_S128x65536_0_1 : S128x1.BroadcastsInDim S128x65536 (![0, 1] : Fin 2 → Fin S128x65536.rank)
  dot_S8x65536x256_S256x4_S8x65536x4_2_0_01_1_n_n_wf : DotDims.WF S8x65536x256 S256x4 S8x65536x4 [2] [0] [0, 1] [1] [] []
  dot_S65536x4x8_S65536x8x128_S65536x4x128_2_1_1_2_0_0_wf : DotDims.WF S65536x4x8 S65536x8x128 S65536x4x128 [2] [1] [1] [2] [0] [0]
  dot_S128x128_S128x65536_S128x65536_1_0_0_1_n_n_wf : DotDims.WF S128x128 S128x65536 S128x65536 [1] [0] [0] [1] [] []

variable [Facts₀]

def dot_S8x65536x256_S256x4_S8x65536x4_2_0_01_1_n_n : DotDims S8x65536x256 S256x4 S8x65536x4 where
  lhsContracting := [2]
  rhsContracting := [0]
  lhsNonContracting := [0, 1]
  rhsNonContracting := [1]
  lhsBatch := []
  rhsBatch := []
  wf := dot_S8x65536x256_S256x4_S8x65536x4_2_0_01_1_n_n_wf
def dot_S65536x4x8_S65536x8x128_S65536x4x128_2_1_1_2_0_0 : DotDims S65536x4x8 S65536x8x128 S65536x4x128 where
  lhsContracting := [2]
  rhsContracting := [1]
  lhsNonContracting := [1]
  rhsNonContracting := [2]
  lhsBatch := [0]
  rhsBatch := [0]
  wf := dot_S65536x4x8_S65536x8x128_S65536x4x128_2_1_1_2_0_0_wf
def dot_S128x128_S128x65536_S128x65536_1_0_0_1_n_n : DotDims S128x128 S128x65536 S128x65536 where
  lhsContracting := [1]
  rhsContracting := [0]
  lhsNonContracting := [0]
  rhsNonContracting := [1]
  lhsBatch := []
  rhsBatch := []
  wf := dot_S128x128_S128x65536_S128x65536_1_0_0_1_n_n_wf

class Facts : Prop extends Facts₀ where

variable [Facts]
-- ==== Proof.KernelLaunch.lean ====
/-
  The launch side of the frame: the program up to its one region (six host operations — five reshapes and the
  concatenation of the parameter columns — then the region), the arrays' contents when the region is entered, each
  window's block at a grid point, and the frame claim's post from any proof data's frame run.
-/
import proofs.«165610_j52828097741217_2_alg».proof.Proof.Gen.Kernel.Launch
import proofs.«165610_j52828097741217_2_alg».proof.Proof.Gen.Kernel.Skeleton
import proofs.«165610_j52828097741217_2_alg».proof.Proof.Gen.Kernel.Points
import Idealize.ShloMosaic.Lib.Pipeline.FrameBody
import Idealize.ShloMosaic.Lib.Ring
import Idealize.ShloMosaic.Lib.Tactic

-- membership in a rectangle of the block's extents: the elaborator's structural look recurses once per coordinate
-- of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region, at any variants: the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to the
    frame post read at the argument arrays — a staged input holds its entry contents, an array no window stages is
    among the other unscoped buffers, and no host operation writes an argument — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats 0 c).arrAt_in 3 rfl _).trans ((hA c 3).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

end Cert.Kernel.Hand

end
-- ==== Proof.KernelBodyVal.lean ====
/-
  What the kernel body stores into its output block, as one pure function of the five input blocks of a grid
  point: the loads of the body, in its order, fed through the named payloads of the generated skeleton.
  x0 is the [128,2048] query tile, x1 the [8,128,2048] stack of key tiles (loaded one [1,128,2048] slab per path,
  each slab twice: once for its scores, once for the weighted sum), x2 the [256,4] attention vectors,
  x3 the [128,128] post matrix, x4 the packed [128,5] parameter columns.
-/
import proofs.«165610_j52828097741217_2_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-- The whole [128,2048] tile (query input, and the output store). -/
abbrev rTile : Rect S128x2048 := Rect.unit (s := S128x2048) ![0, 0] S128x2048.size inb_S128x2048_S128x2048_0_0
/-- The whole [256,4] attention-vector block. -/
abbrev rAtt : Rect S256x4 := Rect.unit (s := S256x4) ![0, 0] S256x4.size inb_S256x4_S256x4_0_0
/-- The whole [128,128] post matrix. -/
abbrev rW : Rect S128x128 := Rect.unit (s := S128x128) ![0, 0] S128x128.size inb_S128x128_S128x128_0_0
/-- The whole [128,5] block of packed parameter columns. -/
abbrev rPar : Rect S128x5 := Rect.unit (s := S128x5) ![0, 0] S128x5.size inb_S128x5_S128x5_0_0
/-- Path n's [1,128,2048] slab of the key stack, n = 0 … 7. -/
abbrev rK0 : Rect S8x128x2048 := Rect.unit (s := S8x128x2048) ![0, 0, 0] S1x128x2048.size inb_S8x128x2048_S1x128x2048_0_0_0
abbrev rK1 : Rect S8x128x2048 := Rect.unit (s := S8x128x2048) ![1, 0, 0] S1x128x2048.size inb_S8x128x2048_S1x128x2048_1_0_0
abbrev rK2 : Rect S8x128x2048 := Rect.unit (s := S8x128x2048) ![2, 0, 0] S1x128x2048.size inb_S8x128x2048_S1x128x2048_2_0_0
abbrev rK3 : Rect S8x128x2048 := Rect.unit (s := S8x128x2048) ![3, 0, 0] S1x128x2048.size inb_S8x128x2048_S1x128x2048_3_0_0
abbrev rK4 : Rect S8x128x2048 := Rect.unit (s := S8x128x2048) ![4, 0, 0] S1x128x2048.size inb_S8x128x2048_S1x128x2048_4_0_0
abbrev rK5 : Rect S8x128x2048 := Rect.unit (s := S8x128x2048) ![5, 0, 0] S1x128x2048.size inb_S8x128x2048_S1x128x2048_5_0_0
abbrev rK6 : Rect S8x128x2048 := Rect.unit (s := S8x128x2048) ![6, 0, 0] S1x128x2048.size inb_S8x128x2048_S1x128x2048_6_0_0
abbrev rK7 : Rect S8x128x2048 := Rect.unit (s := S8x128x2048) ![7, 0, 0] S1x128x2048.size inb_S8x128x2048_S1x128x2048_7_0_0

/-- The stored [128,2048] value of one grid point from the point's five input blocks. -/
def bodyVal (x0 : Vec F S128x2048 .f32) (x1 : Vec F S8x128x2048 .f32) (x2 : Vec F S256x4 .f32)
    (x3 : Vec F S128x128 .f32) (x4 : Vec F S128x5 .f32) : Vec F S128x2048 .f32 :=
  let v0 := View.ld x0 rTile
  let v2 := View.ld x2 rAtt
  let v1 := k0_pay2 v0
  let v4 := k0_pay3 v2
  let v5 := k0_pay4 v0 v2
  let v14 := k0_pay5 v0 v2 (View.ld x1 rK0)
  let v23 := k0_pay6 v0 v2 (View.ld x1 rK1)
  let v32 := k0_pay7 v0 v2 (View.ld x1 rK2)
  let v41 := k0_pay8 v4 v5 (View.ld x1 rK3)
  let v50 := k0_pay9 v4 v5 (View.ld x1 rK4)
  let v59 := k0_pay10 v4 v5 (View.ld x1 rK5)
  let v68 := k0_pay11 v4 v5 (View.ld x1 rK6)
  let v69 := View.ld x1 rK7
  let v90 := k0_pay16 v4 v5 v14 v23 v32 v41 v50 v59 v68 v69
  let v92 := k0_pay17 v4 v5 v14 v23 v32 v41 v50 v59 v68 v69
  let v94 := k0_pay18 v4 v5 v14 v23 v32 v41 v50 v59 v68 v69
  let v96 := k0_pay19 v4 v5 v14 v23 v32 v41 v50 v59 v68 v69
  let v98 := k0_pay20 v4 v5 v14 v23 v32 v41 v50 v59 v68 v69
  let v100 := k0_pay21 v4 v5 v14 v23 v32 v41 v50 v59 v68 v69
  let v109 := k0_pay22 v4 v5 v14 v23 v32 v41 v50 v59 v68 v69
  let v118 := k0_pay23 v4 v5 v14 v23 v32 v41 v50 v59 v68 v69 (View.ld x1 rK0)
  let v119 := k0_pay24 v4 v5 v14 v23 v32 v41 v50 v59 v68 v69
  let v158 := k0_pay25 v90 v92 v94 v96 v109 v118 v119 (View.ld x1 rK1) (View.ld x1 rK2) (View.ld x1 rK3) (View.ld x1 rK4) (View.ld x1 rK5)
  let v159 := k0_pay26 v98 v109
  let v162 := View.ld x1 rK6
  let v170 := View.ld x1 rK7
  let v180 := View.ld x4 rPar
  k0_pay1 (k0_pay29 v180) (k0_pay30 v180) (k0_pay31 v180) (k0_pay32 v180)
    (k0_pay34 v1 v100 v109 v158 v159 v162 v170) (k0_pay35 v1 v100 v109 v158 v159 v162 v170 v180)
    (k0_pay36 (F := F)) (View.ld x3 rW)

end Cert.Kernel.Hand

end
-- ==== Proof.KernelBody.lean ====
/-
  The kernel body's triple. The body only loads its five input blocks through literal rectangles and stores the
  whole output block once, so on whole staging buffers it leaves the inputs as found and the output buffer at the
  single whole-block piece whose payload is `bodyVal` of the inputs.
-/
import proofs.«165610_j52828097741217_2_alg».proof.Proof.Gen.Kernel.Launch
import proofs.«165610_j52828097741217_2_alg».proof.Proof.Gen.Kernel.Skeleton
import proofs.«165610_j52828097741217_2_alg».proof.Proof.Gen.Kernel.Points
import proofs.«165610_j52828097741217_2_alg».proof.Proof.KernelBodyVal
import Idealize.ShloMosaic.Lib.Pipeline.FrameBody
import Idealize.ShloMosaic.Lib.Ring
import Idealize.ShloMosaic.Lib.Tactic

-- membership in a rectangle of the block's extents: the elaborator's structural look recurses once per coordinate
-- of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the body leaves in the output window's buffer -/

/-- Window 5's staging buffer after the body, from the input windows' blocks: its one store, of the whole block. -/
def out0_5 (x0 : Vec F S128x2048 .f32) (x1 : Vec F S8x128x2048 .f32) (x2 : Vec F S256x4 .f32) (x3 : Vec F S128x128 .f32) (x4 : Vec F S128x5 .f32) : Vec F S128x2048 .f32 :=
  View.canon [⟨rTile, bodyVal x0 x1 x2 x3 x4⟩]

/-- The one store is the whole block, so it covers it. -/
theorem cover0_5 (p0 : Vec F S128x2048 .f32) (y : S128x2048.Idx) :
    ∃ pc ∈ ([⟨rTile, p0⟩] : List (View.Piece (Elt F) S128x2048 .f32)), y ∈ pc.1.set :=
  View.cover_of_tiled [⟨rTile, p0⟩] S128x2048.size (by rfl) y

/-! ## The body's triple -/

set_option maxHeartbeats 4000000 in
/-- The kernel body on whole staging memrefs, the inputs' at read contents `xW` and the output's at anything, runs to
    the continuation holding the inputs' as they were and the output's at `out0_5` of the inputs': the printed
    functions are their skeletons, run symbolically through every part call; the load of the output buffer reads
    whatever it holds and its value is not used. -/
theorem sound_kernel (c : Dev nD) (E : Set ℕ) (i : grid0.Coords) (arg1 : Memref sig .tc .vmem S128x2048 .f32) (harg1 : arg1.IsWhole) (arg2 : Memref sig .tc .vmem S8x128x2048 .f32) (harg2 : arg2.IsWhole) (arg3 : Memref sig .tc .vmem S256x4 .f32) (harg3 : arg3.IsWhole) (arg4 : Memref sig .tc .vmem S128x128 .f32) (harg4 : arg4.IsWhole) (arg5 : Memref sig .tc .vmem S128x5 .f32) (harg5 : arg5.IsWhole) (arg6 : Memref sig .tc .vmem S128x2048 .f32) (harg6 : arg6.IsWhole)
    (x0 : Vec F S128x2048 .f32) (x1 : Vec F S8x128x2048 .f32) (x2 : Vec F S256x4 .f32) (x3 : Vec F S128x128 .f32) (x4 : Vec F S128x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

end Cert.Kernel.Hand

end
-- ==== Proof.KernelFrame.lean ====
/-
  The frame of the kernel's program: the pipeline's proof data (each input window's buffer at its block, the output
  window's at `out0_5` of the five input blocks), the body obligation at a generic grid point from the body's
  triple, the frame run, and the frame claim's post.
-/
import proofs.«165610_j52828097741217_2_alg».proof.Proof.Gen.Kernel.Launch
import proofs.«165610_j52828097741217_2_alg».proof.Proof.Gen.Kernel.Skeleton
import proofs.«165610_j52828097741217_2_alg».proof.Proof.Gen.Kernel.Points
import proofs.«165610_j52828097741217_2_alg».proof.Proof.KernelLaunch
import proofs.«165610_j52828097741217_2_alg».proof.Proof.KernelBody
import Idealize.ShloMosaic.Lib.Pipeline.FrameBody
import Idealize.ShloMosaic.Lib.Ring
import Idealize.ShloMosaic.Lib.Tactic

-- membership in a rectangle of the block's extents: the elaborator's structural look recurses once per coordinate
-- of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the output's at `out0_5` of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents: the definition projected, so that `V` — a fold over
    the host operations — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks (`before0_W`), so the body's triple applies; the
    invariant and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame-run theorem's implicit arguments are found by unifying its conclusion with this one, which takes
-- unfolding plain definitions in a metavariable's type
set_option backward.isDefEq.respectTransparency.types false in
/-- At the compiled mesh, for any values, from any memory with zero counters: every weakly fair execution of the
    program on the TensorCores terminates, and every final state has every array of the pipeline at what the proof
    data determine and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates without fault and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.KernelIdealLaunch.lean ====
/-
  The launch side of the frame: the program up to its one region (six host operations — five reshapes and the
  concatenation of the parameter columns — then the region), the arrays' contents when the region is entered, each
  window's block at a grid point, and the frame claim's post from any proof data's frame run.
-/
import proofs.«165610_j52828097741217_2_alg».proof.Proof.Gen.KernelIdeal.Launch
import proofs.«165610_j52828097741217_2_alg».proof.Proof.Gen.KernelIdeal.Skeleton
import proofs.«165610_j52828097741217_2_alg».proof.Proof.Gen.KernelIdeal.Points
import Idealize.ShloMosaic.Lib.Pipeline.FrameBody
import Idealize.ShloMosaic.Lib.Ring
import Idealize.ShloMosaic.Lib.Tactic

-- membership in a rectangle of the block's extents: the elaborator's structural look recurses once per coordinate
-- of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region, at any variants: the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to the
    frame post read at the argument arrays — a staged input holds its entry contents, an array no window stages is
    among the other unscoped buffers, and no host operation writes an argument — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats 0 c).arrAt_in 3 rfl _).trans ((hA c 3).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

end Cert.KernelIdeal.Hand

end
-- ==== Proof.BodyVal.lean ====
/-
  What the kernel body stores into its output block, as one pure function of the five input blocks of a grid
  point: the loads of the body, in its order, fed through the named payloads of the generated skeleton.
  x0 is the [128,2048] query tile, x1 the [8,128,2048] stack of key tiles (loaded one [1,128,2048] slab per path,
  each slab twice: once for its scores, once for the weighted sum), x2 the [256,4] attention vectors,
  x3 the [128,128] post matrix, x4 the packed [128,5] parameter columns.
-/
import proofs.«165610_j52828097741217_2_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-- The whole [128,2048] tile (query input, and the output store). -/
abbrev rTile : Rect S128x2048 := Rect.unit (s := S128x2048) ![0, 0] S128x2048.size inb_S128x2048_S128x2048_0_0
/-- The whole [256,4] attention-vector block. -/
abbrev rAtt : Rect S256x4 := Rect.unit (s := S256x4) ![0, 0] S256x4.size inb_S256x4_S256x4_0_0
/-- The whole [128,128] post matrix. -/
abbrev rW : Rect S128x128 := Rect.unit (s := S128x128) ![0, 0] S128x128.size inb_S128x128_S128x128_0_0
/-- The whole [128,5] block of packed parameter columns. -/
abbrev rPar : Rect S128x5 := Rect.unit (s := S128x5) ![0, 0] S128x5.size inb_S128x5_S128x5_0_0
/-- Path n's [1,128,2048] slab of the key stack, n = 0 … 7. -/
abbrev rK0 : Rect S8x128x2048 := Rect.unit (s := S8x128x2048) ![0, 0, 0] S1x128x2048.size inb_S8x128x2048_S1x128x2048_0_0_0
abbrev rK1 : Rect S8x128x2048 := Rect.unit (s := S8x128x2048) ![1, 0, 0] S1x128x2048.size inb_S8x128x2048_S1x128x2048_1_0_0
abbrev rK2 : Rect S8x128x2048 := Rect.unit (s := S8x128x2048) ![2, 0, 0] S1x128x2048.size inb_S8x128x2048_S1x128x2048_2_0_0
abbrev rK3 : Rect S8x128x2048 := Rect.unit (s := S8x128x2048) ![3, 0, 0] S1x128x2048.size inb_S8x128x2048_S1x128x2048_3_0_0
abbrev rK4 : Rect S8x128x2048 := Rect.unit (s := S8x128x2048) ![4, 0, 0] S1x128x2048.size inb_S8x128x2048_S1x128x2048_4_0_0
abbrev rK5 : Rect S8x128x2048 := Rect.unit (s := S8x128x2048) ![5, 0, 0] S1x128x2048.size inb_S8x128x2048_S1x128x2048_5_0_0
abbrev rK6 : Rect S8x128x2048 := Rect.unit (s := S8x128x2048) ![6, 0, 0] S1x128x2048.size inb_S8x128x2048_S1x128x2048_6_0_0
abbrev rK7 : Rect S8x128x2048 := Rect.unit (s := S8x128x2048) ![7, 0, 0] S1x128x2048.size inb_S8x128x2048_S1x128x2048_7_0_0

/-- The stored [128,2048] value of one grid point from the point's five input blocks. -/
def bodyVal (x0 : Vec F S128x2048 .f32) (x1 : Vec F S8x128x2048 .f32) (x2 : Vec F S256x4 .f32)
    (x3 : Vec F S128x128 .f32) (x4 : Vec F S128x5 .f32) : Vec F S128x2048 .f32 :=
  let v0 := View.ld x0 rTile
  let v2 := View.ld x2 rAtt
  let v1 := k0_pay2 v0
  let v4 := k0_pay3 v2
  let v5 := k0_pay4 v0 v2
  let v14 := k0_pay5 v0 v2 (View.ld x1 rK0)
  let v23 := k0_pay6 v0 v2 (View.ld x1 rK1)
  let v32 := k0_pay7 v0 v2 (View.ld x1 rK2)
  let v41 := k0_pay8 v4 v5 (View.ld x1 rK3)
  let v50 := k0_pay9 v4 v5 (View.ld x1 rK4)
  let v59 := k0_pay10 v4 v5 (View.ld x1 rK5)
  let v68 := k0_pay11 v4 v5 (View.ld x1 rK6)
  let v69 := View.ld x1 rK7
  let v90 := k0_pay16 v4 v5 v14 v23 v32 v41 v50 v59 v68 v69
  let v92 := k0_pay17 v4 v5 v14 v23 v32 v41 v50 v59 v68 v69
  let v94 := k0_pay18 v4 v5 v14 v23 v32 v41 v50 v59 v68 v69
  let v96 := k0_pay19 v4 v5 v14 v23 v32 v41 v50 v59 v68 v69
  let v98 := k0_pay20 v4 v5 v14 v23 v32 v41 v50 v59 v68 v69
  let v100 := k0_pay21 v4 v5 v14 v23 v32 v41 v50 v59 v68 v69
  let v109 := k0_pay22 v4 v5 v14 v23 v32 v41 v50 v59 v68 v69
  let v118 := k0_pay23 v4 v5 v14 v23 v32 v41 v50 v59 v68 v69 (View.ld x1 rK0)
  let v119 := k0_pay24 v4 v5 v14 v23 v32 v41 v50 v59 v68 v69
  let v158 := k0_pay25 v90 v92 v94 v96 v109 v118 v119 (View.ld x1 rK1) (View.ld x1 rK2) (View.ld x1 rK3) (View.ld x1 rK4) (View.ld x1 rK5)
  let v159 := k0_pay26 v98 v109
  let v162 := View.ld x1 rK6
  let v170 := View.ld x1 rK7
  let v180 := View.ld x4 rPar
  k0_pay1 (k0_pay29 v180) (k0_pay30 v180) (k0_pay31 v180) (k0_pay32 v180)
    (k0_pay34 v1 v100 v109 v158 v159 v162 v170) (k0_pay35 v1 v100 v109 v158 v159 v162 v170 v180)
    (k0_pay36 (F := F)) (View.ld x3 rW)

end Cert.KernelIdeal.Hand

end
-- ==== Proof.KernelIdealBody.lean ====
/-
  The kernel body's triple. The body only loads its five input blocks through literal rectangles and stores the
  whole output block once, so on whole staging buffers it leaves the inputs as found and the output buffer at the
  single whole-block piece whose payload is `bodyVal` of the inputs.
-/
import proofs.«165610_j52828097741217_2_alg».proof.Proof.Gen.KernelIdeal.Launch
import proofs.«165610_j52828097741217_2_alg».proof.Proof.Gen.KernelIdeal.Skeleton
import proofs.«165610_j52828097741217_2_alg».proof.Proof.Gen.KernelIdeal.Points
import proofs.«165610_j52828097741217_2_alg».proof.Proof.BodyVal
import Idealize.ShloMosaic.Lib.Pipeline.FrameBody
import Idealize.ShloMosaic.Lib.Ring
import Idealize.ShloMosaic.Lib.Tactic

-- membership in a rectangle of the block's extents: the elaborator's structural look recurses once per coordinate
-- of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the body leaves in the output window's buffer -/

/-- Window 5's staging buffer after the body, from the input windows' blocks: its one store, of the whole block. -/
def out0_5 (x0 : Vec F S128x2048 .f32) (x1 : Vec F S8x128x2048 .f32) (x2 : Vec F S256x4 .f32) (x3 : Vec F S128x128 .f32) (x4 : Vec F S128x5 .f32) : Vec F S128x2048 .f32 :=
  View.canon [⟨rTile, bodyVal x0 x1 x2 x3 x4⟩]

/-- The one store is the whole block, so it covers it. -/
theorem cover0_5 (p0 : Vec F S128x2048 .f32) (y : S128x2048.Idx) :
    ∃ pc ∈ ([⟨rTile, p0⟩] : List (View.Piece (Elt F) S128x2048 .f32)), y ∈ pc.1.set :=
  View.cover_of_tiled [⟨rTile, p0⟩] S128x2048.size (by rfl) y

/-! ## The body's triple -/

set_option maxHeartbeats 4000000 in
/-- The kernel body on whole staging memrefs, the inputs' at read contents `xW` and the output's at anything, runs to
    the continuation holding the inputs' as they were and the output's at `out0_5` of the inputs': the printed
    functions are their skeletons, run symbolically through every part call; the load of the output buffer reads
    whatever it holds and its value is not used. -/
theorem sound_kernel (c : Dev nD) (E : Set ℕ) (i : grid0.Coords) (arg1 : Memref sig .tc .vmem S128x2048 .f32) (harg1 : arg1.IsWhole) (arg2 : Memref sig .tc .vmem S8x128x2048 .f32) (harg2 : arg2.IsWhole) (arg3 : Memref sig .tc .vmem S256x4 .f32) (harg3 : arg3.IsWhole) (arg4 : Memref sig .tc .vmem S128x128 .f32) (harg4 : arg4.IsWhole) (arg5 : Memref sig .tc .vmem S128x5 .f32) (harg5 : arg5.IsWhole) (arg6 : Memref sig .tc .vmem S128x2048 .f32) (harg6 : arg6.IsWhole)
    (x0 : Vec F S128x2048 .f32) (x1 : Vec F S8x128x2048 .f32) (x2 : Vec F S256x4 .f32) (x3 : Vec F S128x128 .f32) (x4 : Vec F S128x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

end Cert.KernelIdeal.Hand

end
-- ==== Proof.KernelIdealFrame.lean ====
/-
  The frame of the kernel's program: the pipeline's proof data (each input window's buffer at its block, the output
  window's at `out0_5` of the five input blocks), the body obligation at a generic grid point from the body's
  triple, the frame run, and the frame claim's post.
-/
import proofs.«165610_j52828097741217_2_alg».proof.Proof.Gen.KernelIdeal.Launch
import proofs.«165610_j52828097741217_2_alg».proof.Proof.Gen.KernelIdeal.Skeleton
import proofs.«165610_j52828097741217_2_alg».proof.Proof.Gen.KernelIdeal.Points
import proofs.«165610_j52828097741217_2_alg».proof.Proof.KernelIdealLaunch
import proofs.«165610_j52828097741217_2_alg».proof.Proof.KernelIdealBody
import Idealize.ShloMosaic.Lib.Pipeline.FrameBody
import Idealize.ShloMosaic.Lib.Ring
import Idealize.ShloMosaic.Lib.Tactic

-- membership in a rectangle of the block's extents: the elaborator's structural look recurses once per coordinate
-- of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the output's at `out0_5` of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents: the definition projected, so that `V` — a fold over
    the host operations — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks (`before0_W`), so the body's triple applies; the
    invariant and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame-run theorem's implicit arguments are found by unifying its conclusion with this one, which takes
-- unfolding plain definitions in a metavariable's type
set_option backward.isDefEq.respectTransparency.types false in
/-- At the compiled mesh, for any values, from any memory with zero counters: every weakly fair execution of the
    program on the TensorCores terminates, and every final state has every array of the pipeline at what the proof
    data determine and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates without fault and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.LibColumnPieces.lean ====
/-
  Arrays laid side by side, read a column at a time; and a block of rows of such a join.

  Rank-two arrays with the same number of rows, joined along their second axis, give an array whose entry at
  (p, j) is the entry at (p, j - pre) of the piece whose span of columns holds j, pre being the number of columns of
  the pieces before it (cols_piece). Row p of the join is made of row p of each piece, and of nothing else:
  so when each of several blocks holds, row for row, the rows e p of its own array, the join of the blocks holds the
  rows e p of the join of the arrays (cols4_rows for four pieces, cols3_rows for three, of any widths).
-/
import Idealize.ShloMosaic.Lib.Pipeline.Value
import Idealize.ShloMosaic.Lib.ValueIdx

namespace Cert.LibColumnPieces

open Idealize.ShloMosaic Idealize.ShloMosaic.ValueIdx

variable {α : Type}

/-- Joined along the second axis: the piece at position k of the list, an [m, n] array with pre columns
    before it, is what the join reads at column pre + q, at its own column q. -/
theorem cols_piece {m N : ℕ} (xs : List ((s : Shape) × (s.Idx → α)))
    (h : Shape.Concatenates (xs.map (·.1)) ⟨2, ![m, N]⟩ (1 : Fin 2))
    (k : ℕ) (hk : k < xs.length) (n : ℕ) (x : (⟨2, ![m, n]⟩ : Shape).Idx → α) (hxk : xs[k] = ⟨⟨2, ![m, n]⟩, x⟩)
    (pre : ℕ)
    (hpre : (((xs.take k).map (·.1)).map fun s => if h : s.rank = (⟨2, ![m, N]⟩ : Shape).rank then s.size ((1 : Fin 2).cast h.symm) else 0).sum = pre)
    (p : Fin m) (q : Fin n) (j : Fin N) (hj : pre + q.val = j.val) :
    concatenate ⟨2, ![m, N]⟩ (1 : Fin 2) xs h (ix2 p j) = x (ix2 p q) :=
  concatenate_apply_piece (t := ⟨2, ![m, N]⟩) (1 : Fin 2) xs h (ix2 p j) k hk ⟨2, ![m, n]⟩ x hxk rfl pre hpre (ix2 p q)
    (fun b hb =>
      match b, hb with
      | ⟨0, _⟩, _ => rfl
      | ⟨1, _⟩, hb => absurd rfl hb)
    hj

/-- Four arrays side by side, and four blocks that hold, row for row, the rows e p of those arrays: the join of
    the blocks holds, row for row, the rows e p of the join of the arrays. -/
theorem cols4_rows {m M n0 n1 n2 n3 N : ℕ}
    (A0 : (⟨2, ![M, n0]⟩ : Shape).Idx → α) (A1 : (⟨2, ![M, n1]⟩ : Shape).Idx → α)
    (A2 : (⟨2, ![M, n2]⟩ : Shape).Idx → α) (A3 : (⟨2, ![M, n3]⟩ : Shape).Idx → α)
    (a0 : (⟨2, ![m, n0]⟩ : Shape).Idx → α) (a1 : (⟨2, ![m, n1]⟩ : Shape).Idx → α)
    (a2 : (⟨2, ![m, n2]⟩ : Shape).Idx → α) (a3 : (⟨2, ![m, n3]⟩ : Shape).Idx → α)
    (H : Shape.Concatenates [(⟨2, ![M, n0]⟩ : Shape), ⟨2, ![M, n1]⟩, ⟨2, ![M, n2]⟩, ⟨2, ![M, n3]⟩] ⟨2, ![M, N]⟩ (1 : Fin 2))
    (h : Shape.Concatenates [(⟨2, ![m, n0]⟩ : Shape), ⟨2, ![m, n1]⟩, ⟨2, ![m, n2]⟩, ⟨2, ![m, n3]⟩] ⟨2, ![m, N]⟩ (1 : Fin 2))
    (e : Fin m → Fin M)
    (h0 : ∀ (p : Fin m) (q : Fin n0), a0 (ix2 p q) = A0 (ix2 (e p) q))
    (h1 : ∀ (p : Fin m) (q : Fin n1), a1 (ix2 p q) = A1 (ix2 (e p) q))
    (h2 : ∀ (p : Fin m) (q : Fin n2), a2 (ix2 p q) = A2 (ix2 (e p) q))
    (h3 : ∀ (p : Fin m) (q : Fin n3), a3 (ix2 p q) = A3 (ix2 (e p) q))
    (p : Fin m) (j : Fin N) :
    concatenate ⟨2, ![m, N]⟩ (1 : Fin 2) [⟨⟨2, ![m, n0]⟩, a0⟩, ⟨⟨2, ![m, n1]⟩, a1⟩, ⟨⟨2, ![m, n2]⟩, a2⟩, ⟨⟨2, ![m, n3]⟩, a3⟩] h (ix2 p j)
      = concatenate ⟨2, ![M, N]⟩ (1 : Fin 2) [⟨⟨2, ![M, n0]⟩, A0⟩, ⟨⟨2, ![M, n1]⟩, A1⟩, ⟨⟨2, ![M, n2]⟩, A2⟩, ⟨⟨2, ![M, n3]⟩, A3⟩] H (ix2 (e p) j) := by
  have hN : n0 + (n1 + (n2 + (n3 + 0))) = N := h.2.2
  have hj := j.isLt
  by_cases c0 : j.val < n0
  · rw [cols_piece [⟨⟨2, ![m, n0]⟩, a0⟩, ⟨⟨2, ![m, n1]⟩, a1⟩, ⟨⟨2, ![m, n2]⟩, a2⟩, ⟨⟨2, ![m, n3]⟩, a3⟩] h 0 (by simp) n0 a0 rfl 0 (by simp) p ⟨j.val, c0⟩ j (by simp),
      cols_piece [⟨⟨2, ![M, n0]⟩, A0⟩, ⟨⟨2, ![M, n1]⟩, A1⟩, ⟨⟨2, ![M, n2]⟩, A2⟩, ⟨⟨2, ![M, n3]⟩, A3⟩] H 0 (by simp) n0 A0 rfl 0 (by simp) (e p) ⟨j.val, c0⟩ j (by simp), h0]
  · by_cases c1 : j.val < n0 + n1
    · rw [cols_piece [⟨⟨2, ![m, n0]⟩, a0⟩, ⟨⟨2, ![m, n1]⟩, a1⟩, ⟨⟨2, ![m, n2]⟩, a2⟩, ⟨⟨2, ![m, n3]⟩, a3⟩] h 1 (by simp) n1 a1 rfl n0 (by simp) p ⟨j.val - n0, by omega⟩ j (by show n0 + (j.val - n0) = j.val; omega),
        cols_piece [⟨⟨2, ![M, n0]⟩, A0⟩, ⟨⟨2, ![M, n1]⟩, A1⟩, ⟨⟨2, ![M, n2]⟩, A2⟩, ⟨⟨2, ![M, n3]⟩, A3⟩] H 1 (by simp) n1 A1 rfl n0 (by simp) (e p) ⟨j.val - n0, by omega⟩ j (by show n0 + (j.val - n0) = j.val; omega), h1]
    · by_cases c2 : j.val < n0 + n1 + n2
      · rw [cols_piece [⟨⟨2, ![m, n0]⟩, a0⟩, ⟨⟨2, ![m, n1]⟩, a1⟩, ⟨⟨2, ![m, n2]⟩, a2⟩, ⟨⟨2, ![m, n3]⟩, a3⟩] h 2 (by simp) n2 a2 rfl (n0 + n1) (by simp) p ⟨j.val - (n0 + n1), by omega⟩ j (by show n0 + n1 + (j.val - (n0 + n1)) = j.val; omega),
          cols_piece [⟨⟨2, ![M, n0]⟩, A0⟩, ⟨⟨2, ![M, n1]⟩, A1⟩, ⟨⟨2, ![M, n2]⟩, A2⟩, ⟨⟨2, ![M, n3]⟩, A3⟩] H 2 (by simp) n2 A2 rfl (n0 + n1) (by simp) (e p) ⟨j.val - (n0 + n1), by omega⟩ j (by show n0 + n1 + (j.val - (n0 + n1)) = j.val; omega), h2]
      · rw [cols_piece [⟨⟨2, ![m, n0]⟩, a0⟩, ⟨⟨2, ![m, n1]⟩, a1⟩, ⟨⟨2, ![m, n2]⟩, a2⟩, ⟨⟨2, ![m, n3]⟩, a3⟩] h 3 (by simp) n3 a3 rfl (n0 + n1 + n2) (by simp [Nat.add_assoc]) p ⟨j.val - (n0 + n1 + n2), by omega⟩ j (by show n0 + n1 + n2 + (j.val - (n0 + n1 + n2)) = j.val; omega),
          cols_piece [⟨⟨2, ![M, n0]⟩, A0⟩, ⟨⟨2, ![M, n1]⟩, A1⟩, ⟨⟨2, ![M, n2]⟩, A2⟩, ⟨⟨2, ![M, n3]⟩, A3⟩] H 3 (by simp) n3 A3 rfl (n0 + n1 + n2) (by simp [Nat.add_assoc]) (e p) ⟨j.val - (n0 + n1 + n2), by omega⟩ j (by show n0 + n1 + n2 + (j.val - (n0 + n1 + n2)) = j.val; omega), h3]

/-- The same for three arrays side by side. -/
theorem cols3_rows {m M n0 n1 n2 N : ℕ}
    (A0 : (⟨2, ![M, n0]⟩ : Shape).Idx → α) (A1 : (⟨2, ![M, n1]⟩ : Shape).Idx → α) (A2 : (⟨2, ![M, n2]⟩ : Shape).Idx → α)
    (a0 : (⟨2, ![m, n0]⟩ : Shape).Idx → α) (a1 : (⟨2, ![m, n1]⟩ : Shape).Idx → α) (a2 : (⟨2, ![m, n2]⟩ : Shape).Idx → α)
    (H : Shape.Concatenates [(⟨2, ![M, n0]⟩ : Shape), ⟨2, ![M, n1]⟩, ⟨2, ![M, n2]⟩] ⟨2, ![M, N]⟩ (1 : Fin 2))
    (h : Shape.Concatenates [(⟨2, ![m, n0]⟩ : Shape), ⟨2, ![m, n1]⟩, ⟨2, ![m, n2]⟩] ⟨2, ![m, N]⟩ (1 : Fin 2))
    (e : Fin m → Fin M)
    (h0 : ∀ (p : Fin m) (q : Fin n0), a0 (ix2 p q) = A0 (ix2 (e p) q))
    (h1 : ∀ (p : Fin m) (q : Fin n1), a1 (ix2 p q) = A1 (ix2 (e p) q))
    (h2 : ∀ (p : Fin m) (q : Fin n2), a2 (ix2 p q) = A2 (ix2 (e p) q))
    (p : Fin m) (j : Fin N) :
    concatenate ⟨2, ![m, N]⟩ (1 : Fin 2) [⟨⟨2, ![m, n0]⟩, a0⟩, ⟨⟨2, ![m, n1]⟩, a1⟩, ⟨⟨2, ![m, n2]⟩, a2⟩] h (ix2 p j)
      = concatenate ⟨2, ![M, N]⟩ (1 : Fin 2) [⟨⟨2, ![M, n0]⟩, A0⟩, ⟨⟨2, ![M, n1]⟩, A1⟩, ⟨⟨2, ![M, n2]⟩, A2⟩] H (ix2 (e p) j) := by
  have hN : n0 + (n1 + (n2 + 0)) = N := h.2.2
  have hj := j.isLt
  by_cases c0 : j.val < n0
  · rw [cols_piece [⟨⟨2, ![m, n0]⟩, a0⟩, ⟨⟨2, ![m, n1]⟩, a1⟩, ⟨⟨2, ![m, n2]⟩, a2⟩] h 0 (by simp) n0 a0 rfl 0 (by simp) p ⟨j.val, c0⟩ j (by simp),
      cols_piece [⟨⟨2, ![M, n0]⟩, A0⟩, ⟨⟨2, ![M, n1]⟩, A1⟩, ⟨⟨2, ![M, n2]⟩, A2⟩] H 0 (by simp) n0 A0 rfl 0 (by simp) (e p) ⟨j.val, c0⟩ j (by simp), h0]
  · by_cases c1 : j.val < n0 + n1
    · rw [cols_piece [⟨⟨2, ![m, n0]⟩, a0⟩, ⟨⟨2, ![m, n1]⟩, a1⟩, ⟨⟨2, ![m, n2]⟩, a2⟩] h 1 (by simp) n1 a1 rfl n0 (by simp) p ⟨j.val - n0, by omega⟩ j (by show n0 + (j.val - n0) = j.val; omega),
        cols_piece [⟨⟨2, ![M, n0]⟩, A0⟩, ⟨⟨2, ![M, n1]⟩, A1⟩, ⟨⟨2, ![M, n2]⟩, A2⟩] H 1 (by simp) n1 A1 rfl n0 (by simp) (e p) ⟨j.val - n0, by omega⟩ j (by show n0 + (j.val - n0) = j.val; omega), h1]
    · rw [cols_piece [⟨⟨2, ![m, n0]⟩, a0⟩, ⟨⟨2, ![m, n1]⟩, a1⟩, ⟨⟨2, ![m, n2]⟩, a2⟩] h 2 (by simp) n2 a2 rfl (n0 + n1) (by simp) p ⟨j.val - (n0 + n1), by omega⟩ j (by show n0 + n1 + (j.val - (n0 + n1)) = j.val; omega),
        cols_piece [⟨⟨2, ![M, n0]⟩, A0⟩, ⟨⟨2, ![M, n1]⟩, A1⟩, ⟨⟨2, ![M, n2]⟩, A2⟩] H 2 (by simp) n2 A2 rfl (n0 + n1) (by simp) (e p) ⟨j.val - (n0 + n1), by omega⟩ j (by show n0 + n1 + (j.val - (n0 + n1)) = j.val; omega), h2]

end Cert.LibColumnPieces
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KernelValueIn.lean ====
/-
  The arrays the region finds, and the windows' blocks, read at an index.

  Two of the windows' arrays are written by the host operations before the region: the [128, 65536] query array is
  the [1, 128, 65536] argument with its unit axis dropped, and the [128, 5] parameter array is five [128, 1]
  columns side by side — the dense layer's bias column, then the two gains and two offsets of the normalisations,
  each a [128] argument cast to a column. The other windows' arrays are arguments as launched.
  At grid point t the query and key windows hold the columns 2048 t … 2048 t + 2047 of their arrays; the three
  parameter windows hold their whole arrays at every point.
-/
import proofs.«165610_j52828097741217_2_alg».proof.Proof.KernelIdealFrame
import proofs.«165610_j52828097741217_2_alg».proof.Proof.LibColumnPieces
import proofs.«165610_j52828097741217_2_alg».proof.Proof.LibColumnCast
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## The host-written arrays -/

/-- A five-operand host operation's result with each operand's contents at its own reference. -/
theorem nary5_result {Val : EltTy → Type} {x a b c e y : Ref sig .tc}
    (f : ((k : Fin 5) → ((![x, a, b, c, e] : Fin 5 → Ref sig .tc) k).ty.Contents Val) → y.ty.Contents Val) (hxs hy)
    (W : Valuation τ sig Val) :
    (StableHlo.nary (τ := τ) ![x, a, b, c, e] y f hxs hy).result W (Proc.devRef .tc y)
      = f (Fin.cons (W (Proc.devRef .tc x)) (Fin.cons (W (Proc.devRef .tc a)) (Fin.cons (W (Proc.devRef .tc b))
          (Fin.cons (W (Proc.devRef .tc c)) (Fin.cons (W (Proc.devRef .tc e)) (fun i => i.elim0)))))) := by
  rw [StableHlo.nary_result]; congr 1; funext k; fin_cases k <;> rfl

/-- The query array the region finds is the query argument with its leading unit axis dropped. -/
theorem V_main_v0_eq (c : Dev nD) : (V m c main_v0 : S128x65536.Idx → Elt F .f32)
    = shapeCast S128x65536 (m ((c : Thread nD τ).loc main_arg0) : S1x128x65536.Idx → Elt F .f32) shapeCasts_S1x128x65536_S128x65536 := by
  dsimp only [V, hostOps0]; after_results; rfl

/-- Its entry at row d, column b is the argument's at (0, d, b). -/
theorem V_main_v0_apply (c : Dev nD) (d : Fin 128) (b : Fin 65536) :
    (V m c main_v0 : S128x65536.Idx → Elt F .f32) (ix2 d b)
      = (m ((c : Thread nD τ).loc main_arg0) : S1x128x65536.Idx → Elt F .f32) (ix3 (0 : Fin 1) d b) :=
  (congrFun (V_main_v0_eq m c) _).trans (shapeCast_1ab_ab_apply _ _ d b)

/-- The five columns the parameter array is made of. -/
abbrev paramCols (c : Dev nD) : List ((s : Shape) × (s.Idx → Elt F .f32)) :=
  [⟨S128x1, (m ((c : Thread nD τ).loc main_arg6) : S128x1.Idx → Elt F .f32)⟩,
        ⟨S128x1, shapeCast S128x1 (m ((c : Thread nD τ).loc main_arg3) : S128.Idx → Elt F .f32) shapeCasts_S128_S128x1⟩,
        ⟨S128x1, shapeCast S128x1 (m ((c : Thread nD τ).loc main_arg4) : S128.Idx → Elt F .f32) shapeCasts_S128_S128x1⟩,
        ⟨S128x1, shapeCast S128x1 (m ((c : Thread nD τ).loc main_arg7) : S128.Idx → Elt F .f32) shapeCasts_S128_S128x1⟩,
        ⟨S128x1, shapeCast S128x1 (m ((c : Thread nD τ).loc main_arg8) : S128.Idx → Elt F .f32) shapeCasts_S128_S128x1⟩]

/-- The parameter array the region finds: the bias column, then the four [128] parameter vectors as columns. -/
theorem V_main_v5_eq (c : Dev nD) : (V m c main_v5 : S128x5.Idx → Elt F .f32)
    = concatenate S128x5 1 (paramCols m c) concatenates_S128x1_S128x1_S128x1_S128x1_S128x1_S128x5_d1 := by
  dsimp only [V, hostOps0]
  simp only [StableHlo.after_cons, StableHlo.after_nil]
  rw [nary5_result]
  repeat (first
    | rw [StableHlo.reshape_result]
    | (rw [StableHlo.reshape_result_ne]; rotate_left; decide))
  rfl

/-- Column 0 of the parameter array is the dense layer's bias column. -/
theorem V_main_v5_col0 (c : Dev nD) (d : Fin 128) :
    (V m c main_v5 : S128x5.Idx → Elt F .f32) (ix2 d (0 : Fin 5)) = (m ((c : Thread nD τ).loc main_arg6) : S128x1.Idx → Elt F .f32) (ix2 d (0 : Fin 1)) :=
  (congrFun (V_main_v5_eq m c) _).trans
    (Cert.LibColumnPieces.cols_piece (paramCols m c) concatenates_S128x1_S128x1_S128x1_S128x1_S128x1_S128x5_d1 0 (by simp [paramCols]) 1 _ rfl 0 rfl
        d (0 : Fin 1) (0 : Fin 5) (by decide))
/-- Column 1 of the parameter array is the first normalisation's gain. -/
theorem V_main_v5_col1 (c : Dev nD) (d : Fin 128) :
    (V m c main_v5 : S128x5.Idx → Elt F .f32) (ix2 d (1 : Fin 5)) = (m ((c : Thread nD τ).loc main_arg3) : S128.Idx → Elt F .f32) (ix1 d) :=
  (congrFun (V_main_v5_eq m c) _).trans
    ((Cert.LibColumnPieces.cols_piece (paramCols m c) concatenates_S128x1_S128x1_S128x1_S128x1_S128x1_S128x5_d1 1 (by simp [paramCols]) 1 _ rfl 1 rfl
        d (0 : Fin 1) (1 : Fin 5) (by decide)).trans
      (Cert.LibColumnCast.shapeCast_a_a1_apply _ shapeCasts_S128_S128x1 d (0 : Fin 1)))
/-- Column 2 of the parameter array is the first normalisation's offset. -/
theorem V_main_v5_col2 (c : Dev nD) (d : Fin 128) :
    (V m c main_v5 : S128x5.Idx → Elt F .f32) (ix2 d (2 : Fin 5)) = (m ((c : Thread nD τ).loc main_arg4) : S128.Idx → Elt F .f32) (ix1 d) :=
  (congrFun (V_main_v5_eq m c) _).trans
    ((Cert.LibColumnPieces.cols_piece (paramCols m c) concatenates_S128x1_S128x1_S128x1_S128x1_S128x1_S128x5_d1 2 (by simp [paramCols]) 1 _ rfl 2 rfl
        d (0 : Fin 1) (2 : Fin 5) (by decide)).trans
      (Cert.LibColumnCast.shapeCast_a_a1_apply _ shapeCasts_S128_S128x1 d (0 : Fin 1)))
/-- Column 3 of the parameter array is the second normalisation's gain. -/
theorem V_main_v5_col3 (c : Dev nD) (d : Fin 128) :
    (V m c main_v5 : S128x5.Idx → Elt F .f32) (ix2 d (3 : Fin 5)) = (m ((c : Thread nD τ).loc main_arg7) : S128.Idx → Elt F .f32) (ix1 d) :=
  (congrFun (V_main_v5_eq m c) _).trans
    ((Cert.LibColumnPieces.cols_piece (paramCols m c) concatenates_S128x1_S128x1_S128x1_S128x1_S128x1_S128x5_d1 3 (by simp [paramCols]) 1 _ rfl 3 rfl
        d (0 : Fin 1) (3 : Fin 5) (by decide)).trans
      (Cert.LibColumnCast.shapeCast_a_a1_apply _ shapeCasts_S128_S128x1 d (0 : Fin 1)))
/-- Column 4 of the parameter array is the second normalisation's offset. -/
theorem V_main_v5_col4 (c : Dev nD) (d : Fin 128) :
    (V m c main_v5 : S128x5.Idx → Elt F .f32) (ix2 d (4 : Fin 5)) = (m ((c : Thread nD τ).loc main_arg8) : S128.Idx → Elt F .f32) (ix1 d) :=
  (congrFun (V_main_v5_eq m c) _).trans
    ((Cert.LibColumnPieces.cols_piece (paramCols m c) concatenates_S128x1_S128x1_S128x1_S128x1_S128x1_S128x5_d1 4 (by simp [paramCols]) 1 _ rfl 4 rfl
        d (0 : Fin 1) (4 : Fin 5) (by decide)).trans
      (Cert.LibColumnCast.shapeCast_a_a1_apply _ shapeCasts_S128_S128x1 d (0 : Fin 1)))

/-! ## The windows' blocks -/

/-- The printed index maps, decided over the grid: the query, key and output windows move along the columns with
    the point; the three parameter windows stay at block 0. -/
theorem idx_facts : ∀ t : Fin cfg0.N,
    win0_0.index t (0 : Fin 2) = 0 ∧ win0_0.index t (1 : Fin 2) = t.val
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The query window's block at point t is columns 2048 t … of the query array. -/
theorem iblk0_apply (c : Dev nD) (t : Fin cfg0.N) (x : S128x2048.Idx) (k : S128x65536.Idx)
    (hk0 : (k 0).val = (x 0).val) (hk1 : (k 1).val = t.val * 2048 + (x 1).val) :
    (iblk m c 0 t : Vec F S128x2048 .f32) x = (V m c main_v0 : S128x65536.Idx → Elt F .f32) k := by
  obtain ⟨e0, e1, -⟩ := idx_facts t
  unfold iblk
  rw [View.read_apply]
  show (V m c main_v0 : S128x65536.Idx → Elt F .f32) _ = (V m c main_v0 : S128x65536.Idx → Elt F .f32) k
  refine congrArg (V m c main_v0 : S128x65536.Idx → Elt F .f32) (funext fun a => Fin.ext ?_)
  match a with
  | ⟨0, _⟩ => show win0_0.index t (0 : Fin 2) * 128 + 1 * (x 0).val = (k 0).val; rw [e0, hk0]; omega
  | ⟨1, _⟩ => show win0_0.index t (1 : Fin 2) * 2048 + 1 * (x 1).val = (k 1).val; rw [e1, hk1]; omega

/-- The key window's block at point t is columns 2048 t … of the key argument, all paths and rows. -/
theorem iblk1_apply (c : Dev nD) (t : Fin cfg0.N) (x : S8x128x2048.Idx) (k : S8x128x65536.Idx)
    (hk0 : (k 0).val = (x 0).val) (hk1 : (k 1).val = (x 1).val) (hk2 : (k 2).val = t.val * 2048 + (x 2).val) :
    (iblk m c 1 t : Vec F S8x128x2048 .f32) x = (m ((c : Thread nD τ).loc main_arg1) : S8x128x65536.Idx → Elt F .f32) k := by
  obtain ⟨-, -, e0, e1, e2, -⟩ := idx_facts t
  unfold iblk
  rw [View.read_apply]
  show (V m c main_arg1 : S8x128x65536.Idx → Elt F .f32) _ = _
  rw [V_main_arg1]
  refine congrArg (m ((c : Thread nD τ).loc main_arg1) : S8x128x65536.Idx → Elt F .f32) (funext fun a => Fin.ext ?_)
  match a with
  | ⟨0, _⟩ => show win0_1.index t (0 : Fin 3) * 8 + 1 * (x 0).val = (k 0).val; rw [e0, hk0]; omega
  | ⟨1, _⟩ => show win0_1.index t (1 : Fin 3) * 128 + 1 * (x 1).val = (k 1).val; rw [e1, hk1]; omega
  | ⟨2, _⟩ => show win0_1.index t (2 : Fin 3) * 2048 + 1 * (x 2).val = (k 2).val; rw [e2, hk2]; omega

/-- The attention-vector window's block is the whole argument at every point. -/
theorem iblk2_eq (c : Dev nD) (t : Fin cfg0.N) :
    (iblk m c 2 t : Vec F S256x4 .f32) = (m ((c : Thread nD τ).loc main_arg2) : S256x4.Idx → Elt F .f32) := by
  obtain ⟨-, -, -, -, -, e0, e1, -⟩ := idx_facts t
  funext x
  unfold iblk
  rw [View.read_apply]
  show (V m c main_arg2 : S256x4.Idx → Elt F .f32) _ = _
  rw [V_main_arg2]
  refine congrArg (m ((c : Thread nD τ).loc main_arg2) : S256x4.Idx → Elt F .f32) (funext fun a => Fin.ext ?_)
  match a with
  | ⟨0, _⟩ => show win0_2.index t (0 : Fin 2) * 256 + 1 * (x 0).val = (x 0).val; rw [e0]; omega
  | ⟨1, _⟩ => show win0_2.index t (1 : Fin 2) * 4 + 1 * (x 1).val = (x 1).val; rw [e1]; omega

/-- The post matrix's window's block is the whole argument at every point. -/
theorem iblk3_eq (c : Dev nD) (t : Fin cfg0.N) :
    (iblk m c 3 t : Vec F S128x128 .f32) = (m ((c : Thread nD τ).loc main_arg5) : S128x128.Idx → Elt F .f32) := by
  obtain ⟨-, -, -, -, -, -, -, e0, e1, -⟩ := idx_facts t
  funext x
  unfold iblk
  rw [View.read_apply]
  show (V m c main_arg5 : S128x128.Idx → Elt F .f32) _ = _
  rw [V_main_arg5]
  refine congrArg (m ((c : Thread nD τ).loc main_arg5) : S128x128.Idx → Elt F .f32) (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The parameter window's block is the whole parameter array at every point. -/
theorem iblk4_eq (c : Dev nD) (t : Fin cfg0.N) :
    (iblk m c 4 t : Vec F S128x5 .f32) = (V m c main_v5 : S128x5.Idx → Elt F .f32) := by
  obtain ⟨-, -, -, -, -, -, -, -, -, e0, e1, -⟩ := idx_facts t
  funext x
  unfold iblk
  rw [View.read_apply]
  show (V m c main_v5 : S128x5.Idx → Elt F .f32) _ = (V m c main_v5 : S128x5.Idx → Elt F .f32) x
  refine congrArg (V m c main_v5 : S128x5.Idx → Elt F .f32) (funext fun a => Fin.ext ?_)
  match a with
  | ⟨0, _⟩ => show win0_4.index t (0 : Fin 2) * 128 + 1 * (x 0).val = (x 0).val; rw [e0]; omega
  | ⟨1, _⟩ => show win0_4.index t (1 : Fin 2) * 5 + 1 * (x 1).val = (x 1).val; rw [e1]; omega

end Cert.KernelIdeal.Hand

end
-- ==== Proof.Spec.lean ====
/-
  The function both programs compute, one batch column at a time, on the extended reals.

  For a column b: the query column q (128 entries), the eight key columns k n, the attention vectors split into
  their query half aq and key half ak (128 x 4 each). Head h of path n scores
      s(n,h) = sum_d aq(d,h) q(d) + sum_d ak(d,h) k(n,d),
  passes the leaky rectifier l = s for s > 0 and slope * s otherwise, and the eight paths are soft-maxed per head:
      w(n,h) = exp(l(n,h) - M(h)) * (1 / Z(h)),  M the maximum over the paths, Z the sum of the exponentials.
  The heads' weights are added, sn(n) = sum_h w(n,h), the keys mixed, c(d) = sum_n k(n,d) sn(n), and
      x(d) = max(c(d)/4, 0) + q(d).
  Two layer normalisations over the 128 entries of the column follow, with a dense layer and a skip between them:
      y = g1 (x - mean x) rsqrt(var x + eps) + b1,   z = W y + pb + y,   out = g2 (z - mean z) rsqrt(var z + eps) + b2.
  The sums over the eight paths are written as the left-nested chains the kernel forms, so that the kernel's
  stored value is this function by unfolding; the reference's arrangement is joined to it by laws of the
  extended reals.
-/
import Idealize.ShloMosaic.PureOps.Ideal
import Idealize.ShloMosaic.Lib.ValueIdx

noncomputable section

namespace Cert.Spec

open Idealize.ShloMosaic Idealize.ShloMosaic.ValueIdx

/-- The leaky rectifier's slope, 0.01 rounded to f32. -/
abbrev cSlope : EReal := Ideal.ofBits .f32 0x3C23D70A#32
/-- One. -/
abbrev cOne : EReal := Ideal.ofBits .f32 0x3F800000#32
/-- A quarter: the mean over the four heads. -/
abbrev cQuarter : EReal := Ideal.ofBits .f32 0x3E800000#32
/-- The length of a column, 128. -/
abbrev c128 : EReal := Ideal.ofBits .f32 0x43000000#32
/-- The normalisations' epsilon, 1e-6 rounded to f32. -/
abbrev cEps : EReal := Ideal.ofBits .f32 0x358637BD#32

/-- The leaky rectifier: the identity on the positives, a small slope elsewhere. -/
def leaky (s : EReal) : EReal := if 0 < s then s else cSlope * s

/-- Head h's score of one key column against the query column. -/
def score (aq ak : Fin 128 → Fin 4 → EReal) (q kn : Fin 128 → EReal) (h : Fin 4) : EReal :=
  (∑ d : Fin 128, aq d h * q d) + (∑ d : Fin 128, ak d h * kn d)

/-- The rectified score of path n at head h. -/
def lk (aq ak : Fin 128 → Fin 4 → EReal) (q : Fin 128 → EReal) (k : Fin 8 → Fin 128 → EReal) (n : Fin 8) (h : Fin 4) : EReal :=
  leaky (score aq ak q (k n) h)

/-- The maximum of eight numbers, nested from the left. -/
def mx (l : Fin 8 → EReal) : EReal :=
  max (max (max (max (max (max (max (l 0) (l 1)) (l 2)) (l 3)) (l 4)) (l 5)) (l 6)) (l 7)

/-- The shifted exponential of path n. -/
def ex (l : Fin 8 → EReal) (n : Fin 8) : EReal := Ideal.exp (l n - mx l)

/-- The soft-max's normaliser: the eight exponentials added from the left. -/
def Z (l : Fin 8 → EReal) : EReal :=
  ex l 0 + ex l 1 + ex l 2 + ex l 3 + ex l 4 + ex l 5 + ex l 6 + ex l 7

/-- The soft-max weight of path n: its exponential times the normaliser's reciprocal. -/
def wgt (l : Fin 8 → EReal) (n : Fin 8) : EReal := ex l n * Ideal.div cOne (Z l)

/-- Path n's weight added over the four heads; L n h is the rectified score. -/
def sn (L : Fin 8 → Fin 4 → EReal) (n : Fin 8) : EReal := ∑ h : Fin 4, wgt (fun n' => L n' h) n

/-- The keys mixed by the paths' weights, added from the left onto zero. -/
def comb (L : Fin 8 → Fin 4 → EReal) (k : Fin 8 → Fin 128 → EReal) (d : Fin 128) : EReal :=
  0 + k 0 d * sn L 0 + k 1 d * sn L 1 + k 2 d * sn L 2 + k 3 d * sn L 3 + k 4 d * sn L 4 + k 5 d * sn L 5
    + k 6 d * sn L 6 + k 7 d * sn L 7

/-- The attended column: the heads' mean, rectified, plus the query. -/
def pre (L : Fin 8 → Fin 4 → EReal) (k : Fin 8 → Fin 128 → EReal) (q : Fin 128 → EReal) (d : Fin 128) : EReal :=
  max (comb L k d * cQuarter) 0 + q d

/-- The mean of a column of 128 entries. -/
def mean (x : Fin 128 → EReal) : EReal := Ideal.div (∑ d : Fin 128, x d) c128

/-- The variance of a column: the mean of the squared deviations. -/
def var (x : Fin 128 → EReal) : EReal := mean (fun d => (x d - mean x) * (x d - mean x))

/-- Layer normalisation of a column with gain g and offset β. -/
def lnorm (g β x : Fin 128 → EReal) (d : Fin 128) : EReal :=
  g d * (x d - mean x) * Ideal.rsqrt (var x + cEps) + β d

/-- The dense layer with its bias column and the skip connection. -/
def lin (W : Fin 128 → Fin 128 → EReal) (pb y : Fin 128 → EReal) (d : Fin 128) : EReal :=
  (∑ j : Fin 128, W d j * y j) + pb d + y d

/-- One output column from the column's inputs and the parameters. -/
def colOut (aq ak : Fin 128 → Fin 4 → EReal) (q : Fin 128 → EReal) (k : Fin 8 → Fin 128 → EReal)
    (g1 b1 : Fin 128 → EReal) (W : Fin 128 → Fin 128 → EReal) (pb g2 b2 : Fin 128 → EReal) : Fin 128 → EReal :=
  lnorm g2 b2 (lin W pb (lnorm g1 b1 (pre (lk aq ak q k) k q)))

/-- The output at row d of batch column b, from the nine argument arrays. -/
def Gat (A0 : (⟨3, ![1, 128, 65536]⟩ : Shape).Idx → EReal) (A1 : (⟨3, ![8, 128, 65536]⟩ : Shape).Idx → EReal)
    (A2 : (⟨2, ![256, 4]⟩ : Shape).Idx → EReal) (A3 A4 : (⟨1, ![128]⟩ : Shape).Idx → EReal)
    (A5 : (⟨2, ![128, 128]⟩ : Shape).Idx → EReal) (A6 : (⟨2, ![128, 1]⟩ : Shape).Idx → EReal)
    (A7 A8 : (⟨1, ![128]⟩ : Shape).Idx → EReal) (d : Fin 128) (b : Fin 65536) : EReal :=
  colOut (fun d' h => A2 (ix2 (⟨d'.val, by omega⟩ : Fin 256) h)) (fun d' h => A2 (ix2 (⟨128 + d'.val, by omega⟩ : Fin 256) h))
    (fun d' => A0 (ix3 (0 : Fin 1) d' b)) (fun n d' => A1 (ix3 n d' b))
    (fun d' => A3 (ix1 d')) (fun d' => A4 (ix1 d')) (fun d' j => A5 (ix2 d' j)) (fun d' => A6 (ix2 d' (0 : Fin 1)))
    (fun d' => A7 (ix1 d')) (fun d' => A8 (ix1 d')) d

/-- The whole [128, 65536] result as one function of the nine argument arrays. -/
def G (A0 : (⟨3, ![1, 128, 65536]⟩ : Shape).Idx → EReal) (A1 : (⟨3, ![8, 128, 65536]⟩ : Shape).Idx → EReal)
    (A2 : (⟨2, ![256, 4]⟩ : Shape).Idx → EReal) (A3 A4 : (⟨1, ![128]⟩ : Shape).Idx → EReal)
    (A5 : (⟨2, ![128, 128]⟩ : Shape).Idx → EReal) (A6 : (⟨2, ![128, 1]⟩ : Shape).Idx → EReal)
    (A7 A8 : (⟨1, ![128]⟩ : Shape).Idx → EReal) : (⟨2, ![128, 65536]⟩ : Shape).Idx → EReal :=
  fun i => Gat A0 A1 A2 A3 A4 A5 A6 A7 A8 (i 0) (i 1)

end Cert.Spec

end
-- ==== Proof.LibAxisSums.lean ====
import Idealize.ShloMosaic.PureOps.Ideal.Laws
import Idealize.ShloMosaic.Lib.Pipeline.Value
import Idealize.ShloMosaic.Lib.ValueIdx

/-! # Sums over one axis of a small-rank array, read at an index by coordinates

At exact values a vector sum-reduction over one axis, from the zero word, is at a result index the sum over that axis's
coordinate of the source at the index with the coordinate put back: the middle or the last axis of a rank-3 array, the
last or the first axis of a rank-2 array. With them: a sum over a rank-1 index set is the sum over its one coordinate,
and a shape cast that removes a unit axis in second place of a rank-4 array reads the operand with `0` there. -/

namespace Cert.LibAxisSums

open Idealize.ShloMosaic Idealize.ShloMosaic.ValueIdx
open scoped BigOperators

variable {α : Type}

/-- A rank-1 index set is its one coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An `[a, 1, b, c]` array cast to `[a, b, c]`: the unit axis is dropped. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    simp only [Nat.mul_one, Nat.add_zero])

/-- The sum over the middle axis of an `[a, b, c]` array, from the zero word, at `(i, k)`. -/
theorem sum_mid3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  show ∑ j : Fin b, src (h.lift (ix2 i k) j) = _
  refine Finset.sum_congr rfl fun j _ => congrArg src (funext fun ax => Fin.ext ?_)
  match ax with
  | ⟨0, _⟩ => rfl
  | ⟨1, _⟩ => rfl
  | ⟨2, _⟩ => rfl

/-- The sum over the last axis of an `[a, b, c]` array, from the zero word, at `(i, j)`. -/
theorem sum_last3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

/-- The sum over the last axis of an `[a, b]` array, from the zero word, at `i`. -/
theorem sum_last2_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = _
  refine Finset.sum_congr rfl fun j _ => congrArg src (funext fun ax => Fin.ext ?_)
  match ax with
  | ⟨0, _⟩ => rfl
  | ⟨1, _⟩ => rfl

/-- The sum over the first axis of an `[a, b]` array, from the zero word, at `j`. -/
theorem sum_first2_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = _
  refine Finset.sum_congr rfl fun i _ => congrArg src (funext fun ax => Fin.ext ?_)
  match ax with
  | ⟨0, _⟩ => rfl
  | ⟨1, _⟩ => rfl

end Cert.LibAxisSums
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.BodyBasics.lean ====
/-
  The elementary readings from which the kernel body's value is assembled, on the extended reals: a block loaded
  through the whole-array rectangle, one slab of the key stack cast to a matrix, the two matrix products into the zero
  splat, the leaky rectifier written as a comparison and a select, a lane sum broadcast back over the rows, and one
  column of the packed parameters.
-/
import proofs.«165610_j52828097741217_2_alg».proof.Proof.BodyVal
import proofs.«165610_j52828097741217_2_alg».proof.Proof.Spec
import proofs.«165610_j52828097741217_2_alg».proof.Proof.LibAxisSums
import proofs.«165610_j52828097741217_2_alg».proof.Proof.LibColumnBroadcast
import Idealize.ShloMosaic.Lib.ValueLayout
import Idealize.ShloMosaic.PureOps.Ideal.Laws

noncomputable section

namespace Cert.KernelIdeal.Hand

open Idealize.ShloMosaic Idealize.SL.Sem Idealize.ShloMosaic.ValueIdx Cert.KernelIdeal Cert.KernelIdeal.Gen
open scoped BigOperators

/-- A matrix loaded through the rectangle that covers it reads the matrix itself. -/
theorem ld_whole2 {n0 n1 : ℕ} {e : EltTy} (X : Vec Ideal ⟨2, ![n0, n1]⟩ e)
    (inb : ∀ a, (![0, 0] : Fin 2 → ℕ) a + (⟨2, ![n0, n1]⟩ : Shape).size a ≤ (⟨2, ![n0, n1]⟩ : Shape).size a)
    (k : Fin n0) (q : Fin n1) :
    View.ld X (Rect.unit (s := ⟨2, ![n0, n1]⟩) ![0, 0] (⟨2, ![n0, n1]⟩ : Shape).size inb) (ix2 k q) = X (ix2 k q) := by
  show X ((Rect.unit (s := ⟨2, ![n0, n1]⟩) ![0, 0] (⟨2, ![n0, n1]⟩ : Shape).size inb).idx (ix2 k q)) = _
  refine congrArg X (funext fun a => Fin.ext ?_)
  match a with
  | ⟨0, _⟩ => show 0 + 1 * k.val = k.val; omega
  | ⟨1, _⟩ => show 0 + 1 * q.val = q.val; omega

/-- Slab n of the stack of key tiles, loaded as a [1,128,2048] block and cast to a [128,2048] matrix, reads at (d, c)
    the stack at (n, d, c). The slab's number is passed as an element of the leading extent equal to the printed offset. -/
theorem slab_apply (x1 : Vec Ideal S8x128x2048 .f32) (o : ℕ) (n : Fin 8) (hn : n.val = o)
    (inb : ∀ a, (![o, 0, 0] : Fin 3 → ℕ) a + S1x128x2048.size a ≤ S8x128x2048.size a)
    (hc : S1x128x2048.ShapeCasts S128x2048) (d : Fin 128) (c : Fin 2048) :
    shapeCast S128x2048 (View.ld x1 (Rect.unit (s := S8x128x2048) ![o, 0, 0] S1x128x2048.size inb)) hc (ix2 d c)
      = x1 (ix3 n d c) := by
  refine (shapeCast_1ab_ab_apply _ hc d c).trans ?_
  show x1 ((Rect.unit (s := S8x128x2048) ![o, 0, 0] S1x128x2048.size inb).idx (ix3 (0 : Fin 1) d c)) = _
  refine congrArg x1 (funext fun a => Fin.ext ?_)
  match a with
  | ⟨0, _⟩ => show o + 1 * 0 = n.val; omega
  | ⟨1, _⟩ => show 0 + 1 * d.val = d.val; omega
  | ⟨2, _⟩ => show 0 + 1 * c.val = c.val; omega

/-- The score product contracts the first axis of both operands: into the zero splat, its (h, c) entry is
    the sum over d of A(d, h) · B(d, c). -/
theorem scoreMatmul_apply (A : FVec Ideal S128x4 .f32) (B : FVec Ideal S128x2048 .f32) (h : Fin 4) (c : Fin 2048) :
    matmul dot_S128x4_S128x2048_S4x2048_0_0_1_1_n_n none A B (constant S4x2048 .f32 0x00000000#32) (ix2 h c)
      = ∑ d : Fin 128, A (ix2 d h) * B (ix2 d c) := by
  show FloatOps.matmul dot_S128x4_S128x2048_S4x2048_0_0_1_1_n_n none A B (constant S4x2048 .f32 0x00000000#32) (ix2 h c) = _
  rw [Ideal.matmul_constant_zero_apply,
    ← Equiv.sum_comp (contrEquiv1 dot_S128x4_S128x2048_S4x2048_0_0_1_1_n_n 128 rfl rfl).symm]
  refine Finset.sum_congr rfl fun d _ => ?_
  have hd := contrEquiv1_symm_val dot_S128x4_S128x2048_S4x2048_0_0_1_1_n_n 128 rfl rfl d
  have el : dot_S128x4_S128x2048_S4x2048_0_0_1_1_n_n.lhsIdx (ix2 h c)
      ((contrEquiv1 dot_S128x4_S128x2048_S4x2048_0_0_1_1_n_n 128 rfl rfl).symm d) = ix2 d h := by
    funext ax; apply Fin.ext
    match ax with
    | ⟨0, _⟩ => simp [DotDims.lhsIdx, dot_S128x4_S128x2048_S4x2048_0_0_1_1_n_n]; exact hd
    | ⟨1, _⟩ => simp [DotDims.lhsIdx, dot_S128x4_S128x2048_S4x2048_0_0_1_1_n_n]; rfl
  have er : dot_S128x4_S128x2048_S4x2048_0_0_1_1_n_n.rhsIdx (ix2 h c)
      ((contrEquiv1 dot_S128x4_S128x2048_S4x2048_0_0_1_1_n_n 128 rfl rfl).symm d) = ix2 d c := by
    funext ax; apply Fin.ext
    match ax with
    | ⟨0, _⟩ => simp [DotDims.rhsIdx, dot_S128x4_S128x2048_S4x2048_0_0_1_1_n_n]; exact hd
    | ⟨1, _⟩ => simp [DotDims.rhsIdx, dot_S128x4_S128x2048_S4x2048_0_0_1_1_n_n]; rfl
  rw [el, er]

/-- The dense layer's product is the plain one: into the zero splat, its (d, c) entry is the sum over j of
    W(d, j) · Y(j, c). -/
theorem denseMatmul_apply (W : FVec Ideal S128x128 .f32) (Y : FVec Ideal S128x2048 .f32) (d : Fin 128) (c : Fin 2048) :
    matmul dot_S128x128_S128x2048_S128x2048_1_0_0_1_n_n none W Y (constant S128x2048 .f32 0x00000000#32) (ix2 d c)
      = ∑ j : Fin 128, W (ix2 d j) * Y (ix2 j c) := by
  show FloatOps.matmul dot_S128x128_S128x2048_S128x2048_1_0_0_1_n_n none W Y (constant S128x2048 .f32 0x00000000#32) (ix2 d c) = _
  rw [Ideal.matmul_constant_zero_apply,
    ← Equiv.sum_comp (contrEquiv1 dot_S128x128_S128x2048_S128x2048_1_0_0_1_n_n 128 rfl rfl).symm]
  refine Finset.sum_congr rfl fun j _ => ?_
  have hj := contrEquiv1_symm_val dot_S128x128_S128x2048_S128x2048_1_0_0_1_n_n 128 rfl rfl j
  have el : dot_S128x128_S128x2048_S128x2048_1_0_0_1_n_n.lhsIdx (ix2 d c)
      ((contrEquiv1 dot_S128x128_S128x2048_S128x2048_1_0_0_1_n_n 128 rfl rfl).symm j) = ix2 d j := by
    funext ax; apply Fin.ext
    match ax with
    | ⟨0, _⟩ => simp [DotDims.lhsIdx, dot_S128x128_S128x2048_S128x2048_1_0_0_1_n_n]; rfl
    | ⟨1, _⟩ => simp [DotDims.lhsIdx, dot_S128x128_S128x2048_S128x2048_1_0_0_1_n_n]; exact hj
  have er : dot_S128x128_S128x2048_S128x2048_1_0_0_1_n_n.rhsIdx (ix2 d c)
      ((contrEquiv1 dot_S128x128_S128x2048_S128x2048_1_0_0_1_n_n 128 rfl rfl).symm j) = ix2 j c := by
    funext ax; apply Fin.ext
    match ax with
    | ⟨0, _⟩ => simp [DotDims.rhsIdx, dot_S128x128_S128x2048_S128x2048_1_0_0_1_n_n]; exact hj
    | ⟨1, _⟩ => simp [DotDims.rhsIdx, dot_S128x128_S128x2048_S128x2048_1_0_0_1_n_n]; rfl
  rw [el, er]

/-- The leaky rectifier as the kernel forms it: compare with zero, select the score or its multiple by the slope. -/
theorem leaky_select (s : EReal) :
    Scalar.select (Ideal.cmp .ogt s (Ideal.ofBits .f32 0x00000000#32)) s (Ideal.ofBits .f32 0x3C23D70A#32 * s)
      = Cert.Spec.leaky s := by
  unfold Cert.Spec.leaky Ideal.cmp
  rw [Ideal.ofBits_zero_f32]
  by_cases h : (0 : EReal) < s
  · simp [Scalar.select, h]
  · simp [Scalar.select, h]

/-- The sum over the four heads of a [4,2048] array, kept as a row and broadcast over the 128 rows: at (d, c) it is
    the sum over h of the array at (h, c). -/
theorem headSum_apply (W : FVec Ideal S4x2048 .f32) (hr : S4x2048.Reduces [0] S2048) (hc : S2048.ShapeCasts S1x2048)
    (hb : S1x2048.Broadcasts S128x2048) (d : Fin 128) (c : Fin 2048) :
    broadcastTo S128x2048 (shapeCast S1x2048 (multiReduction .add [0] S2048 W 0x00000000#32 hr (.inl rfl) rfl) hc) hb (ix2 d c)
      = ∑ h : Fin 4, W (ix2 h c) := by
  refine (broadcastTo_1b_ab_apply _ hb d c).trans ?_
  refine (shapeCast_a_1a_apply _ hc (0 : Fin 1) c).trans ?_
  exact Cert.LibAxisSums.sum_first2_apply W hr (.inl rfl) rfl c

/-- The sum down a column of a [128,2048] array, kept as a row: at (0, c) it is the sum over d of the array at (d, c). -/
theorem colSum_apply (X : FVec Ideal S128x2048 .f32) (hr : S128x2048.Reduces [0] S2048) (hc : S2048.ShapeCasts S1x2048)
    (c : Fin 2048) :
    shapeCast S1x2048 (multiReduction .add [0] S2048 X 0x00000000#32 hr (.inl rfl) rfl) hc (ix2 (0 : Fin 1) c)
      = ∑ d : Fin 128, X (ix2 d c) := by
  refine (shapeCast_a_1a_apply _ hc (0 : Fin 1) c).trans ?_
  exact Cert.LibAxisSums.sum_first2_apply X hr (.inl rfl) rfl c

/-- Column k of the packed parameters, cut out as a [128,1] array, reads the block's column k. -/
theorem parCol_apply (V : FVec Ideal S128x5 .f32) (o : ℕ) (k : Fin 5) (hk : k.val = o) (hs : S128x5.Slices ![0, o] S128x1)
    (d : Fin 128) (u : Fin 1) : extractStridedSlice S128x1 ![0, o] V hs (ix2 d u) = V (ix2 d k) :=
  slice2_axis1_apply o V hs d u k (by omega)

end Cert.KernelIdeal.Hand

end
-- ==== Proof.BodyScores.lean ====
/-
  The rectified attention scores of the eight paths, read at head h of batch column c, as the column function's.

  The query half of the attention vectors meets the query tile in one product shared by all paths,
  sum_d aq(d,h) q(d,c); each path n adds its own product of the key half with its slab of the key stack,
  sum_d ak(d,h) k(n,d,c); the leaky rectifier follows. The first three paths' payloads are written over the loaded
  blocks, the other five over the shared product and the key half already formed: the same value.
-/
import proofs.«165610_j52828097741217_2_alg».proof.Proof.BodyBasics

noncomputable section

namespace Cert.KernelIdeal.Hand

open Idealize.ShloMosaic Idealize.SL.Sem Idealize.ShloMosaic.ValueIdx Cert.KernelIdeal Cert.KernelIdeal.Gen
open scoped BigOperators

/-- The query half of the attention vectors: rows 0 … 127 of the [256,4] block. -/
abbrev colAq (x2 : Vec Ideal S256x4 .f32) : Fin 128 → Fin 4 → EReal :=
  fun d' h => x2 (ix2 (⟨d'.val, by omega⟩ : Fin 256) h)
/-- The key half of the attention vectors: rows 128 … 255. -/
abbrev colAk (x2 : Vec Ideal S256x4 .f32) : Fin 128 → Fin 4 → EReal :=
  fun d' h => x2 (ix2 (⟨128 + d'.val, by omega⟩ : Fin 256) h)
/-- Column c of the query tile. -/
abbrev colQ (x0 : Vec Ideal S128x2048 .f32) (c : Fin 2048) : Fin 128 → EReal := fun d' => x0 (ix2 d' c)
/-- Column c of the eight key tiles. -/
abbrev colK (x1 : Vec Ideal S8x128x2048 .f32) (c : Fin 2048) : Fin 8 → Fin 128 → EReal := fun n d' => x1 (ix3 n d' c)

/-- The query tile's cast to its own shape reads the loaded tile. -/
theorem pay2_apply (x0 : Vec Ideal S128x2048 .f32) (d : Fin 128) (c : Fin 2048) :
    k0_pay2 (View.ld x0 rTile) (ix2 d c) = x0 (ix2 d c) := by
  unfold k0_pay2
  rw [shapeCast_self]
  exact ld_whole2 x0 _ d c

/-- The key half, cut out of the loaded attention vectors. -/
theorem pay3_apply (x2 : Vec Ideal S256x4 .f32) (d : Fin 128) (h : Fin 4) :
    k0_pay3 (View.ld x2 rAtt) (ix2 d h) = colAk x2 d h := by
  unfold k0_pay3
  refine (slice2_axis0_apply 128 _ _ d h (⟨128 + d.val, by omega⟩ : Fin 256) rfl).trans ?_
  exact ld_whole2 x2 _ _ h

/-- The product shared by the eight paths: the query half against the query tile. -/
theorem pay4_apply (x0 : Vec Ideal S128x2048 .f32) (x2 : Vec Ideal S256x4 .f32) (h : Fin 4) (c : Fin 2048) :
    k0_pay4 (View.ld x0 rTile) (View.ld x2 rAtt) (ix2 h c) = ∑ d : Fin 128, colAq x2 d h * colQ x0 c d := by
  unfold k0_pay4
  refine (scoreMatmul_apply _ _ h c).trans ?_
  refine Finset.sum_congr rfl fun d _ => ?_
  rw [pay2_apply]
  refine congrArg (· * x0 (ix2 d c)) ?_
  refine (slice2_axis0_apply 0 _ _ d h (⟨d.val, by omega⟩ : Fin 256) (Nat.zero_add _).symm).trans ?_
  exact ld_whole2 x2 _ _ h

/-- One path's rectified scores in the kernel's arrangement: the shared product plus the path's own, compared with
    zero, and the sum or its multiple by the slope selected. -/
theorem leakyScore_apply (A : FVec Ideal S128x4 .f32) (V5 : FVec Ideal S4x2048 .f32) (Kn : FVec Ideal S128x2048 .f32)
    (h : Fin 4) (c : Fin 2048) :
    select
        (cmpf .ogt (addf V5 (matmul dot_S128x4_S128x2048_S4x2048_0_0_1_1_n_n none A Kn (constant S4x2048 .f32 0x00000000#32)))
          (broadcast S4x2048 (Scalar.ofBits (F := Ideal) .f32 0x00000000#32)))
        (addf V5 (matmul dot_S128x4_S128x2048_S4x2048_0_0_1_1_n_n none A Kn (constant S4x2048 .f32 0x00000000#32)))
        (mulf (broadcast S4x2048 (Scalar.ofBits (F := Ideal) .f32 0x3C23D70A#32))
          (addf V5 (matmul dot_S128x4_S128x2048_S4x2048_0_0_1_1_n_n none A Kn (constant S4x2048 .f32 0x00000000#32))))
        (ix2 h c)
      = Cert.Spec.leaky (V5 (ix2 h c) + ∑ d : Fin 128, A (ix2 d h) * Kn (ix2 d c)) := by
  rw [← scoreMatmul_apply A Kn h c]
  exact leaky_select _

/-- The rectified score from what its three ingredients read at column c. -/
theorem score_of_reads (aq ak : Fin 128 → Fin 4 → EReal) (q kn : Fin 128 → EReal)
    (A : FVec Ideal S128x4 .f32) (V5 : FVec Ideal S4x2048 .f32) (Kn : FVec Ideal S128x2048 .f32) (h : Fin 4) (c : Fin 2048)
    (hV : V5 (ix2 h c) = ∑ d : Fin 128, aq d h * q d) (hA : ∀ d, A (ix2 d h) = ak d h) (hK : ∀ d, Kn (ix2 d c) = kn d) :
    Cert.Spec.leaky (V5 (ix2 h c) + ∑ d : Fin 128, A (ix2 d h) * Kn (ix2 d c)) = Cert.Spec.leaky (Cert.Spec.score aq ak q kn h) := by
  unfold Cert.Spec.score
  rw [hV]
  exact congrArg (fun t => Cert.Spec.leaky ((∑ d : Fin 128, aq d h * q d) + t))
    (Finset.sum_congr rfl fun d _ => by rw [hA d, hK d])

section Paths
variable (x0 : Vec Ideal S128x2048 .f32) (x1 : Vec Ideal S8x128x2048 .f32) (x2 : Vec Ideal S256x4 .f32)
  (h : Fin 4) (c : Fin 2048)

/-- Path 0's rectified scores. -/
theorem pay5_apply :
    k0_pay5 (View.ld x0 rTile) (View.ld x2 rAtt) (View.ld x1 rK0) (ix2 h c)
      = Cert.Spec.lk (colAq x2) (colAk x2) (colQ x0 c) (colK x1 c) 0 h := by
  unfold k0_pay5
  refine (leakyScore_apply _ _ _ h c).trans ?_
  exact score_of_reads (colAq x2) (colAk x2) (colQ x0 c) (colK x1 c 0) _ _ _ h c (pay4_apply x0 x2 h c)
    (fun d => pay3_apply x2 d h) (fun d => slab_apply x1 0 0 rfl _ _ d c)

/-- Path 1's rectified scores. -/
theorem pay6_apply :
    k0_pay6 (View.ld x0 rTile) (View.ld x2 rAtt) (View.ld x1 rK1) (ix2 h c)
      = Cert.Spec.lk (colAq x2) (colAk x2) (colQ x0 c) (colK x1 c) 1 h := by
  unfold k0_pay6
  refine (leakyScore_apply _ _ _ h c).trans ?_
  exact score_of_reads (colAq x2) (colAk x2) (colQ x0 c) (colK x1 c 1) _ _ _ h c (pay4_apply x0 x2 h c)
    (fun d => pay3_apply x2 d h) (fun d => slab_apply x1 1 1 rfl _ _ d c)

/-- Path 2's rectified scores. -/
theorem pay7_apply :
    k0_pay7 (View.ld x0 rTile) (View.ld x2 rAtt) (View.ld x1 rK2) (ix2 h c)
      = Cert.Spec.lk (colAq x2) (colAk x2) (colQ x0 c) (colK x1 c) 2 h := by
  unfold k0_pay7
  refine (leakyScore_apply _ _ _ h c).trans ?_
  exact score_of_reads (colAq x2) (colAk x2) (colQ x0 c) (colK x1 c 2) _ _ _ h c (pay4_apply x0 x2 h c)
    (fun d => pay3_apply x2 d h) (fun d => slab_apply x1 2 2 rfl _ _ d c)

/-- Path 3's rectified scores, over the shared product and the key half already formed. -/
theorem pay8_apply :
    k0_pay8 (k0_pay3 (View.ld x2 rAtt)) (k0_pay4 (View.ld x0 rTile) (View.ld x2 rAtt)) (View.ld x1 rK3) (ix2 h c)
      = Cert.Spec.lk (colAq x2) (colAk x2) (colQ x0 c) (colK x1 c) 3 h := by
  unfold k0_pay8
  refine (leakyScore_apply _ _ _ h c).trans ?_
  exact score_of_reads (colAq x2) (colAk x2) (colQ x0 c) (colK x1 c 3) _ _ _ h c (pay4_apply x0 x2 h c)
    (fun d => pay3_apply x2 d h) (fun d => slab_apply x1 3 3 rfl _ _ d c)

/-- Path 4's rectified scores. -/
theorem pay9_apply :
    k0_pay9 (k0_pay3 (View.ld x2 rAtt)) (k0_pay4 (View.ld x0 rTile) (View.ld x2 rAtt)) (View.ld x1 rK4) (ix2 h c)
      = Cert.Spec.lk (colAq x2) (colAk x2) (colQ x0 c) (colK x1 c) 4 h := by
  unfold k0_pay9
  refine (leakyScore_apply _ _ _ h c).trans ?_
  exact score_of_reads (colAq x2) (colAk x2) (colQ x0 c) (colK x1 c 4) _ _ _ h c (pay4_apply x0 x2 h c)
    (fun d => pay3_apply x2 d h) (fun d => slab_apply x1 4 4 rfl _ _ d c)

/-- Path 5's rectified scores. -/
theorem pay10_apply :
    k0_pay10 (k0_pay3 (View.ld x2 rAtt)) (k0_pay4 (View.ld x0 rTile) (View.ld x2 rAtt)) (View.ld x1 rK5) (ix2 h c)
      = Cert.Spec.lk (colAq x2) (colAk x2) (colQ x0 c) (colK x1 c) 5 h := by
  unfold k0_pay10
  refine (leakyScore_apply _ _ _ h c).trans ?_
  exact score_of_reads (colAq x2) (colAk x2) (colQ x0 c) (colK x1 c 5) _ _ _ h c (pay4_apply x0 x2 h c)
    (fun d => pay3_apply x2 d h) (fun d => slab_apply x1 5 5 rfl _ _ d c)

/-- Path 6's rectified scores. -/
theorem pay11_apply :
    k0_pay11 (k0_pay3 (View.ld x2 rAtt)) (k0_pay4 (View.ld x0 rTile) (View.ld x2 rAtt)) (View.ld x1 rK6) (ix2 h c)
      = Cert.Spec.lk (colAq x2) (colAk x2) (colQ x0 c) (colK x1 c) 6 h := by
  unfold k0_pay11
  refine (leakyScore_apply _ _ _ h c).trans ?_
  exact score_of_reads (colAq x2) (colAk x2) (colQ x0 c) (colK x1 c 6) _ _ _ h c (pay4_apply x0 x2 h c)
    (fun d => pay3_apply x2 d h) (fun d => slab_apply x1 6 6 rfl _ _ d c)

/-- Path 7's rectified scores. -/
theorem pay12_apply :
    k0_pay12 (k0_pay3 (View.ld x2 rAtt)) (k0_pay4 (View.ld x0 rTile) (View.ld x2 rAtt)) (View.ld x1 rK7) (ix2 h c)
      = Cert.Spec.lk (colAq x2) (colAk x2) (colQ x0 c) (colK x1 c) 7 h := by
  unfold k0_pay12
  refine (leakyScore_apply _ _ _ h c).trans ?_
  exact score_of_reads (colAq x2) (colAk x2) (colQ x0 c) (colK x1 c 7) _ _ _ h c (pay4_apply x0 x2 h c)
    (fun d => pay3_apply x2 d h) (fun d => slab_apply x1 7 7 rfl _ _ d c)

end Paths

end Cert.KernelIdeal.Hand

end
-- ==== Proof.BodySoftmax.lean ====
/-
  The soft-max over the eight paths, read at head h of batch column c.

  The eight arrays of rectified scores enter as variables known, in column c, to read L n h; the maximum, the shifted
  exponentials, the normaliser's reciprocal and the weights are elementwise operations, so each reads the column
  function's value of the same name.
-/
import proofs.«165610_j52828097741217_2_alg».proof.Proof.BodyBasics

noncomputable section

namespace Cert.KernelIdeal.Hand

open Idealize.ShloMosaic Idealize.SL.Sem Idealize.ShloMosaic.ValueIdx Cert.KernelIdeal Cert.KernelIdeal.Gen
open scoped BigOperators

section Softmax
variable (v4 : FVec Ideal S128x4 .f32) (v5 v14 v23 v32 v41 v50 v59 v68 : FVec Ideal S4x2048 .f32)
  (v69 : Vec Ideal S1x128x2048 .f32) (L : Fin 8 → Fin 4 → EReal) (c : Fin 2048)
  (h0 : ∀ h, v14 (ix2 h c) = L 0 h) (h1 : ∀ h, v23 (ix2 h c) = L 1 h) (h2 : ∀ h, v32 (ix2 h c) = L 2 h)
  (h3 : ∀ h, v41 (ix2 h c) = L 3 h) (h4 : ∀ h, v50 (ix2 h c) = L 4 h) (h5 : ∀ h, v59 (ix2 h c) = L 5 h)
  (h6 : ∀ h, v68 (ix2 h c) = L 6 h) (h7 : ∀ h, k0_pay12 v4 v5 v69 (ix2 h c) = L 7 h)
include h0 h1 h2 h3 h4 h5 h6 h7

/-- The maximum over the eight paths. -/
theorem pay13_apply (h : Fin 4) :
    k0_pay13 v4 v5 v14 v23 v32 v41 v50 v59 v68 v69 (ix2 h c) = Cert.Spec.mx (fun n => L n h) := by
  unfold k0_pay13
  show max (max (max (max (max (max (max (v14 (ix2 h c)) (v23 (ix2 h c))) (v32 (ix2 h c))) (v41 (ix2 h c))) (v50 (ix2 h c)))
    (v59 (ix2 h c))) (v68 (ix2 h c))) (k0_pay12 v4 v5 v69 (ix2 h c)) = _
  rw [h0, h1, h2, h3, h4, h5, h6, h7]
  rfl

/-- Path 0's shifted exponential. -/
theorem pay14_apply (h : Fin 4) :
    k0_pay14 v4 v5 v14 v23 v32 v41 v50 v59 v68 v69 (ix2 h c) = Cert.Spec.ex (fun n => L n h) 0 := by
  unfold k0_pay14
  show Ideal.exp (v14 (ix2 h c) - k0_pay13 v4 v5 v14 v23 v32 v41 v50 v59 v68 v69 (ix2 h c)) = _
  rw [pay13_apply v4 v5 v14 v23 v32 v41 v50 v59 v68 v69 L c h0 h1 h2 h3 h4 h5 h6 h7 h, h0]
  rfl

/-- Path 1's shifted exponential. -/
theorem pay15_apply (h : Fin 4) :
    k0_pay15 v4 v5 v14 v23 v32 v41 v50 v59 v68 v69 (ix2 h c) = Cert.Spec.ex (fun n => L n h) 1 := by
  unfold k0_pay15
  show Ideal.exp (v23 (ix2 h c) - k0_pay13 v4 v5 v14 v23 v32 v41 v50 v59 v68 v69 (ix2 h c)) = _
  rw [pay13_apply v4 v5 v14 v23 v32 v41 v50 v59 v68 v69 L c h0 h1 h2 h3 h4 h5 h6 h7 h, h1]
  rfl

/-- Path 2's shifted exponential. -/
theorem pay16_apply (h : Fin 4) :
    k0_pay16 v4 v5 v14 v23 v32 v41 v50 v59 v68 v69 (ix2 h c) = Cert.Spec.ex (fun n => L n h) 2 := by
  unfold k0_pay16
  show Ideal.exp (v32 (ix2 h c) - k0_pay13 v4 v5 v14 v23 v32 v41 v50 v59 v68 v69 (ix2 h c)) = _
  rw [pay13_apply v4 v5 v14 v23 v32 v41 v50 v59 v68 v69 L c h0 h1 h2 h3 h4 h5 h6 h7 h, h2]
  rfl

/-- Path 3's shifted exponential. -/
theorem pay17_apply (h : Fin 4) :
    k0_pay17 v4 v5 v14 v23 v32 v41 v50 v59 v68 v69 (ix2 h c) = Cert.Spec.ex (fun n => L n h) 3 := by
  unfold k0_pay17
  show Ideal.exp (v41 (ix2 h c) - k0_pay13 v4 v5 v14 v23 v32 v41 v50 v59 v68 v69 (ix2 h c)) = _
  rw [pay13_apply v4 v5 v14 v23 v32 v41 v50 v59 v68 v69 L c h0 h1 h2 h3 h4 h5 h6 h7 h, h3]
  rfl

/-- Path 4's shifted exponential. -/
theorem pay18_apply (h : Fin 4) :
    k0_pay18 v4 v5 v14 v23 v32 v41 v50 v59 v68 v69 (ix2 h c) = Cert.Spec.ex (fun n => L n h) 4 := by
  unfold k0_pay18
  show Ideal.exp (v50 (ix2 h c) - k0_pay13 v4 v5 v14 v23 v32 v41 v50 v59 v68 v69 (ix2 h c)) = _
  rw [pay13_apply v4 v5 v14 v23 v32 v41 v50 v59 v68 v69 L c h0 h1 h2 h3 h4 h5 h6 h7 h, h4]
  rfl

/-- Path 5's shifted exponential. -/
theorem pay19_apply (h : Fin 4) :
    k0_pay19 v4 v5 v14 v23 v32 v41 v50 v59 v68 v69 (ix2 h c) = Cert.Spec.ex (fun n => L n h) 5 := by
  unfold k0_pay19
  show Ideal.exp (v59 (ix2 h c) - k0_pay13 v4 v5 v14 v23 v32 v41 v50 v59 v68 v69 (ix2 h c)) = _
  rw [pay13_apply v4 v5 v14 v23 v32 v41 v50 v59 v68 v69 L c h0 h1 h2 h3 h4 h5 h6 h7 h, h5]
  rfl

/-- Path 6's shifted exponential. -/
theorem pay20_apply (h : Fin 4) :
    k0_pay20 v4 v5 v14 v23 v32 v41 v50 v59 v68 v69 (ix2 h c) = Cert.Spec.ex (fun n => L n h) 6 := by
  unfold k0_pay20
  show Ideal.exp (v68 (ix2 h c) - k0_pay13 v4 v5 v14 v23 v32 v41 v50 v59 v68 v69 (ix2 h c)) = _
  rw [pay13_apply v4 v5 v14 v23 v32 v41 v50 v59 v68 v69 L c h0 h1 h2 h3 h4 h5 h6 h7 h, h6]
  rfl

/-- Path 7's shifted exponential. -/
theorem pay21_apply (h : Fin 4) :
    k0_pay21 v4 v5 v14 v23 v32 v41 v50 v59 v68 v69 (ix2 h c) = Cert.Spec.ex (fun n => L n h) 7 := by
  unfold k0_pay21
  show Ideal.exp (k0_pay12 v4 v5 v69 (ix2 h c) - k0_pay13 v4 v5 v14 v23 v32 v41 v50 v59 v68 v69 (ix2 h c)) = _
  rw [pay13_apply v4 v5 v14 v23 v32 v41 v50 v59 v68 v69 L c h0 h1 h2 h3 h4 h5 h6 h7 h, h7]
  rfl

/-- The reciprocal of the soft-max's normaliser. -/
theorem pay22_apply (h : Fin 4) :
    k0_pay22 v4 v5 v14 v23 v32 v41 v50 v59 v68 v69 (ix2 h c)
      = Ideal.div Cert.Spec.cOne (Cert.Spec.Z (fun n => L n h)) := by
  unfold k0_pay22
  show Ideal.div (Ideal.ofBits .f32 0x3F800000#32)
    (k0_pay14 v4 v5 v14 v23 v32 v41 v50 v59 v68 v69 (ix2 h c) + k0_pay15 v4 v5 v14 v23 v32 v41 v50 v59 v68 v69 (ix2 h c)
      + k0_pay16 v4 v5 v14 v23 v32 v41 v50 v59 v68 v69 (ix2 h c) + k0_pay17 v4 v5 v14 v23 v32 v41 v50 v59 v68 v69 (ix2 h c)
      + k0_pay18 v4 v5 v14 v23 v32 v41 v50 v59 v68 v69 (ix2 h c) + k0_pay19 v4 v5 v14 v23 v32 v41 v50 v59 v68 v69 (ix2 h c)
      + k0_pay20 v4 v5 v14 v23 v32 v41 v50 v59 v68 v69 (ix2 h c) + k0_pay21 v4 v5 v14 v23 v32 v41 v50 v59 v68 v69 (ix2 h c)) = _
  rw [pay14_apply v4 v5 v14 v23 v32 v41 v50 v59 v68 v69 L c h0 h1 h2 h3 h4 h5 h6 h7 h,
    pay15_apply v4 v5 v14 v23 v32 v41 v50 v59 v68 v69 L c h0 h1 h2 h3 h4 h5 h6 h7 h,
    pay16_apply v4 v5 v14 v23 v32 v41 v50 v59 v68 v69 L c h0 h1 h2 h3 h4 h5 h6 h7 h,
    pay17_apply v4 v5 v14 v23 v32 v41 v50 v59 v68 v69 L c h0 h1 h2 h3 h4 h5 h6 h7 h,
    pay18_apply v4 v5 v14 v23 v32 v41 v50 v59 v68 v69 L c h0 h1 h2 h3 h4 h5 h6 h7 h,
    pay19_apply v4 v5 v14 v23 v32 v41 v50 v59 v68 v69 L c h0 h1 h2 h3 h4 h5 h6 h7 h,
    pay20_apply v4 v5 v14 v23 v32 v41 v50 v59 v68 v69 L c h0 h1 h2 h3 h4 h5 h6 h7 h,
    pay21_apply v4 v5 v14 v23 v32 v41 v50 v59 v68 v69 L c h0 h1 h2 h3 h4 h5 h6 h7 h]
  rfl

/-- Path 1's soft-max weight. -/
theorem pay24_apply (h : Fin 4) :
    k0_pay24 v4 v5 v14 v23 v32 v41 v50 v59 v68 v69 (ix2 h c) = Cert.Spec.wgt (fun n => L n h) 1 := by
  unfold k0_pay24
  show k0_pay15 v4 v5 v14 v23 v32 v41 v50 v59 v68 v69 (ix2 h c) * k0_pay22 v4 v5 v14 v23 v32 v41 v50 v59 v68 v69 (ix2 h c) = _
  rw [pay15_apply v4 v5 v14 v23 v32 v41 v50 v59 v68 v69 L c h0 h1 h2 h3 h4 h5 h6 h7 h,
    pay22_apply v4 v5 v14 v23 v32 v41 v50 v59 v68 v69 L c h0 h1 h2 h3 h4 h5 h6 h7 h]
  rfl

end Softmax

end Cert.KernelIdeal.Hand

end
-- ==== Proof.BodyMix.lean ====
/-
  The keys mixed by the soft-max weights, read at row d of batch column c.

  Each path's weights are added over the four heads (a sum down the first axis of a [4,2048] array, kept as a row and
  broadcast over the 128 rows) and multiply the path's key slab; the eight products are added from the left onto the
  zero splat; a quarter of the sum is rectified and the query tile added.
-/
import proofs.«165610_j52828097741217_2_alg».proof.Proof.BodySoftmax

noncomputable section

namespace Cert.KernelIdeal.Hand

open Idealize.ShloMosaic Idealize.SL.Sem Idealize.ShloMosaic.ValueIdx Cert.KernelIdeal Cert.KernelIdeal.Gen
open scoped BigOperators

/-- One step of the weighted sum: the running sum plus a key slab times its path's head-summed weights. -/
theorem mixStep_apply (acc : FVec Ideal S128x2048 .f32) (Kn : Vec Ideal S1x128x2048 .f32) (W : FVec Ideal S4x2048 .f32)
    (hsc : S1x128x2048.ShapeCasts S128x2048) (hr : S4x2048.Reduces [0] S2048) (hc : S2048.ShapeCasts S1x2048)
    (hb : S1x2048.Broadcasts S128x2048) (d : Fin 128) (c : Fin 2048) :
    addf acc (mulf (shapeCast S128x2048 Kn hsc)
        (broadcastTo S128x2048 (shapeCast S1x2048 (multiReduction .add [0] S2048 W 0x00000000#32 hr (.inl rfl) rfl) hc) hb))
        (ix2 d c)
      = acc (ix2 d c) + shapeCast S128x2048 Kn hsc (ix2 d c) * ∑ h : Fin 4, W (ix2 h c) := by
  show acc (ix2 d c) + shapeCast S128x2048 Kn hsc (ix2 d c)
      * broadcastTo S128x2048 (shapeCast S1x2048 (multiReduction .add [0] S2048 W 0x00000000#32 hr (.inl rfl) rfl) hc) hb (ix2 d c) = _
  rw [headSum_apply]

/-- The end of the attention stage: a quarter of the weighted sum, rectified, plus the query tile. -/
theorem preTail_apply (X v1 : FVec Ideal S128x2048 .f32) (d : Fin 128) (c : Fin 2048) :
    addf (maximumf (mulf X (broadcast S128x2048 (Scalar.ofBits (F := Ideal) .f32 0x3E800000#32)))
        (broadcast S128x2048 (Scalar.ofBits (F := Ideal) .f32 0x00000000#32))) v1 (ix2 d c)
      = max (X (ix2 d c) * Cert.Spec.cQuarter) 0 + v1 (ix2 d c) := by
  show max (X (ix2 d c) * Ideal.ofBits .f32 0x3E800000#32) (Ideal.ofBits .f32 0x00000000#32) + v1 (ix2 d c) = _
  rw [Ideal.ofBits_zero_f32]

section First
variable (v4 : FVec Ideal S128x4 .f32) (v5 v14 v23 v32 v41 v50 v59 v68 : FVec Ideal S4x2048 .f32)
  (v69 : Vec Ideal S1x128x2048 .f32) (L : Fin 8 → Fin 4 → EReal) (c : Fin 2048)
  (h0 : ∀ h, v14 (ix2 h c) = L 0 h) (h1 : ∀ h, v23 (ix2 h c) = L 1 h) (h2 : ∀ h, v32 (ix2 h c) = L 2 h)
  (h3 : ∀ h, v41 (ix2 h c) = L 3 h) (h4 : ∀ h, v50 (ix2 h c) = L 4 h) (h5 : ∀ h, v59 (ix2 h c) = L 5 h)
  (h6 : ∀ h, v68 (ix2 h c) = L 6 h) (h7 : ∀ h, k0_pay12 v4 v5 v69 (ix2 h c) = L 7 h)
include h0 h1 h2 h3 h4 h5 h6 h7

/-- The weighted sum's first term, on the zero splat: path 0's key slab times its head-summed weights. -/
theorem pay23_apply (v114 : Vec Ideal S1x128x2048 .f32) (k0 : Fin 128 → EReal) (d : Fin 128)
    (hK : shapeCast S128x2048 v114 shapeCasts_S1x128x2048_S128x2048 (ix2 d c) = k0 d) :
    k0_pay23 v4 v5 v14 v23 v32 v41 v50 v59 v68 v69 v114 (ix2 d c) = 0 + k0 d * Cert.Spec.sn L 0 := by
  unfold k0_pay23
  refine (mixStep_apply _ _ _ _ _ _ _ d c).trans ?_
  rw [hK]
  show Ideal.ofBits .f32 0x00000000#32 + _ = _
  rw [Ideal.ofBits_zero_f32]
  unfold Cert.Spec.sn
  refine congrArg (fun t => 0 + k0 d * t) (Finset.sum_congr rfl fun h _ => ?_)
  show k0_pay14 v4 v5 v14 v23 v32 v41 v50 v59 v68 v69 (ix2 h c) * k0_pay22 v4 v5 v14 v23 v32 v41 v50 v59 v68 v69 (ix2 h c) = _
  rw [pay14_apply v4 v5 v14 v23 v32 v41 v50 v59 v68 v69 L c h0 h1 h2 h3 h4 h5 h6 h7 h,
    pay22_apply v4 v5 v14 v23 v32 v41 v50 v59 v68 v69 L c h0 h1 h2 h3 h4 h5 h6 h7 h]
  rfl

end First

/-- The weighted sum after paths 1 … 5, from the first term and the pieces of the soft-max. -/
theorem pay25_apply (v90 v92 v94 v96 v109 : FVec Ideal S4x2048 .f32) (v118 : FVec Ideal S128x2048 .f32)
    (v119 : FVec Ideal S4x2048 .f32) (v122 v130 v138 v146 v154 : Vec Ideal S1x128x2048 .f32)
    (L : Fin 8 → Fin 4 → EReal) (k : Fin 8 → Fin 128 → EReal) (d : Fin 128) (c : Fin 2048)
    (h118 : v118 (ix2 d c) = 0 + k 0 d * Cert.Spec.sn L 0)
    (h119 : ∀ h, v119 (ix2 h c) = Cert.Spec.wgt (fun n => L n h) 1)
    (h90 : ∀ h, v90 (ix2 h c) = Cert.Spec.ex (fun n => L n h) 2) (h92 : ∀ h, v92 (ix2 h c) = Cert.Spec.ex (fun n => L n h) 3)
    (h94 : ∀ h, v94 (ix2 h c) = Cert.Spec.ex (fun n => L n h) 4) (h96 : ∀ h, v96 (ix2 h c) = Cert.Spec.ex (fun n => L n h) 5)
    (h109 : ∀ h, v109 (ix2 h c) = Ideal.div Cert.Spec.cOne (Cert.Spec.Z (fun n => L n h)))
    (hK1 : shapeCast S128x2048 v122 shapeCasts_S1x128x2048_S128x2048 (ix2 d c) = k 1 d)
    (hK2 : shapeCast S128x2048 v130 shapeCasts_S1x128x2048_S128x2048 (ix2 d c) = k 2 d)
    (hK3 : shapeCast S128x2048 v138 shapeCasts_S1x128x2048_S128x2048 (ix2 d c) = k 3 d)
    (hK4 : shapeCast S128x2048 v146 shapeCasts_S1x128x2048_S128x2048 (ix2 d c) = k 4 d)
    (hK5 : shapeCast S128x2048 v154 shapeCasts_S1x128x2048_S128x2048 (ix2 d c) = k 5 d) :
    k0_pay25 v90 v92 v94 v96 v109 v118 v119 v122 v130 v138 v146 v154 (ix2 d c)
      = 0 + k 0 d * Cert.Spec.sn L 0 + k 1 d * Cert.Spec.sn L 1 + k 2 d * Cert.Spec.sn L 2 + k 3 d * Cert.Spec.sn L 3
          + k 4 d * Cert.Spec.sn L 4 + k 5 d * Cert.Spec.sn L 5 := by
  unfold k0_pay25
  refine (mixStep_apply _ _ _ _ _ _ _ d c).trans ?_
  rw [mixStep_apply, mixStep_apply, mixStep_apply, mixStep_apply, h118, hK1, hK2, hK3, hK4, hK5]
  simp only [mulf_apply, h119, h90, h92, h94, h96, h109]
  rfl

/-- Path 6's soft-max weights. -/
theorem pay26_apply (v98 v109 : FVec Ideal S4x2048 .f32) (h : Fin 4) (c : Fin 2048) :
    k0_pay26 v98 v109 (ix2 h c) = v98 (ix2 h c) * v109 (ix2 h c) := rfl

/-- The attended column: the whole weighted sum, a quarter of it rectified, plus the query. -/
theorem pay27_apply (v1 : FVec Ideal S128x2048 .f32) (v100 v109 : FVec Ideal S4x2048 .f32) (v158 : FVec Ideal S128x2048 .f32)
    (v159 : FVec Ideal S4x2048 .f32) (v162 v170 : Vec Ideal S1x128x2048 .f32)
    (L : Fin 8 → Fin 4 → EReal) (k : Fin 8 → Fin 128 → EReal) (q : Fin 128 → EReal) (d : Fin 128) (c : Fin 2048)
    (h1 : v1 (ix2 d c) = q d)
    (h100 : ∀ h, v100 (ix2 h c) = Cert.Spec.ex (fun n => L n h) 7)
    (h109 : ∀ h, v109 (ix2 h c) = Ideal.div Cert.Spec.cOne (Cert.Spec.Z (fun n => L n h)))
    (h158 : v158 (ix2 d c) = 0 + k 0 d * Cert.Spec.sn L 0 + k 1 d * Cert.Spec.sn L 1 + k 2 d * Cert.Spec.sn L 2
      + k 3 d * Cert.Spec.sn L 3 + k 4 d * Cert.Spec.sn L 4 + k 5 d * Cert.Spec.sn L 5)
    (h159 : ∀ h, v159 (ix2 h c) = Cert.Spec.wgt (fun n => L n h) 6)
    (hK6 : shapeCast S128x2048 v162 shapeCasts_S1x128x2048_S128x2048 (ix2 d c) = k 6 d)
    (hK7 : shapeCast S128x2048 v170 shapeCasts_S1x128x2048_S128x2048 (ix2 d c) = k 7 d) :
    k0_pay27 v1 v100 v109 v158 v159 v162 v170 (ix2 d c) = Cert.Spec.pre L k q d := by
  unfold k0_pay27
  refine (preTail_apply _ _ d c).trans ?_
  rw [mixStep_apply, mixStep_apply, h158, hK6, hK7, h1]
  simp only [mulf_apply, h159, h100, h109]
  rfl

end Cert.KernelIdeal.Hand

end
-- ==== Proof.BodyNorms.lean ====
/-
  The two layer normalisations and the dense layer between them, read at row d of batch column c.

  A column's mean is the sum down the first axis of a [128,2048] array, kept as a row, over 128; its variance is the
  mean of the squared deviations; the normalised column is gain times deviation times the reciprocal square root of
  variance plus epsilon, plus offset. The kernel forms the first normalisation in pieces (mean, variance, gain times
  deviation, epsilon) and finishes it, the dense layer with its bias and skip, and the second normalisation in its last
  payload.
-/
import proofs.«165610_j52828097741217_2_alg».proof.Proof.BodyBasics

noncomputable section

namespace Cert.KernelIdeal.Hand

open Idealize.ShloMosaic Idealize.SL.Sem Idealize.ShloMosaic.ValueIdx Cert.KernelIdeal Cert.KernelIdeal.Gen
open scoped BigOperators

/-- The column means of a [128,2048] array as a [1,2048] row, in the kernel's arrangement. -/
abbrev meanRow (X : FVec Ideal S128x2048 .f32) : FVec Ideal S1x2048 .f32 :=
  divf (shapeCast S1x2048 (multiReduction .add [0] S2048 X 0x00000000#32 reduces_S128x2048_S2048 (.inl rfl) rfl)
      shapeCasts_S2048_S1x2048) (broadcast S1x2048 (Scalar.ofBits (F := Ideal) .f32 0x43000000#32))

/-- The column variances as a row: the column means of the squared deviations from the column means. -/
abbrev varRow (X : FVec Ideal S128x2048 .f32) : FVec Ideal S1x2048 .f32 :=
  meanRow (mulf (subf X (broadcastTo S128x2048 (meanRow X) broadcasts_S1x2048_S128x2048))
    (subf X (broadcastTo S128x2048 (meanRow X) broadcasts_S1x2048_S128x2048)))

/-- The row of means reads, at column c, the mean of the array's column c. -/
theorem meanRow_apply (X : FVec Ideal S128x2048 .f32) (c : Fin 2048) :
    meanRow X (ix2 (0 : Fin 1) c) = Cert.Spec.mean (fun d => X (ix2 d c)) := by
  show Ideal.div (shapeCast S1x2048 (multiReduction .add [0] S2048 X 0x00000000#32 reduces_S128x2048_S2048 (.inl rfl) rfl)
      shapeCasts_S2048_S1x2048 (ix2 (0 : Fin 1) c)) (Ideal.ofBits .f32 0x43000000#32) = _
  rw [colSum_apply]
  rfl

/-- A deviation from the column mean: the row of means is broadcast back over the rows. -/
theorem centered_apply (X : FVec Ideal S128x2048 .f32) (M : FVec Ideal S1x2048 .f32) (hb : S1x2048.Broadcasts S128x2048)
    (d : Fin 128) (c : Fin 2048) :
    subf X (broadcastTo S128x2048 M hb) (ix2 d c) = X (ix2 d c) - M (ix2 (0 : Fin 1) c) := by
  show X (ix2 d c) - broadcastTo S128x2048 M hb (ix2 d c) = _
  rw [broadcastTo_1b_ab_apply]

/-- The row of variances reads, at column c, the variance of the array's column c. -/
theorem varRow_apply (X : FVec Ideal S128x2048 .f32) (c : Fin 2048) :
    varRow X (ix2 (0 : Fin 1) c) = Cert.Spec.var (fun d => X (ix2 d c)) := by
  refine (meanRow_apply _ c).trans ?_
  unfold Cert.Spec.var
  refine congrArg Cert.Spec.mean (funext fun d => ?_)
  show subf X (broadcastTo S128x2048 (meanRow X) broadcasts_S1x2048_S128x2048) (ix2 d c)
      * subf X (broadcastTo S128x2048 (meanRow X) broadcasts_S1x2048_S128x2048) (ix2 d c) = _
  rw [centered_apply, meanRow_apply]

/-- A normalisation's tail: gain times deviation times the reciprocal root, plus offset, is the column's layer
    normalisation at row d. -/
theorem normTail_apply (Z : FVec Ideal S128x2048 .f32) (G B : FVec Ideal S128x1 .f32) (d : Fin 128) (c : Fin 2048) :
    addf
        (mulf (mulf (broadcastTo S128x2048 G broadcasts_S128x1_S128x2048)
            (subf Z (broadcastTo S128x2048 (meanRow Z) broadcasts_S1x2048_S128x2048)))
          (broadcastTo S128x2048
            (rsqrt (addf (varRow Z) (broadcast S1x2048 (Scalar.ofBits (F := Ideal) .f32 0x358637BD#32))))
            broadcasts_S1x2048_S128x2048))
        (broadcastTo S128x2048 B broadcasts_S128x1_S128x2048) (ix2 d c)
      = Cert.Spec.lnorm (fun j => G (ix2 j (0 : Fin 1))) (fun j => B (ix2 j (0 : Fin 1))) (fun j => Z (ix2 j c)) d := by
  show broadcastTo S128x2048 G broadcasts_S128x1_S128x2048 (ix2 d c)
        * subf Z (broadcastTo S128x2048 (meanRow Z) broadcasts_S1x2048_S128x2048) (ix2 d c)
        * broadcastTo S128x2048
            (rsqrt (addf (varRow Z) (broadcast S1x2048 (Scalar.ofBits (F := Ideal) .f32 0x358637BD#32))))
            broadcasts_S1x2048_S128x2048 (ix2 d c)
      + broadcastTo S128x2048 B broadcasts_S128x1_S128x2048 (ix2 d c) = _
  rw [Cert.LibColumnBroadcast.broadcastTo_a1_ab_apply, Cert.LibColumnBroadcast.broadcastTo_a1_ab_apply,
    broadcastTo_1b_ab_apply, centered_apply]
  show G (ix2 d (0 : Fin 1)) * (Z (ix2 d c) - meanRow Z (ix2 (0 : Fin 1) c))
      * Ideal.rsqrt (varRow Z (ix2 (0 : Fin 1) c) + Ideal.ofBits .f32 0x358637BD#32) + B (ix2 d (0 : Fin 1)) = _
  rw [meanRow_apply, varRow_apply]
  rfl

/-- The first normalisation's tail over its pieces: the gained deviation times the reciprocal root of the variance
    piece plus the epsilon piece, plus the offset column. -/
theorem firstTail_apply (v201 : FVec Ideal S128x2048 .f32) (v197 v202 : FVec Ideal S1x2048 .f32) (v184 : FVec Ideal S128x1 .f32)
    (j : Fin 128) (c : Fin 2048) :
    addf (mulf v201 (broadcastTo S128x2048 (rsqrt (addf v197 v202)) broadcasts_S1x2048_S128x2048))
        (broadcastTo S128x2048 v184 broadcasts_S128x1_S128x2048) (ix2 j c)
      = v201 (ix2 j c) * Ideal.rsqrt (v197 (ix2 (0 : Fin 1) c) + v202 (ix2 (0 : Fin 1) c)) + v184 (ix2 j (0 : Fin 1)) := by
  show v201 (ix2 j c) * broadcastTo S128x2048 (rsqrt (addf v197 v202)) broadcasts_S1x2048_S128x2048 (ix2 j c)
      + broadcastTo S128x2048 v184 broadcasts_S128x1_S128x2048 (ix2 j c) = _
  rw [Cert.LibColumnBroadcast.broadcastTo_a1_ab_apply, broadcastTo_1b_ab_apply]
  rfl

/-- The dense layer with its bias column and the skip connection. -/
theorem dense_apply (W : FVec Ideal S128x128 .f32) (Y : FVec Ideal S128x2048 .f32) (PB : FVec Ideal S128x1 .f32)
    (d : Fin 128) (c : Fin 2048) :
    addf (addf (matmul dot_S128x128_S128x2048_S128x2048_1_0_0_1_n_n none W Y (constant S128x2048 .f32 0x00000000#32))
        (broadcastTo S128x2048 PB broadcasts_S128x1_S128x2048)) Y (ix2 d c)
      = Cert.Spec.lin (fun i j => W (ix2 i j)) (fun j => PB (ix2 j (0 : Fin 1))) (fun j => Y (ix2 j c)) d := by
  show matmul dot_S128x128_S128x2048_S128x2048_1_0_0_1_n_n none W Y (constant S128x2048 .f32 0x00000000#32) (ix2 d c)
      + broadcastTo S128x2048 PB broadcasts_S128x1_S128x2048 (ix2 d c) + Y (ix2 d c) = _
  rw [denseMatmul_apply, Cert.LibColumnBroadcast.broadcastTo_a1_ab_apply]
  rfl

/-- The last payload: the first normalisation finished, the dense layer, the second normalisation. -/
theorem pay1_apply (v182 v184 v185 v186 : FVec Ideal S128x1 .f32) (v197 : FVec Ideal S1x2048 .f32)
    (v201 : FVec Ideal S128x2048 .f32) (v202 : FVec Ideal S1x2048 .f32) (v209 : Vec Ideal S128x128 .f32)
    (d : Fin 128) (c : Fin 2048) :
    k0_pay1 v182 v184 v185 v186 v197 v201 v202 v209 (ix2 d c)
      = Cert.Spec.lnorm (fun j => v185 (ix2 j (0 : Fin 1))) (fun j => v186 (ix2 j (0 : Fin 1)))
          (Cert.Spec.lin (fun i j => v209 (ix2 i j)) (fun j => v182 (ix2 j (0 : Fin 1)))
            (fun j => v201 (ix2 j c) * Ideal.rsqrt (v197 (ix2 (0 : Fin 1) c) + v202 (ix2 (0 : Fin 1) c))
              + v184 (ix2 j (0 : Fin 1)))) d := by
  unfold k0_pay1
  refine (normTail_apply _ v185 v186 d c).trans ?_
  refine congrArg (fun z => Cert.Spec.lnorm _ _ z d) (funext fun i => ?_)
  refine (dense_apply v209 _ v182 i c).trans ?_
  refine congrArg (fun y => Cert.Spec.lin _ _ y i) (funext fun j => ?_)
  exact firstTail_apply v201 v197 v202 v184 j c

section Pieces
variable (v1 : FVec Ideal S128x2048 .f32) (v100 v109 : FVec Ideal S4x2048 .f32) (v158 : FVec Ideal S128x2048 .f32)
  (v159 : FVec Ideal S4x2048 .f32) (v162 v170 : Vec Ideal S1x128x2048 .f32) (c : Fin 2048)

/-- The first normalisation's mean piece. -/
theorem pay33_apply :
    k0_pay33 v1 v100 v109 v158 v159 v162 v170 (ix2 (0 : Fin 1) c)
      = Cert.Spec.mean (fun d => k0_pay27 v1 v100 v109 v158 v159 v162 v170 (ix2 d c)) := by
  unfold k0_pay33
  exact meanRow_apply _ c

/-- The first normalisation's variance piece. -/
theorem pay34_apply :
    k0_pay34 v1 v100 v109 v158 v159 v162 v170 (ix2 (0 : Fin 1) c)
      = Cert.Spec.var (fun d => k0_pay27 v1 v100 v109 v158 v159 v162 v170 (ix2 d c)) := by
  unfold k0_pay34
  exact varRow_apply (k0_pay27 v1 v100 v109 v158 v159 v162 v170) c

/-- The first normalisation's gained deviation. -/
theorem pay35_apply (v180 : Vec Ideal S128x5 .f32) (d : Fin 128) :
    k0_pay35 v1 v100 v109 v158 v159 v162 v170 v180 (ix2 d c)
      = v180 (ix2 d (1 : Fin 5)) * (k0_pay27 v1 v100 v109 v158 v159 v162 v170 (ix2 d c)
          - Cert.Spec.mean (fun d' => k0_pay27 v1 v100 v109 v158 v159 v162 v170 (ix2 d' c))) := by
  unfold k0_pay35
  show broadcastTo S128x2048 (extractStridedSlice S128x1 ![0, 1] (k0_pay28 v180) slices_S128x5_o0_1_S128x1)
        broadcasts_S128x1_S128x2048 (ix2 d c)
      * subf (k0_pay27 v1 v100 v109 v158 v159 v162 v170)
          (broadcastTo S128x2048 (k0_pay33 v1 v100 v109 v158 v159 v162 v170) broadcasts_S1x2048_S128x2048) (ix2 d c) = _
  rw [Cert.LibColumnBroadcast.broadcastTo_a1_ab_apply, centered_apply, pay33_apply,
    parCol_apply (k0_pay28 v180) 1 1 rfl _ d 0]
  unfold k0_pay28
  rw [shapeCast_self]

end Pieces

/-- The epsilon piece. -/
theorem pay36_apply (c : Fin 2048) : k0_pay36 (F := Ideal) (ix2 (0 : Fin 1) c) = Cert.Spec.cEps := rfl

/-- The dense layer's bias: column 0 of the packed parameters. -/
theorem pay29_apply (v180 : Vec Ideal S128x5 .f32) (d : Fin 128) :
    k0_pay29 v180 (ix2 d (0 : Fin 1)) = v180 (ix2 d (0 : Fin 5)) := by
  unfold k0_pay29
  rw [parCol_apply (k0_pay28 v180) 0 0 rfl _ d 0]
  unfold k0_pay28
  rw [shapeCast_self]

/-- The first normalisation's offset: column 2. -/
theorem pay30_apply (v180 : Vec Ideal S128x5 .f32) (d : Fin 128) :
    k0_pay30 v180 (ix2 d (0 : Fin 1)) = v180 (ix2 d (2 : Fin 5)) := by
  unfold k0_pay30
  rw [parCol_apply (k0_pay28 v180) 2 2 rfl _ d 0]
  unfold k0_pay28
  rw [shapeCast_self]

/-- The second normalisation's gain: column 3. -/
theorem pay31_apply (v180 : Vec Ideal S128x5 .f32) (d : Fin 128) :
    k0_pay31 v180 (ix2 d (0 : Fin 1)) = v180 (ix2 d (3 : Fin 5)) := by
  unfold k0_pay31
  rw [parCol_apply (k0_pay28 v180) 3 3 rfl _ d 0]
  unfold k0_pay28
  rw [shapeCast_self]

/-- The second normalisation's offset: column 4. -/
theorem pay32_apply (v180 : Vec Ideal S128x5 .f32) (d : Fin 128) :
    k0_pay32 v180 (ix2 d (0 : Fin 1)) = v180 (ix2 d (4 : Fin 5)) := by
  unfold k0_pay32
  rw [parCol_apply (k0_pay28 v180) 4 4 rfl _ d 0]
  unfold k0_pay28
  rw [shapeCast_self]

end Cert.KernelIdeal.Hand

end
-- ==== Proof.BodyValue.lean ====
/-
  The kernel's stored value read at row d of batch column c: the column function of the column's inputs.

  The stages are joined here. In column c the eight arrays of rectified scores read the column function's L n h; the
  soft-max pieces, the weighted sum of the key slabs and the attended column follow from them; the two normalisations
  and the dense layer act on the attended column. First over variables for the loaded and already formed arrays, then
  for the body's value itself.
-/
import proofs.«165610_j52828097741217_2_alg».proof.Proof.BodyScores
import proofs.«165610_j52828097741217_2_alg».proof.Proof.BodyMix
import proofs.«165610_j52828097741217_2_alg».proof.Proof.BodyNorms

noncomputable section

namespace Cert.KernelIdeal.Hand

open Idealize.ShloMosaic Idealize.SL.Sem Idealize.ShloMosaic.ValueIdx Cert.KernelIdeal Cert.KernelIdeal.Gen
open scoped BigOperators

section Tail
variable (v1 : FVec Ideal S128x2048 .f32) (v4 : FVec Ideal S128x4 .f32)
  (v5 v14 v23 v32 v41 v50 v59 v68 : FVec Ideal S4x2048 .f32)
  (K0 K1 K2 K3 K4 K5 K6 K7 : Vec Ideal S1x128x2048 .f32) (v180 : Vec Ideal S128x5 .f32) (v209 : Vec Ideal S128x128 .f32)
  (L : Fin 8 → Fin 4 → EReal) (k : Fin 8 → Fin 128 → EReal) (q : Fin 128 → EReal) (c : Fin 2048)
  (h0 : ∀ h, v14 (ix2 h c) = L 0 h) (h1 : ∀ h, v23 (ix2 h c) = L 1 h) (h2 : ∀ h, v32 (ix2 h c) = L 2 h)
  (h3 : ∀ h, v41 (ix2 h c) = L 3 h) (h4 : ∀ h, v50 (ix2 h c) = L 4 h) (h5 : ∀ h, v59 (ix2 h c) = L 5 h)
  (h6 : ∀ h, v68 (ix2 h c) = L 6 h) (h7 : ∀ h, k0_pay12 v4 v5 K7 (ix2 h c) = L 7 h)
  (hq : ∀ j, v1 (ix2 j c) = q j)
  (hK0 : ∀ j, shapeCast S128x2048 K0 shapeCasts_S1x128x2048_S128x2048 (ix2 j c) = k 0 j)
  (hK1 : ∀ j, shapeCast S128x2048 K1 shapeCasts_S1x128x2048_S128x2048 (ix2 j c) = k 1 j)
  (hK2 : ∀ j, shapeCast S128x2048 K2 shapeCasts_S1x128x2048_S128x2048 (ix2 j c) = k 2 j)
  (hK3 : ∀ j, shapeCast S128x2048 K3 shapeCasts_S1x128x2048_S128x2048 (ix2 j c) = k 3 j)
  (hK4 : ∀ j, shapeCast S128x2048 K4 shapeCasts_S1x128x2048_S128x2048 (ix2 j c) = k 4 j)
  (hK5 : ∀ j, shapeCast S128x2048 K5 shapeCasts_S1x128x2048_S128x2048 (ix2 j c) = k 5 j)
  (hK6 : ∀ j, shapeCast S128x2048 K6 shapeCasts_S1x128x2048_S128x2048 (ix2 j c) = k 6 j)
  (hK7 : ∀ j, shapeCast S128x2048 K7 shapeCasts_S1x128x2048_S128x2048 (ix2 j c) = k 7 j)

include h0 h1 h2 h3 h4 h5 h6 h7 hq hK0 hK1 hK2 hK3 hK4 hK5 hK6 hK7 in
/-- The attended tile, over the eight score arrays and the eight key slabs, reads the attended column. -/
theorem attended_apply (j : Fin 128) :
    k0_pay27 v1 (k0_pay21 v4 v5 v14 v23 v32 v41 v50 v59 v68 K7) (k0_pay22 v4 v5 v14 v23 v32 v41 v50 v59 v68 K7)
        (k0_pay25 (k0_pay16 v4 v5 v14 v23 v32 v41 v50 v59 v68 K7) (k0_pay17 v4 v5 v14 v23 v32 v41 v50 v59 v68 K7) (k0_pay18 v4 v5 v14 v23 v32 v41 v50 v59 v68 K7) (k0_pay19 v4 v5 v14 v23 v32 v41 v50 v59 v68 K7) (k0_pay22 v4 v5 v14 v23 v32 v41 v50 v59 v68 K7)
          (k0_pay23 v4 v5 v14 v23 v32 v41 v50 v59 v68 K7 K0) (k0_pay24 v4 v5 v14 v23 v32 v41 v50 v59 v68 K7) K1 K2 K3 K4 K5)
        (k0_pay26 (k0_pay20 v4 v5 v14 v23 v32 v41 v50 v59 v68 K7) (k0_pay22 v4 v5 v14 v23 v32 v41 v50 v59 v68 K7)) K6 K7 (ix2 j c)
      = Cert.Spec.pre L k q j := by
  refine pay27_apply _ _ _ _ _ _ _ L k q j c (hq j)
    (fun h => pay21_apply v4 v5 v14 v23 v32 v41 v50 v59 v68 K7 L c h0 h1 h2 h3 h4 h5 h6 h7 h) (fun h => pay22_apply v4 v5 v14 v23 v32 v41 v50 v59 v68 K7 L c h0 h1 h2 h3 h4 h5 h6 h7 h)
    (pay25_apply _ _ _ _ _ _ _ _ _ _ _ _ L k j c
      (pay23_apply v4 v5 v14 v23 v32 v41 v50 v59 v68 K7 L c h0 h1 h2 h3 h4 h5 h6 h7 K0 (k 0) j (hK0 j))
      (fun h => pay24_apply v4 v5 v14 v23 v32 v41 v50 v59 v68 K7 L c h0 h1 h2 h3 h4 h5 h6 h7 h)
      (fun h => pay16_apply v4 v5 v14 v23 v32 v41 v50 v59 v68 K7 L c h0 h1 h2 h3 h4 h5 h6 h7 h) (fun h => pay17_apply v4 v5 v14 v23 v32 v41 v50 v59 v68 K7 L c h0 h1 h2 h3 h4 h5 h6 h7 h)
      (fun h => pay18_apply v4 v5 v14 v23 v32 v41 v50 v59 v68 K7 L c h0 h1 h2 h3 h4 h5 h6 h7 h) (fun h => pay19_apply v4 v5 v14 v23 v32 v41 v50 v59 v68 K7 L c h0 h1 h2 h3 h4 h5 h6 h7 h)
      (fun h => pay22_apply v4 v5 v14 v23 v32 v41 v50 v59 v68 K7 L c h0 h1 h2 h3 h4 h5 h6 h7 h) (hK1 j) (hK2 j) (hK3 j) (hK4 j) (hK5 j))
    (fun h => ?_) (hK6 j) (hK7 j)
  rw [pay26_apply, pay20_apply v4 v5 v14 v23 v32 v41 v50 v59 v68 K7 L c h0 h1 h2 h3 h4 h5 h6 h7 h, pay22_apply v4 v5 v14 v23 v32 v41 v50 v59 v68 K7 L c h0 h1 h2 h3 h4 h5 h6 h7 h]
  rfl

include h0 h1 h2 h3 h4 h5 h6 h7 hq hK0 hK1 hK2 hK3 hK4 hK5 hK6 hK7 in
/-- The stored value over the loaded and already formed arrays: the two normalisations around the dense layer, on the
    attended column. `par` and `W` are what the packed parameters and the post matrix read. -/
theorem tail_apply (par : Fin 128 → Fin 5 → EReal) (W : Fin 128 → Fin 128 → EReal)
    (hpar : ∀ j n, v180 (ix2 j n) = par j n) (hW : ∀ i j, v209 (ix2 i j) = W i j) (d : Fin 128) :
    k0_pay1 (k0_pay29 v180) (k0_pay30 v180) (k0_pay31 v180) (k0_pay32 v180)
        (k0_pay34 v1 (k0_pay21 v4 v5 v14 v23 v32 v41 v50 v59 v68 K7) (k0_pay22 v4 v5 v14 v23 v32 v41 v50 v59 v68 K7)
          (k0_pay25 (k0_pay16 v4 v5 v14 v23 v32 v41 v50 v59 v68 K7) (k0_pay17 v4 v5 v14 v23 v32 v41 v50 v59 v68 K7) (k0_pay18 v4 v5 v14 v23 v32 v41 v50 v59 v68 K7) (k0_pay19 v4 v5 v14 v23 v32 v41 v50 v59 v68 K7) (k0_pay22 v4 v5 v14 v23 v32 v41 v50 v59 v68 K7)
            (k0_pay23 v4 v5 v14 v23 v32 v41 v50 v59 v68 K7 K0) (k0_pay24 v4 v5 v14 v23 v32 v41 v50 v59 v68 K7) K1 K2 K3 K4 K5)
          (k0_pay26 (k0_pay20 v4 v5 v14 v23 v32 v41 v50 v59 v68 K7) (k0_pay22 v4 v5 v14 v23 v32 v41 v50 v59 v68 K7)) K6 K7)
        (k0_pay35 v1 (k0_pay21 v4 v5 v14 v23 v32 v41 v50 v59 v68 K7) (k0_pay22 v4 v5 v14 v23 v32 v41 v50 v59 v68 K7)
          (k0_pay25 (k0_pay16 v4 v5 v14 v23 v32 v41 v50 v59 v68 K7) (k0_pay17 v4 v5 v14 v23 v32 v41 v50 v59 v68 K7) (k0_pay18 v4 v5 v14 v23 v32 v41 v50 v59 v68 K7) (k0_pay19 v4 v5 v14 v23 v32 v41 v50 v59 v68 K7) (k0_pay22 v4 v5 v14 v23 v32 v41 v50 v59 v68 K7)
            (k0_pay23 v4 v5 v14 v23 v32 v41 v50 v59 v68 K7 K0) (k0_pay24 v4 v5 v14 v23 v32 v41 v50 v59 v68 K7) K1 K2 K3 K4 K5)
          (k0_pay26 (k0_pay20 v4 v5 v14 v23 v32 v41 v50 v59 v68 K7) (k0_pay22 v4 v5 v14 v23 v32 v41 v50 v59 v68 K7)) K6 K7 v180)
        (k0_pay36 (F := Ideal)) v209 (ix2 d c)
      = Cert.Spec.lnorm (fun j => par j 3) (fun j => par j 4)
          (Cert.Spec.lin W (fun j => par j 0) (Cert.Spec.lnorm (fun j => par j 1) (fun j => par j 2) (Cert.Spec.pre L k q))) d := by
  have hpre := attended_apply v1 v4 v5 v14 v23 v32 v41 v50 v59 v68 K0 K1 K2 K3 K4 K5 K6 K7 L k q c h0 h1 h2 h3 h4 h5 h6 h7 hq
    hK0 hK1 hK2 hK3 hK4 hK5 hK6 hK7
  rw [pay1_apply]
  simp only [pay29_apply, pay30_apply, pay31_apply, pay32_apply, pay34_apply, pay35_apply, pay36_apply, hpre, hpar, hW]
  rfl

end Tail

/-- The kernel body's stored value at row d of batch column c is the column function of the column's inputs. -/
theorem bodyVal_apply (x0 : Vec Ideal S128x2048 .f32) (x1 : Vec Ideal S8x128x2048 .f32) (x2 : Vec Ideal S256x4 .f32)
    (x3 : Vec Ideal S128x128 .f32) (x4 : Vec Ideal S128x5 .f32) (d : Fin 128) (c : Fin 2048) :
    bodyVal (F := Ideal) x0 x1 x2 x3 x4 (ix2 d c)
      = Cert.Spec.colOut (fun d' h => x2 (ix2 (⟨d'.val, by omega⟩ : Fin 256) h))
          (fun d' h => x2 (ix2 (⟨128 + d'.val, by omega⟩ : Fin 256) h))
          (fun d' => x0 (ix2 d' c)) (fun n d' => x1 (ix3 n d' c))
          (fun d' => x4 (ix2 d' (1 : Fin 5))) (fun d' => x4 (ix2 d' (2 : Fin 5))) (fun d' j => x3 (ix2 d' j))
          (fun d' => x4 (ix2 d' (0 : Fin 5))) (fun d' => x4 (ix2 d' (3 : Fin 5))) (fun d' => x4 (ix2 d' (4 : Fin 5))) d :=
  tail_apply (k0_pay2 (View.ld x0 rTile)) (k0_pay3 (View.ld x2 rAtt)) (k0_pay4 (View.ld x0 rTile) (View.ld x2 rAtt))
    (k0_pay5 (View.ld x0 rTile) (View.ld x2 rAtt) (View.ld x1 rK0))
    (k0_pay6 (View.ld x0 rTile) (View.ld x2 rAtt) (View.ld x1 rK1))
    (k0_pay7 (View.ld x0 rTile) (View.ld x2 rAtt) (View.ld x1 rK2))
    (k0_pay8 (k0_pay3 (View.ld x2 rAtt)) (k0_pay4 (View.ld x0 rTile) (View.ld x2 rAtt)) (View.ld x1 rK3))
    (k0_pay9 (k0_pay3 (View.ld x2 rAtt)) (k0_pay4 (View.ld x0 rTile) (View.ld x2 rAtt)) (View.ld x1 rK4))
    (k0_pay10 (k0_pay3 (View.ld x2 rAtt)) (k0_pay4 (View.ld x0 rTile) (View.ld x2 rAtt)) (View.ld x1 rK5))
    (k0_pay11 (k0_pay3 (View.ld x2 rAtt)) (k0_pay4 (View.ld x0 rTile) (View.ld x2 rAtt)) (View.ld x1 rK6))
    (View.ld x1 rK0) (View.ld x1 rK1) (View.ld x1 rK2) (View.ld x1 rK3) (View.ld x1 rK4) (View.ld x1 rK5)
    (View.ld x1 rK6) (View.ld x1 rK7) (View.ld x4 rPar) (View.ld x3 rW)
    (Cert.Spec.lk (colAq x2) (colAk x2) (colQ x0 c) (colK x1 c)) (colK x1 c) (colQ x0 c) c
    (fun h => pay5_apply x0 x1 x2 h c) (fun h => pay6_apply x0 x1 x2 h c) (fun h => pay7_apply x0 x1 x2 h c)
    (fun h => pay8_apply x0 x1 x2 h c) (fun h => pay9_apply x0 x1 x2 h c) (fun h => pay10_apply x0 x1 x2 h c)
    (fun h => pay11_apply x0 x1 x2 h c) (fun h => pay12_apply x0 x1 x2 h c)
    (fun j => pay2_apply x0 j c)
    (fun j => slab_apply x1 0 0 rfl _ _ j c) (fun j => slab_apply x1 1 1 rfl _ _ j c)
    (fun j => slab_apply x1 2 2 rfl _ _ j c) (fun j => slab_apply x1 3 3 rfl _ _ j c)
    (fun j => slab_apply x1 4 4 rfl _ _ j c) (fun j => slab_apply x1 5 5 rfl _ _ j c)
    (fun j => slab_apply x1 6 6 rfl _ _ j c) (fun j => slab_apply x1 7 7 rfl _ _ j c)
    (fun j n => x4 (ix2 j n)) (fun i j => x3 (ix2 i j))
    (fun j n => ld_whole2 x4 _ j n) (fun i j => ld_whole2 x3 _ i j) d

end Cert.KernelIdeal.Hand

end
-- ==== Proof.KernelValue.lean ====
/-
  The kernel's value: the result array after the run as one function of the nine argument arrays.

  At grid point t the body stores, at (d, q) of its block, the function's value at row d of column 2048 t + q:
  the point's query and key blocks are those columns of their arrays, the parameter blocks the whole parameter
  arrays. The output's blocks tile the [128, 65536] result (column b lies in the block of point b / 2048), so the
  result array ends holding the function everywhere; the argument arrays end as launched.
-/
import proofs.«165610_j52828097741217_2_alg».proof.Proof.KernelIdealFrame
import proofs.«165610_j52828097741217_2_alg».proof.Proof.KernelValueIn
import proofs.«165610_j52828097741217_2_alg».proof.Proof.BodyValue
import proofs.«165610_j52828097741217_2_alg».proof.Proof.Spec
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One entry of a point's stored block -/

/-- The stored value of a grid point at (d, q), when the point's blocks are the columns e q of the query and key
    arrays and the whole parameter arrays, is the function's value at row d of column e q. -/
theorem point_eq (x0 : Vec Ideal S128x2048 .f32) (x1 : Vec Ideal S8x128x2048 .f32) (x2 : Vec Ideal S256x4 .f32)
    (x3 : Vec Ideal S128x128 .f32) (x4 : Vec Ideal S128x5 .f32)
    (A0 : S1x128x65536.Idx → EReal) (A1 : S8x128x65536.Idx → EReal) (A2 : S256x4.Idx → EReal) (A3 A4 : S128.Idx → EReal)
    (A5 : S128x128.Idx → EReal) (A6 : S128x1.Idx → EReal) (A7 A8 : S128.Idx → EReal) (e : Fin 2048 → Fin 65536)
    (h0 : ∀ (d : Fin 128) (q : Fin 2048), x0 (ix2 d q) = A0 (ix3 (0 : Fin 1) d (e q)))
    (h1 : ∀ (n : Fin 8) (d : Fin 128) (q : Fin 2048), x1 (ix3 n d q) = A1 (ix3 n d (e q)))
    (h2 : x2 = A2) (h3 : x3 = A5)
    (h40 : ∀ d : Fin 128, x4 (ix2 d (0 : Fin 5)) = A6 (ix2 d (0 : Fin 1)))
    (h41 : ∀ d : Fin 128, x4 (ix2 d (1 : Fin 5)) = A3 (ix1 d))
    (h42 : ∀ d : Fin 128, x4 (ix2 d (2 : Fin 5)) = A4 (ix1 d))
    (h43 : ∀ d : Fin 128, x4 (ix2 d (3 : Fin 5)) = A7 (ix1 d))
    (h44 : ∀ d : Fin 128, x4 (ix2 d (4 : Fin 5)) = A8 (ix1 d))
    (d : Fin 128) (q : Fin 2048) :
    bodyVal (F := Ideal) x0 x1 x2 x3 x4 (ix2 d q) = Cert.Spec.Gat A0 A1 A2 A3 A4 A5 A6 A7 A8 d (e q) := by
  rw [bodyVal_apply]
  subst h2 h3
  unfold Cert.Spec.Gat
  simp only [h0, h1, h40, h41, h42, h43, h44]

/-- The same at any index y of the block and the index i of the array it sits at. -/
theorem point_eq_idx (x0 : Vec Ideal S128x2048 .f32) (x1 : Vec Ideal S8x128x2048 .f32) (x2 : Vec Ideal S256x4 .f32)
    (x3 : Vec Ideal S128x128 .f32) (x4 : Vec Ideal S128x5 .f32)
    (A0 : S1x128x65536.Idx → EReal) (A1 : S8x128x65536.Idx → EReal) (A2 : S256x4.Idx → EReal) (A3 A4 : S128.Idx → EReal)
    (A5 : S128x128.Idx → EReal) (A6 : S128x1.Idx → EReal) (A7 A8 : S128.Idx → EReal) (e : Fin 2048 → Fin 65536)
    (h0 : ∀ (d : Fin 128) (q : Fin 2048), x0 (ix2 d q) = A0 (ix3 (0 : Fin 1) d (e q)))
    (h1 : ∀ (n : Fin 8) (d : Fin 128) (q : Fin 2048), x1 (ix3 n d q) = A1 (ix3 n d (e q)))
    (h2 : x2 = A2) (h3 : x3 = A5)
    (h40 : ∀ d : Fin 128, x4 (ix2 d (0 : Fin 5)) = A6 (ix2 d (0 : Fin 1)))
    (h41 : ∀ d : Fin 128, x4 (ix2 d (1 : Fin 5)) = A3 (ix1 d))
    (h42 : ∀ d : Fin 128, x4 (ix2 d (2 : Fin 5)) = A4 (ix1 d))
    (h43 : ∀ d : Fin 128, x4 (ix2 d (3 : Fin 5)) = A7 (ix1 d))
    (h44 : ∀ d : Fin 128, x4 (ix2 d (4 : Fin 5)) = A8 (ix1 d))
    (y : S128x2048.Idx) (i : S128x65536.Idx) (hi0 : (i 0).val = (y 0).val) (hi1 : (i 1).val = (e (y 1)).val) :
    bodyVal (F := Ideal) x0 x1 x2 x3 x4 y = Cert.Spec.G A0 A1 A2 A3 A4 A5 A6 A7 A8 i := by
  have hd : i 0 = y 0 := Fin.ext hi0
  have hq : i 1 = e (y 1) := Fin.ext hi1
  rw [eq_ix2 y]
  show _ = Cert.Spec.Gat A0 A1 A2 A3 A4 A5 A6 A7 A8 (i 0) (i 1)
  rw [hd, hq]
  exact point_eq x0 x1 x2 x3 x4 A0 A1 A2 A3 A4 A5 A6 A7 A8 e h0 h1 h2 h3 h40 h41 h42 h43 h44 (y 0) (y 1)

/-! ## What each point writes back -/

theorem hz : (![0, 0] : Fin 2 → Nat) = fun _ => 0 := funext fun a => by fin_cases a <;> rfl

/-- Column q of point t's blocks is column 2048 t + q of the arrays. -/
def colAt (t : Fin cfg0.N) (q : Fin 2048) : Fin 65536 :=
  ⟨t.val * 2048 + q.val, by have h : t.val < 32 := lt_of_lt_of_eq t.isLt (show cfg0.N = 32 from N_0); omega⟩

/-- The result array as one function of the nine argument arrays as launched. -/
abbrev GG (c : Dev nD) : S128x65536.Idx → EReal :=
  Cert.Spec.G (m ((c : Thread nD τ).loc main_arg0) : S1x128x65536.Idx → EReal)
      (m ((c : Thread nD τ).loc main_arg1) : S8x128x65536.Idx → EReal)
      (m ((c : Thread nD τ).loc main_arg2) : S256x4.Idx → EReal)
      (m ((c : Thread nD τ).loc main_arg3) : S128.Idx → EReal)
      (m ((c : Thread nD τ).loc main_arg4) : S128.Idx → EReal)
      (m ((c : Thread nD τ).loc main_arg5) : S128x128.Idx → EReal)
      (m ((c : Thread nD τ).loc main_arg6) : S128x1.Idx → EReal)
      (m ((c : Thread nD τ).loc main_arg7) : S128.Idx → EReal)
      (m ((c : Thread nD τ).loc main_arg8) : S128.Idx → EReal)

/-- What point t writes back is block t of that function. -/
theorem flushed5_eq (c : Dev nD) (t : Fin cfg0.N) :
    (dats m 0 c).flushed 5 t = ((cfg0.win 5).blk t).view.read (Elt Ideal) (GG m c) := by
  show (cfg0.win 5).cut (grid0.coords t) ((dats m 0 c).after 5 t) = _
  rw [after0_5]
  unfold out0_5
  rw [View.canon_unit_zero hz]
  obtain ⟨-, -, -, -, -, -, -, -, -, -, -, e0, e1⟩ := idx_facts t
  funext y
  show bodyVal (F := Ideal) (iblk m c 0 t) (iblk m c 1 t) (iblk m c 2 t) (iblk m c 3 t) (iblk m c 4 t) y
    = GG m c (((cfg0.win 5).blk t).view.emb y)
  exact point_eq_idx (iblk m c 0 t) (iblk m c 1 t) (iblk m c 2 t) (iblk m c 3 t) (iblk m c 4 t) _ _ _ _ _ _ _ _ _ (colAt t)
    (fun d q => (iblk0_apply m c t (ix2 d q) (ix2 d (colAt t q)) rfl rfl).trans (V_main_v0_apply m c d (colAt t q)))
    (fun n d q => iblk1_apply m c t (ix3 n d q) (ix3 n d (colAt t q)) rfl rfl rfl)
    (iblk2_eq m c t) (iblk3_eq m c t)
    (fun d => (congrFun (iblk4_eq m c t) _).trans (V_main_v5_col0 m c d))
    (fun d => (congrFun (iblk4_eq m c t) _).trans (V_main_v5_col1 m c d))
    (fun d => (congrFun (iblk4_eq m c t) _).trans (V_main_v5_col2 m c d))
    (fun d => (congrFun (iblk4_eq m c t) _).trans (V_main_v5_col3 m c d))
    (fun d => (congrFun (iblk4_eq m c t) _).trans (V_main_v5_col4 m c d))
    y (((cfg0.win 5).blk t).view.emb y)
    (by show win0_5.index t (0 : Fin 2) * 128 + 1 * (y 0).val = (y 0).val; rw [e0]; omega)
    (by show win0_5.index t (1 : Fin 2) * 2048 + 1 * (y 1).val = t.val * 2048 + (y 1).val; rw [e1]; omega)

/-! ## The blocks cover the array -/

/-- An index of the array is in point t's block iff each coordinate is in the block's range on its axis. -/
theorem mem_blk5 (t : Fin cfg0.N) (i : S128x65536.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v6).slice (win0_5.rect t)).set ↔ _
  rw [View.set_slice_whole, Rect.mem_set_unit]
  exact Iff.rfl

/-- Column b of the array is in the block of point b / 2048. -/
theorem cover5 (i : S128x65536.Idx) : ∃ t : Fin cfg0.N, (cfg0.win 5).flush t = true ∧ i ∈ ((cfg0.win 5).blk t).view.set := by
  have hi0 : (i 0).val < 128 := (i 0).isLt
  have hi1 : (i 1).val < 65536 := (i 1).isLt
  have ht : (i 1).val / 2048 < cfg0.N := by rw [show cfg0.N = 32 from N_0]; omega
  obtain ⟨-, -, -, -, -, -, -, -, -, -, -, e0, e1⟩ := idx_facts ⟨(i 1).val / 2048, ht⟩
  refine ⟨⟨(i 1).val / 2048, ht⟩, flush0_5 _, ?_⟩
  rw [mem_blk5]
  intro a
  match a with
  | ⟨0, _⟩ =>
    show win0_5.index ⟨(i 1).val / 2048, ht⟩ (0 : Fin 2) * 128 ≤ (i 0).val ∧ (i 0).val < win0_5.index ⟨(i 1).val / 2048, ht⟩ (0 : Fin 2) * 128 + 128
    rw [e0]; omega
  | ⟨1, _⟩ =>
    show win0_5.index ⟨(i 1).val / 2048, ht⟩ (1 : Fin 2) * 2048 ≤ (i 1).val ∧ (i 1).val < win0_5.index ⟨(i 1).val / 2048, ht⟩ (1 : Fin 2) * 2048 + 2048
    rw [e1]
    show (i 1).val / 2048 * 2048 ≤ (i 1).val ∧ (i 1).val < (i 1).val / 2048 * 2048 + 2048
    omega

/-- The result array after the run is that function of the arguments. -/
theorem final5 (c : Dev nD) : (dats m 0 c).arrAt 5 cfg0.N = GG m c :=
  (dats m 0 c).arrAt_eq_of_cover 5 (GG m c) (fun t _ => flushed5_eq m c t) cover5

/-! ## The run, read -/

/-- After the frame run, the result array is what the proof data determine. -/
theorem post5 (r : PUnit × MemSt nD τ sig (Elt Ideal)) (h : Pipeline.FramePost cfgs (dats m) 0 (V m) r) (c : Dev nD) :
    r.2.mem ((c : Thread nD τ).loc main_v6) = (dats m 0 c).arrAt 5 cfg0.N :=
  (h c).1 5

/-- After the frame run, the nine argument arrays are as launched: a staged one is never written back, the others
    are among the unscoped buffers no window touches, and no host operation writes an argument. -/
theorem kept_args (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 3).trans (((dats m 0 c).arrAt_in 3 rfl _).trans ((A_eq m c 3).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The program terminates without fault, leaves the result array at the function's value of the argument arrays,
    and leaves the arguments unchanged. -/
theorem value_run : θ_run (defs (F := Ideal)) (onTc (τ := τ) (main (F := Ideal))) ⟨m, fun _ => 0, ρ⟩ (fun r => ∀ c : Dev nD,
      r.2.mem ((c.tc : Thread nD τ).loc main_v6) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(post5 m r h c).trans (final5 m c), kept_args m r h c⟩) (run_main m ρ)

end Cert.KernelIdeal.Hand

end
-- ==== Proof.RefRunA.lean ====
import proofs.«165610_j52828097741217_2_alg».proof.ReferenceIdeal
import Idealize.ShloMosaic.Lib.StableHlo.Run

/-!
The reference program @main as a straight line of host operations. The two outlined functions
(leaky-relu, which itself calls the select function, and relu) are written at their call sites over
the buffers their calls name; a typed reference at a literal buffer transports nothing, so each of
their operations is the plain operation at that buffer.
-/

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The first window's operations, in order: 58 of @main's own, the leaky-relu call's seven after the
    slope constant, the relu call's three after the heads' mean. -/
abbrev ops0 : List (HloOp τ sig (Elt F)) :=
  [ reshape main_arg0 main_v0 rfl shapeCasts_S1x128x65536_S128x65536,
    unary main_v0 main_v1 (broadcastInDim S8x128x65536 ![1, 2] bcast_S128x65536_S8x128x65536_1_2 : (⟨S128x65536, .f32⟩ : BufTy).Contents (Elt F) → (⟨S8x128x65536, .f32⟩ : BufTy).Contents (Elt F)),
    binary main_v1 main_arg1 main_v2 ((fun a b => concatenate S8x256x65536 1 [⟨S8x128x65536, a⟩, ⟨S8x128x65536, b⟩] concatenates_S8x128x65536_S8x128x65536_S8x256x65536_d1) : (⟨S8x128x65536, .f32⟩ : BufTy).Contents (Elt F) → (⟨S8x128x65536, .f32⟩ : BufTy).Contents (Elt F) → (⟨S8x256x65536, .f32⟩ : BufTy).Contents (Elt F)),
    unary main_v2 main_v3 ((transpose S8x65536x256 [0, 2, 1] · transposes_S8x256x65536_S8x65536x256_0_2_1) : (⟨S8x256x65536, .f32⟩ : BufTy).Contents (Elt F) → (⟨S8x65536x256, .f32⟩ : BufTy).Contents (Elt F)),
    binary main_v3 main_arg2 main_v4 ((fun l r => Host.dotGeneral dot_S8x65536x256_S256x4_S8x65536x4_2_0_01_1_n_n none l r) : (⟨S8x65536x256, .f32⟩ : BufTy).Contents (Elt F) → (⟨S256x4, .f32⟩ : BufTy).Contents (Elt F) → (⟨S8x65536x4, .f32⟩ : BufTy).Contents (Elt F)),
    nullary main_cst (constant S_ .f32 0x3C23D70A#32),
    nullary main_call0_cst (constant S_ .f32 0x00000000#32),
    unary main_call0_cst main_call0_v0 (broadcastInDim S8x65536x4 ![] bcast_S_S8x65536x4 : (⟨S_, .f32⟩ : BufTy).Contents (Elt F) → (⟨S8x65536x4, .f32⟩ : BufTy).Contents (Elt F)),
    binary main_v4 main_call0_v0 main_call0_v1 (cmpf .oge : (⟨S8x65536x4, .f32⟩ : BufTy).Contents (Elt F) → (⟨S8x65536x4, .f32⟩ : BufTy).Contents (Elt F) → (⟨S8x65536x4, .i1⟩ : BufTy).Contents (Elt F)),
    unary main_cst main_call0_v2 (id : (⟨S_, .f32⟩ : BufTy).Contents (Elt F) → (⟨S_, .f32⟩ : BufTy).Contents (Elt F)),
    unary main_call0_v2 main_call0_v3 (broadcastInDim S8x65536x4 ![] bcast_S_S8x65536x4 : (⟨S_, .f32⟩ : BufTy).Contents (Elt F) → (⟨S8x65536x4, .f32⟩ : BufTy).Contents (Elt F)),
    binary main_call0_v3 main_v4 main_call0_v4 (mulf : (⟨S8x65536x4, .f32⟩ : BufTy).Contents (Elt F) → (⟨S8x65536x4, .f32⟩ : BufTy).Contents (Elt F) → (⟨S8x65536x4, .f32⟩ : BufTy).Contents (Elt F)),
    ternary main_call0_v1 main_v4 main_call0_v4 main_v5 (select : (⟨S8x65536x4, .i1⟩ : BufTy).Contents (Elt F) → (⟨S8x65536x4, .f32⟩ : BufTy).Contents (Elt F) → (⟨S8x65536x4, .f32⟩ : BufTy).Contents (Elt F) → (⟨S8x65536x4, .f32⟩ : BufTy).Contents (Elt F)),
    nullary main_cst_0 (constant S_ .f32 0xFF800000#32),
    binary main_v5 main_cst_0 main_v6 ((fun x v => Host.reduce FloatOps.maximumf x v reducesTo_S8x65536x4_S65536x4_d0 h_S_) : (⟨S8x65536x4, .f32⟩ : BufTy).Contents (Elt F) → (⟨S_, .f32⟩ : BufTy).Contents (Elt F) → (⟨S65536x4, .f32⟩ : BufTy).Contents (Elt F)),
    nullary main_cst_1 (constant S_ .f32 0xFF800000#32),
    unary main_cst_1 main_v7 (broadcastInDim S65536x4 ![] bcast_S_S65536x4 : (⟨S_, .f32⟩ : BufTy).Contents (Elt F) → (⟨S65536x4, .f32⟩ : BufTy).Contents (Elt F)),
    binary main_v7 main_v6 main_v8 (maximumf : (⟨S65536x4, .f32⟩ : BufTy).Contents (Elt F) → (⟨S65536x4, .f32⟩ : BufTy).Contents (Elt F) → (⟨S65536x4, .f32⟩ : BufTy).Contents (Elt F)),
    unary main_v8 main_v9 (broadcastInDim S1x65536x4 ![1, 2] bcast_S65536x4_S1x65536x4_1_2 : (⟨S65536x4, .f32⟩ : BufTy).Contents (Elt F) → (⟨S1x65536x4, .f32⟩ : BufTy).Contents (Elt F)),
    unary main_v9 main_v10 (broadcastInDim S8x65536x4 ![0, 1, 2] bcast_S1x65536x4_S8x65536x4_0_1_2 : (⟨S1x65536x4, .f32⟩ : BufTy).Contents (Elt F) → (⟨S8x65536x4, .f32⟩ : BufTy).Contents (Elt F)),
    binary main_v5 main_v10 main_v11 (subf : (⟨S8x65536x4, .f32⟩ : BufTy).Contents (Elt F) → (⟨S8x65536x4, .f32⟩ : BufTy).Contents (Elt F) → (⟨S8x65536x4, .f32⟩ : BufTy).Contents (Elt F)),
    unary main_v11 main_v12 (Host.exp : (⟨S8x65536x4, .f32⟩ : BufTy).Contents (Elt F) → (⟨S8x65536x4, .f32⟩ : BufTy).Contents (Elt F)),
    nullary main_cst_2 (constant S_ .f32 0x00000000#32),
    binary main_v12 main_cst_2 main_v13 ((fun x v => Host.reduceAdd x v reducesTo_S8x65536x4_S65536x4_d0 h_S_) : (⟨S8x65536x4, .f32⟩ : BufTy).Contents (Elt F) → (⟨S_, .f32⟩ : BufTy).Contents (Elt F) → (⟨S65536x4, .f32⟩ : BufTy).Contents (Elt F)),
    unary main_v13 main_v14 (broadcastInDim S1x65536x4 ![1, 2] bcast_S65536x4_S1x65536x4_1_2 : (⟨S65536x4, .f32⟩ : BufTy).Contents (Elt F) → (⟨S1x65536x4, .f32⟩ : BufTy).Contents (Elt F)),
    unary main_v14 main_v15 (broadcastInDim S8x65536x4 ![0, 1, 2] bcast_S1x65536x4_S8x65536x4_0_1_2 : (⟨S1x65536x4, .f32⟩ : BufTy).Contents (Elt F) → (⟨S8x65536x4, .f32⟩ : BufTy).Contents (Elt F)),
    binary main_v12 main_v15 main_v16 (Host.divf : (⟨S8x65536x4, .f32⟩ : BufTy).Contents (Elt F) → (⟨S8x65536x4, .f32⟩ : BufTy).Contents (Elt F) → (⟨S8x65536x4, .f32⟩ : BufTy).Contents (Elt F)),
    unary main_v16 main_v17 ((transpose S65536x4x8 [1, 2, 0] · transposes_S8x65536x4_S65536x4x8_1_2_0) : (⟨S8x65536x4, .f32⟩ : BufTy).Contents (Elt F) → (⟨S65536x4x8, .f32⟩ : BufTy).Contents (Elt F)),
    unary main_arg1 main_v18 ((transpose S65536x8x128 [2, 0, 1] · transposes_S8x128x65536_S65536x8x128_2_0_1) : (⟨S8x128x65536, .f32⟩ : BufTy).Contents (Elt F) → (⟨S65536x8x128, .f32⟩ : BufTy).Contents (Elt F)),
    binary main_v17 main_v18 main_v19 ((fun l r => Host.dotGeneral dot_S65536x4x8_S65536x8x128_S65536x4x128_2_1_1_2_0_0 none l r) : (⟨S65536x4x8, .f32⟩ : BufTy).Contents (Elt F) → (⟨S65536x8x128, .f32⟩ : BufTy).Contents (Elt F) → (⟨S65536x4x128, .f32⟩ : BufTy).Contents (Elt F)),
    nullary main_cst_3 (constant S_ .f32 0x00000000#32),
    binary main_v19 main_cst_3 main_v20 ((fun x v => Host.reduceAdd x v reducesTo_S65536x4x128_S65536x128_d1 h_S_) : (⟨S65536x4x128, .f32⟩ : BufTy).Contents (Elt F) → (⟨S_, .f32⟩ : BufTy).Contents (Elt F) → (⟨S65536x128, .f32⟩ : BufTy).Contents (Elt F)),
    nullary main_cst_4 (constant S_ .f32 0x3E800000#32),
    unary main_cst_4 main_v21 (broadcastInDim S65536x128 ![] bcast_S_S65536x128 : (⟨S_, .f32⟩ : BufTy).Contents (Elt F) → (⟨S65536x128, .f32⟩ : BufTy).Contents (Elt F)),
    binary main_v20 main_v21 main_v22 (mulf : (⟨S65536x128, .f32⟩ : BufTy).Contents (Elt F) → (⟨S65536x128, .f32⟩ : BufTy).Contents (Elt F) → (⟨S65536x128, .f32⟩ : BufTy).Contents (Elt F)),
    nullary main_call1_cst (constant S_ .f32 0x00000000#32),
    unary main_call1_cst main_call1_v0 (broadcastInDim S65536x128 ![] bcast_S_S65536x128 : (⟨S_, .f32⟩ : BufTy).Contents (Elt F) → (⟨S65536x128, .f32⟩ : BufTy).Contents (Elt F)),
    binary main_v22 main_call1_v0 main_v23 (maximumf : (⟨S65536x128, .f32⟩ : BufTy).Contents (Elt F) → (⟨S65536x128, .f32⟩ : BufTy).Contents (Elt F) → (⟨S65536x128, .f32⟩ : BufTy).Contents (Elt F)),
    unary main_v23 main_v24 ((transpose S128x65536 [1, 0] · transposes_S65536x128_S128x65536_1_0) : (⟨S65536x128, .f32⟩ : BufTy).Contents (Elt F) → (⟨S128x65536, .f32⟩ : BufTy).Contents (Elt F)),
    reshape main_arg0 main_v25 rfl shapeCasts_S1x128x65536_S128x65536,
    binary main_v24 main_v25 main_v26 (addf : (⟨S128x65536, .f32⟩ : BufTy).Contents (Elt F) → (⟨S128x65536, .f32⟩ : BufTy).Contents (Elt F) → (⟨S128x65536, .f32⟩ : BufTy).Contents (Elt F)),
    unary main_v26 main_v27 ((transpose S65536x128 [1, 0] · transposes_S128x65536_S65536x128_1_0) : (⟨S128x65536, .f32⟩ : BufTy).Contents (Elt F) → (⟨S65536x128, .f32⟩ : BufTy).Contents (Elt F)),
    nullary main_cst_5 (constant S_ .f32 0x00000000#32),
    binary main_v27 main_cst_5 main_v28 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v28 main_v29 (broadcastInDim S65536x1 ![0] bcast_S65536_S65536x1_0 : (⟨S65536, .f32⟩ : BufTy).Contents (Elt F) → (⟨S65536x1, .f32⟩ : BufTy).Contents (Elt F)),
    nullary main_cst_6 (constant S_ .f32 0x43000000#32),
    unary main_cst_6 main_v30 (broadcastInDim S65536x1 ![] bcast_S_S65536x1 : (⟨S_, .f32⟩ : BufTy).Contents (Elt F) → (⟨S65536x1, .f32⟩ : BufTy).Contents (Elt F)),
    binary main_v29 main_v30 main_v31 (Host.divf : (⟨S65536x1, .f32⟩ : BufTy).Contents (Elt F) → (⟨S65536x1, .f32⟩ : BufTy).Contents (Elt F) → (⟨S65536x1, .f32⟩ : BufTy).Contents (Elt F)),
    unary main_v31 main_v32 (broadcastInDim S65536x128 ![0, 1] bcast_S65536x1_S65536x128_0_1 : (⟨S65536x1, .f32⟩ : BufTy).Contents (Elt F) → (⟨S65536x128, .f32⟩ : BufTy).Contents (Elt F)),
    binary main_v27 main_v32 main_v33 (subf : (⟨S65536x128, .f32⟩ : BufTy).Contents (Elt F) → (⟨S65536x128, .f32⟩ : BufTy).Contents (Elt F) → (⟨S65536x128, .f32⟩ : BufTy).Contents (Elt F)),
    binary main_v33 main_v33 main_v34 (mulf : (⟨S65536x128, .f32⟩ : BufTy).Contents (Elt F) → (⟨S65536x128, .f32⟩ : BufTy).Contents (Elt F) → (⟨S65536x128, .f32⟩ : BufTy).Contents (Elt F)),
    nullary main_cst_7 (constant S_ .f32 0x00000000#32),
    binary main_v34 main_cst_7 main_v35 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v35 main_v36 (broadcastInDim S65536x1 ![0] bcast_S65536_S65536x1_0 : (⟨S65536, .f32⟩ : BufTy).Contents (Elt F) → (⟨S65536x1, .f32⟩ : BufTy).Contents (Elt F)),
    nullary main_cst_8 (constant S_ .f32 0x43000000#32),
    unary main_cst_8 main_v37 (broadcastInDim S65536x1 ![] bcast_S_S65536x1 : (⟨S_, .f32⟩ : BufTy).Contents (Elt F) → (⟨S65536x1, .f32⟩ : BufTy).Contents (Elt F)),
    binary main_v36 main_v37 main_v38 (Host.divf : (⟨S65536x1, .f32⟩ : BufTy).Contents (Elt F) → (⟨S65536x1, .f32⟩ : BufTy).Contents (Elt F) → (⟨S65536x1, .f32⟩ : BufTy).Contents (Elt F)),
    unary main_v31 main_v39 (broadcastInDim S65536x128 ![0, 1] bcast_S65536x1_S65536x128_0_1 : (⟨S65536x1, .f32⟩ : BufTy).Contents (Elt F) → (⟨S65536x128, .f32⟩ : BufTy).Contents (Elt F)),
    binary main_v27 main_v39 main_v40 (subf : (⟨S65536x128, .f32⟩ : BufTy).Contents (Elt F) → (⟨S65536x128, .f32⟩ : BufTy).Contents (Elt F) → (⟨S65536x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S65536x128 ![0, 1] bcast_S1x128_S65536x128_0_1 : (⟨S1x128, .f32⟩ : BufTy).Contents (Elt F) → (⟨S65536x128, .f32⟩ : BufTy).Contents (Elt F)),
    binary main_v42 main_v40 main_v43 (mulf : (⟨S65536x128, .f32⟩ : BufTy).Contents (Elt F) → (⟨S65536x128, .f32⟩ : BufTy).Contents (Elt F) → (⟨S65536x128, .f32⟩ : BufTy).Contents (Elt F)),
    nullary main_cst_9 (constant S_ .f32 0x358637BD#32),
    unary main_cst_9 main_v44 (broadcastInDim S65536x1 ![] bcast_S_S65536x1 : (⟨S_, .f32⟩ : BufTy).Contents (Elt F) → (⟨S65536x1, .f32⟩ : BufTy).Contents (Elt F)),
    binary main_v38 main_v44 main_v45 (addf : (⟨S65536x1, .f32⟩ : BufTy).Contents (Elt F) → (⟨S65536x1, .f32⟩ : BufTy).Contents (Elt F) → (⟨S65536x1, .f32⟩ : BufTy).Contents (Elt F)),
    unary main_v45 main_v46 (Host.sqrt : (⟨S65536x1, .f32⟩ : BufTy).Contents (Elt F) → (⟨S65536x1, .f32⟩ : BufTy).Contents (Elt F)),
    unary main_v46 main_v47 (broadcastInDim S65536x128 ![0, 1] bcast_S65536x1_S65536x128_0_1 : (⟨S65536x1, .f32⟩ : BufTy).Contents (Elt F) → (⟨S65536x128, .f32⟩ : BufTy).Contents (Elt F)),
    binary main_v43 main_v47 main_v48 (Host.divf : (⟨S65536x128, .f32⟩ : BufTy).Contents (Elt F) → (⟨S65536x128, .f32⟩ : BufTy).Contents (Elt F) → (⟨S65536x128, .f32⟩ : BufTy).Contents (Elt F)) ]

/-- The second window's 39 operations, in order. -/
abbrev ops1 : List (HloOp τ sig (Elt F)) :=
  [ unary main_arg4 main_v49 (broadcastInDim S1x128 ![1] bcast_S128_S1x128_1 : (⟨S128, .f32⟩ : BufTy).Contents (Elt F) → (⟨S1x128, .f32⟩ : BufTy).Contents (Elt F)),
    unary main_v49 main_v50 (broadcastInDim S65536x128 ![0, 1] bcast_S1x128_S65536x128_0_1 : (⟨S1x128, .f32⟩ : BufTy).Contents (Elt F) → (⟨S65536x128, .f32⟩ : BufTy).Contents (Elt F)),
    binary main_v48 main_v50 main_v51 (addf : (⟨S65536x128, .f32⟩ : BufTy).Contents (Elt F) → (⟨S65536x128, .f32⟩ : BufTy).Contents (Elt F) → (⟨S65536x128, .f32⟩ : BufTy).Contents (Elt F)),
    unary main_v51 main_v52 ((transpose S128x65536 [1, 0] · transposes_S65536x128_S128x65536_1_0) : (⟨S65536x128, .f32⟩ : BufTy).Contents (Elt F) → (⟨S128x65536, .f32⟩ : BufTy).Contents (Elt F)),
    binary main_arg5 main_v52 main_v53 ((fun l r => Host.dotGeneral dot_S128x128_S128x65536_S128x65536_1_0_0_1_n_n none l r) : (⟨S128x128, .f32⟩ : BufTy).Contents (Elt F) → (⟨S128x65536, .f32⟩ : BufTy).Contents (Elt F) → (⟨S128x65536, .f32⟩ : BufTy).Contents (Elt F)),
    unary main_arg6 main_v54 (broadcastInDim S128x65536 ![0, 1] bcast_S128x1_S128x65536_0_1 : (⟨S128x1, .f32⟩ : BufTy).Contents (Elt F) → (⟨S128x65536, .f32⟩ : BufTy).Contents (Elt F)),
    binary main_v53 main_v54 main_v55 (addf : (⟨S128x65536, .f32⟩ : BufTy).Contents (Elt F) → (⟨S128x65536, .f32⟩ : BufTy).Contents (Elt F) → (⟨S128x65536, .f32⟩ : BufTy).Contents (Elt F)),
    binary main_v55 main_v52 main_v56 (addf : (⟨S128x65536, .f32⟩ : BufTy).Contents (Elt F) → (⟨S128x65536, .f32⟩ : BufTy).Contents (Elt F) → (⟨S128x65536, .f32⟩ : BufTy).Contents (Elt F)),
    unary main_v56 main_v57 ((transpose S65536x128 [1, 0] · transposes_S128x65536_S65536x128_1_0) : (⟨S128x65536, .f32⟩ : BufTy).Contents (Elt F) → (⟨S65536x128, .f32⟩ : BufTy).Contents (Elt F)),
    nullary main_cst_10 (constant S_ .f32 0x00000000#32),
    binary main_v57 main_cst_10 main_v58 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v58 main_v59 (broadcastInDim S65536x1 ![0] bcast_S65536_S65536x1_0 : (⟨S65536, .f32⟩ : BufTy).Contents (Elt F) → (⟨S65536x1, .f32⟩ : BufTy).Contents (Elt F)),
    nullary main_cst_11 (constant S_ .f32 0x43000000#32),
    unary main_cst_11 main_v60 (broadcastInDim S65536x1 ![] bcast_S_S65536x1 : (⟨S_, .f32⟩ : BufTy).Contents (Elt F) → (⟨S65536x1, .f32⟩ : BufTy).Contents (Elt F)),
    binary main_v59 main_v60 main_v61 (Host.divf : (⟨S65536x1, .f32⟩ : BufTy).Contents (Elt F) → (⟨S65536x1, .f32⟩ : BufTy).Contents (Elt F) → (⟨S65536x1, .f32⟩ : BufTy).Contents (Elt F)),
    unary main_v61 main_v62 (broadcastInDim S65536x128 ![0, 1] bcast_S65536x1_S65536x128_0_1 : (⟨S65536x1, .f32⟩ : BufTy).Contents (Elt F) → (⟨S65536x128, .f32⟩ : BufTy).Contents (Elt F)),
    binary main_v57 main_v62 main_v63 (subf : (⟨S65536x128, .f32⟩ : BufTy).Contents (Elt F) → (⟨S65536x128, .f32⟩ : BufTy).Contents (Elt F) → (⟨S65536x128, .f32⟩ : BufTy).Contents (Elt F)),
    binary main_v63 main_v63 main_v64 (mulf : (⟨S65536x128, .f32⟩ : BufTy).Contents (Elt F) → (⟨S65536x128, .f32⟩ : BufTy).Contents (Elt F) → (⟨S65536x128, .f32⟩ : BufTy).Contents (Elt F)),
    nullary main_cst_12 (constant S_ .f32 0x00000000#32),
    binary main_v64 main_cst_12 main_v65 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v65 main_v66 (broadcastInDim S65536x1 ![0] bcast_S65536_S65536x1_0 : (⟨S65536, .f32⟩ : BufTy).Contents (Elt F) → (⟨S65536x1, .f32⟩ : BufTy).Contents (Elt F)),
    nullary main_cst_13 (constant S_ .f32 0x43000000#32),
    unary main_cst_13 main_v67 (broadcastInDim S65536x1 ![] bcast_S_S65536x1 : (⟨S_, .f32⟩ : BufTy).Contents (Elt F) → (⟨S65536x1, .f32⟩ : BufTy).Contents (Elt F)),
    binary main_v66 main_v67 main_v68 (Host.divf : (⟨S65536x1, .f32⟩ : BufTy).Contents (Elt F) → (⟨S65536x1, .f32⟩ : BufTy).Contents (Elt F) → (⟨S65536x1, .f32⟩ : BufTy).Contents (Elt F)),
    unary main_v61 main_v69 (broadcastInDim S65536x128 ![0, 1] bcast_S65536x1_S65536x128_0_1 : (⟨S65536x1, .f32⟩ : BufTy).Contents (Elt F) → (⟨S65536x128, .f32⟩ : BufTy).Contents (Elt F)),
    binary main_v57 main_v69 main_v70 (subf : (⟨S65536x128, .f32⟩ : BufTy).Contents (Elt F) → (⟨S65536x128, .f32⟩ : BufTy).Contents (Elt F) → (⟨S65536x128, .f32⟩ : BufTy).Contents (Elt F)),
    unary main_arg7 main_v71 (broadcastInDim S1x128 ![1] bcast_S128_S1x128_1 : (⟨S128, .f32⟩ : BufTy).Contents (Elt F) → (⟨S1x128, .f32⟩ : BufTy).Contents (Elt F)),
    unary main_v71 main_v72 (broadcastInDim S65536x128 ![0, 1] bcast_S1x128_S65536x128_0_1 : (⟨S1x128, .f32⟩ : BufTy).Contents (Elt F) → (⟨S65536x128, .f32⟩ : BufTy).Contents (Elt F)),
    binary main_v72 main_v70 main_v73 (mulf : (⟨S65536x128, .f32⟩ : BufTy).Contents (Elt F) → (⟨S65536x128, .f32⟩ : BufTy).Contents (Elt F) → (⟨S65536x128, .f32⟩ : BufTy).Contents (Elt F)),
    nullary main_cst_14 (constant S_ .f32 0x358637BD#32),
    unary main_cst_14 main_v74 (broadcastInDim S65536x1 ![] bcast_S_S65536x1 : (⟨S_, .f32⟩ : BufTy).Contents (Elt F) → (⟨S65536x1, .f32⟩ : BufTy).Contents (Elt F)),
    binary main_v68 main_v74 main_v75 (addf : (⟨S65536x1, .f32⟩ : BufTy).Contents (Elt F) → (⟨S65536x1, .f32⟩ : BufTy).Contents (Elt F) → (⟨S65536x1, .f32⟩ : BufTy).Contents (Elt F)),
    unary main_v75 main_v76 (Host.sqrt : (⟨S65536x1, .f32⟩ : BufTy).Contents (Elt F) → (⟨S65536x1, .f32⟩ : BufTy).Contents (Elt F)),
    unary main_v76 main_v77 (broadcastInDim S65536x128 ![0, 1] bcast_S65536x1_S65536x128_0_1 : (⟨S65536x1, .f32⟩ : BufTy).Contents (Elt F) → (⟨S65536x128, .f32⟩ : BufTy).Contents (Elt F)),
    binary main_v73 main_v77 main_v78 (Host.divf : (⟨S65536x128, .f32⟩ : BufTy).Contents (Elt F) → (⟨S65536x128, .f32⟩ : BufTy).Contents (Elt F) → (⟨S65536x128, .f32⟩ : BufTy).Contents (Elt F)),
    unary main_arg8 main_v79 (broadcastInDim S1x128 ![1] bcast_S128_S1x128_1 : (⟨S128, .f32⟩ : BufTy).Contents (Elt F) → (⟨S1x128, .f32⟩ : BufTy).Contents (Elt F)),
    unary main_v79 main_v80 (broadcastInDim S65536x128 ![0, 1] bcast_S1x128_S65536x128_0_1 : (⟨S1x128, .f32⟩ : BufTy).Contents (Elt F) → (⟨S65536x128, .f32⟩ : BufTy).Contents (Elt F)),
    binary main_v78 main_v80 main_v81 (addf : (⟨S65536x128, .f32⟩ : BufTy).Contents (Elt F) → (⟨S65536x128, .f32⟩ : BufTy).Contents (Elt F) → (⟨S65536x128, .f32⟩ : BufTy).Contents (Elt F)),
    unary main_v81 main_v82 ((transpose S128x65536 [1, 0] · transposes_S65536x128_S128x65536_1_0) : (⟨S65536x128, .f32⟩ : BufTy).Contents (Elt F) → (⟨S128x65536, .f32⟩ : BufTy).Contents (Elt F)) ]

/-- @main's 107 host operations. -/
abbrev ops : List (HloOp τ sig (Elt F)) := ops0 ++ ops1

set_option maxRecDepth 8192 in
set_option maxHeartbeats 4000000 in
/-- The first window is its line: the outlined bodies unfolded at their calls, sequencing reassociated. -/
theorem main_part0_eq (c : Dev nD) : main_part0 (F := F) c = seq ops0 := by
  simp only [main_part0, fn_leaky_relu.body, fn_where.body, fn_relu.body, bind_assoc, pure_bind]
  rfl

set_option maxRecDepth 8192 in
theorem main_part1_eq (c : Dev nD) : main_part1 (F := F) c = seq ops1 := rfl

theorem main_eq (c : Dev nD) : main (F := F) c = seq ops := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨reshape_bufs_sub .., unary_bufs_sub .., binary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub .., binary_bufs_sub .., nullary_bufs_sub ..,
    unary_bufs_sub .., binary_bufs_sub .., unary_bufs_sub .., unary_bufs_sub .., binary_bufs_sub .., unary_bufs_sub .., nullary_bufs_sub .., binary_bufs_sub ..,
    unary_bufs_sub .., unary_bufs_sub .., binary_bufs_sub .., unary_bufs_sub .., unary_bufs_sub .., binary_bufs_sub .., nullary_bufs_sub .., binary_bufs_sub ..,
    nullary_bufs_sub .., unary_bufs_sub .., binary_bufs_sub .., nullary_bufs_sub .., unary_bufs_sub .., binary_bufs_sub .., unary_bufs_sub .., reshape_bufs_sub ..,
    binary_bufs_sub .., unary_bufs_sub .., nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub .., nullary_bufs_sub .., unary_bufs_sub ..,
    binary_bufs_sub .., unary_bufs_sub .., binary_bufs_sub .., unary_bufs_sub .., unary_bufs_sub .., binary_bufs_sub .., nullary_bufs_sub .., unary_bufs_sub ..,
    binary_bufs_sub .., unary_bufs_sub .., unary_bufs_sub .., binary_bufs_sub ..⟩

set_option maxRecDepth 8192 in
theorem ops1_sub : (ops1 : List (HloOp τ sig (Elt F))).Forall fun op => op.bufs ⊆ tcRefs τ sig :=
  ⟨unary_bufs_sub .., unary_bufs_sub .., binary_bufs_sub .., unary_bufs_sub .., binary_bufs_sub .., unary_bufs_sub .., binary_bufs_sub .., binary_bufs_sub ..,
    unary_bufs_sub .., nullary_bufs_sub .., binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub .., unary_bufs_sub .., binary_bufs_sub ..,
    unary_bufs_sub .., binary_bufs_sub .., unary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub .., unary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- Every weakly fair execution of @main terminates, each buffer ending at the fold of the operations'
    results over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefStages.lean ====
/-
  The reference's program cut into its stages, each a whole-array function: the scores of the concatenated
  columns, the leaky rectifier, the soft-max over the eight paths, the mixing of the keys with the mean over the
  heads and its rectifier, the skip connection with the query, the layer normalisation of the rows (used twice),
  and the dense layer with bias and skip. The program's result is their composition, transposed.
-/
import proofs.«165610_j52828097741217_2_alg».proof.ReferenceIdeal

noncomputable section

namespace Cert.ReferenceIdeal.Hand

open Cert.ReferenceIdeal Idealize.ShloMosaic
open Cert.ReferenceIdeal.Facts₀ Cert.ReferenceIdeal.Facts

variable {F : FTy → Type} [FloatOps F] [Facts]

/-- The scores: the query column repeated over the eight paths and stacked on the keys, against the 256 x 4 matrix. -/
def stScores (a0 : (⟨S1x128x65536, .f32⟩ : BufTy).Contents (Elt F)) (a1 : (⟨S8x128x65536, .f32⟩ : BufTy).Contents (Elt F)) (a2 : (⟨S256x4, .f32⟩ : BufTy).Contents (Elt F)) : (⟨S8x65536x4, .f32⟩ : BufTy).Contents (Elt F) :=
  let v0 : (⟨S128x65536, .f32⟩ : BufTy).Contents (Elt F) := shapeCast S128x65536 a0 shapeCasts_S1x128x65536_S128x65536
  let v1 : (⟨S8x128x65536, .f32⟩ : BufTy).Contents (Elt F) := broadcastInDim S8x128x65536 ![1, 2] bcast_S128x65536_S8x128x65536_1_2 v0
  let v2 : (⟨S8x256x65536, .f32⟩ : BufTy).Contents (Elt F) := concatenate S8x256x65536 1 [⟨S8x128x65536, v1⟩, ⟨S8x128x65536, a1⟩] concatenates_S8x128x65536_S8x128x65536_S8x256x65536_d1
  let v3 : (⟨S8x65536x256, .f32⟩ : BufTy).Contents (Elt F) := transpose S8x65536x256 [0, 2, 1] v2 transposes_S8x256x65536_S8x65536x256_0_2_1
  Host.dotGeneral dot_S8x65536x256_S256x4_S8x65536x4_2_0_01_1_n_n none v3 a2

/-- The leaky rectifier: x where x ≥ 0, the slope times x elsewhere. -/
def stLeaky (v4 : (⟨S8x65536x4, .f32⟩ : BufTy).Contents (Elt F)) : (⟨S8x65536x4, .f32⟩ : BufTy).Contents (Elt F) :=
  let cst : (⟨S_, .f32⟩ : BufTy).Contents (Elt F) := constant S_ .f32 0x3C23D70A#32
  let c0cst : (⟨S_, .f32⟩ : BufTy).Contents (Elt F) := constant S_ .f32 0x00000000#32
  let c0v0 : (⟨S8x65536x4, .f32⟩ : BufTy).Contents (Elt F) := broadcastInDim S8x65536x4 ![] bcast_S_S8x65536x4 c0cst
  let c0v1 : (⟨S8x65536x4, .i1⟩ : BufTy).Contents (Elt F) := cmpf .oge v4 c0v0
  let c0v2 : (⟨S_, .f32⟩ : BufTy).Contents (Elt F) := id cst
  let c0v3 : (⟨S8x65536x4, .f32⟩ : BufTy).Contents (Elt F) := broadcastInDim S8x65536x4 ![] bcast_S_S8x65536x4 c0v2
  let c0v4 : (⟨S8x65536x4, .f32⟩ : BufTy).Contents (Elt F) := mulf c0v3 v4
  select c0v1 v4 c0v4

/-- The soft-max over the eight paths. -/
def stSoftmax (v5 : (⟨S8x65536x4, .f32⟩ : BufTy).Contents (Elt F)) : (⟨S8x65536x4, .f32⟩ : BufTy).Contents (Elt F) :=
  let cst_0 : (⟨S_, .f32⟩ : BufTy).Contents (Elt F) := constant S_ .f32 0xFF800000#32
  let v6 : (⟨S65536x4, .f32⟩ : BufTy).Contents (Elt F) := Host.reduce FloatOps.maximumf v5 cst_0 reducesTo_S8x65536x4_S65536x4_d0 h_S_
  let cst_1 : (⟨S_, .f32⟩ : BufTy).Contents (Elt F) := constant S_ .f32 0xFF800000#32
  let v7 : (⟨S65536x4, .f32⟩ : BufTy).Contents (Elt F) := broadcastInDim S65536x4 ![] bcast_S_S65536x4 cst_1
  let v8 : (⟨S65536x4, .f32⟩ : BufTy).Contents (Elt F) := maximumf v7 v6
  let v9 : (⟨S1x65536x4, .f32⟩ : BufTy).Contents (Elt F) := broadcastInDim S1x65536x4 ![1, 2] bcast_S65536x4_S1x65536x4_1_2 v8
  let v10 : (⟨S8x65536x4, .f32⟩ : BufTy).Contents (Elt F) := broadcastInDim S8x65536x4 ![0, 1, 2] bcast_S1x65536x4_S8x65536x4_0_1_2 v9
  let v11 : (⟨S8x65536x4, .f32⟩ : BufTy).Contents (Elt F) := subf v5 v10
  let v12 : (⟨S8x65536x4, .f32⟩ : BufTy).Contents (Elt F) := Host.exp v11
  let cst_2 : (⟨S_, .f32⟩ : BufTy).Contents (Elt F) := constant S_ .f32 0x00000000#32
  let v13 : (⟨S65536x4, .f32⟩ : BufTy).Contents (Elt F) := Host.reduceAdd v12 cst_2 reducesTo_S8x65536x4_S65536x4_d0 h_S_
  let v14 : (⟨S1x65536x4, .f32⟩ : BufTy).Contents (Elt F) := broadcastInDim S1x65536x4 ![1, 2] bcast_S65536x4_S1x65536x4_1_2 v13
  let v15 : (⟨S8x65536x4, .f32⟩ : BufTy).Contents (Elt F) := broadcastInDim S8x65536x4 ![0, 1, 2] bcast_S1x65536x4_S8x65536x4_0_1_2 v14
  Host.divf v12 v15

/-- The keys mixed by the weights per head, the heads' mean, and its rectifier. -/
def stMix (v16 : (⟨S8x65536x4, .f32⟩ : BufTy).Contents (Elt F)) (a1 : (⟨S8x128x65536, .f32⟩ : BufTy).Contents (Elt F)) : (⟨S65536x128, .f32⟩ : BufTy).Contents (Elt F) :=
  let v17 : (⟨S65536x4x8, .f32⟩ : BufTy).Contents (Elt F) := transpose S65536x4x8 [1, 2, 0] v16 transposes_S8x65536x4_S65536x4x8_1_2_0
  let v18 : (⟨S65536x8x128, .f32⟩ : BufTy).Contents (Elt F) := transpose S65536x8x128 [2, 0, 1] a1 transposes_S8x128x65536_S65536x8x128_2_0_1
  let v19 : (⟨S65536x4x128, .f32⟩ : BufTy).Contents (Elt F) := Host.dotGeneral dot_S65536x4x8_S65536x8x128_S65536x4x128_2_1_1_2_0_0 none v17 v18
  let cst_3 : (⟨S_, .f32⟩ : BufTy).Contents (Elt F) := constant S_ .f32 0x00000000#32
  let v20 : (⟨S65536x128, .f32⟩ : BufTy).Contents (Elt F) := Host.reduceAdd v19 cst_3 reducesTo_S65536x4x128_S65536x128_d1 h_S_
  let cst_4 : (⟨S_, .f32⟩ : BufTy).Contents (Elt F) := constant S_ .f32 0x3E800000#32
  let v21 : (⟨S65536x128, .f32⟩ : BufTy).Contents (Elt F) := broadcastInDim S65536x128 ![] bcast_S_S65536x128 cst_4
  let v22 : (⟨S65536x128, .f32⟩ : BufTy).Contents (Elt F) := mulf v20 v21
  let c1cst : (⟨S_, .f32⟩ : BufTy).Contents (Elt F) := constant S_ .f32 0x00000000#32
  let c1v0 : (⟨S65536x128, .f32⟩ : BufTy).Contents (Elt F) := broadcastInDim S65536x128 ![] bcast_S_S65536x128 c1cst
  maximumf v22 c1v0

/-- The skip connection with the query, as rows. -/
def stResid (v23 : (⟨S65536x128, .f32⟩ : BufTy).Contents (Elt F)) (a0 : (⟨S1x128x65536, .f32⟩ : BufTy).Contents (Elt F)) : (⟨S65536x128, .f32⟩ : BufTy).Contents (Elt F) :=
  let v24 : (⟨S128x65536, .f32⟩ : BufTy).Contents (Elt F) := transpose S128x65536 [1, 0] v23 transposes_S65536x128_S128x65536_1_0
  let v25 : (⟨S128x65536, .f32⟩ : BufTy).Contents (Elt F) := shapeCast S128x65536 a0 shapeCasts_S1x128x65536_S128x65536
  let v26 : (⟨S128x65536, .f32⟩ : BufTy).Contents (Elt F) := addf v24 v25
  transpose S65536x128 [1, 0] v26 transposes_S128x65536_S65536x128_1_0

/-- Layer normalisation of each row of 128 entries with gain g and offset β. -/
def stNorm (v27 : (⟨S65536x128, .f32⟩ : BufTy).Contents (Elt F)) (a3 a4 : (⟨S128, .f32⟩ : BufTy).Contents (Elt F)) : (⟨S65536x128, .f32⟩ : BufTy).Contents (Elt F) :=
  let cst_5 : (⟨S_, .f32⟩ : BufTy).Contents (Elt F) := constant S_ .f32 0x00000000#32
  let v28 : (⟨S65536, .f32⟩ : BufTy).Contents (Elt F) := Host.reduceAdd v27 cst_5 reducesTo_S65536x128_S65536_d1 h_S_
  let v29 : (⟨S65536x1, .f32⟩ : BufTy).Contents (Elt F) := broadcastInDim S65536x1 ![0] bcast_S65536_S65536x1_0 v28
  let cst_6 : (⟨S_, .f32⟩ : BufTy).Contents (Elt F) := constant S_ .f32 0x43000000#32
  let v30 : (⟨S65536x1, .f32⟩ : BufTy).Contents (Elt F) := broadcastInDim S65536x1 ![] bcast_S_S65536x1 cst_6
  let v31 : (⟨S65536x1, .f32⟩ : BufTy).Contents (Elt F) := Host.divf v29 v30
  let v32 : (⟨S65536x128, .f32⟩ : BufTy).Contents (Elt F) := broadcastInDim S65536x128 ![0, 1] bcast_S65536x1_S65536x128_0_1 v31
  let v33 : (⟨S65536x128, .f32⟩ : BufTy).Contents (Elt F) := subf v27 v32
  let v34 : (⟨S65536x128, .f32⟩ : BufTy).Contents (Elt F) := mulf v33 v33
  let cst_7 : (⟨S_, .f32⟩ : BufTy).Contents (Elt F) := constant S_ .f32 0x00000000#32
  let v35 : (⟨S65536, .f32⟩ : BufTy).Contents (Elt F) := Host.reduceAdd v34 cst_7 reducesTo_S65536x128_S65536_d1 h_S_
  let v36 : (⟨S65536x1, .f32⟩ : BufTy).Contents (Elt F) := broadcastInDim S65536x1 ![0] bcast_S65536_S65536x1_0 v35
  let cst_8 : (⟨S_, .f32⟩ : BufTy).Contents (Elt F) := constant S_ .f32 0x43000000#32
  let v37 : (⟨S65536x1, .f32⟩ : BufTy).Contents (Elt F) := broadcastInDim S65536x1 ![] bcast_S_S65536x1 cst_8
  let v38 : (⟨S65536x1, .f32⟩ : BufTy).Contents (Elt F) := Host.divf v36 v37
  let v39 : (⟨S65536x128, .f32⟩ : BufTy).Contents (Elt F) := broadcastInDim S65536x128 ![0, 1] bcast_S65536x1_S65536x128_0_1 v31
  let v40 : (⟨S65536x128, .f32⟩ : BufTy).Contents (Elt F) := subf v27 v39
  let v41 : (⟨S1x128, .f32⟩ : BufTy).Contents (Elt F) := broadcastInDim S1x128 ![1] bcast_S128_S1x128_1 a3
  let v42 : (⟨S65536x128, .f32⟩ : BufTy).Contents (Elt F) := broadcastInDim S65536x128 ![0, 1] bcast_S1x128_S65536x128_0_1 v41
  let v43 : (⟨S65536x128, .f32⟩ : BufTy).Contents (Elt F) := mulf v42 v40
  let cst_9 : (⟨S_, .f32⟩ : BufTy).Contents (Elt F) := constant S_ .f32 0x358637BD#32
  let v44 : (⟨S65536x1, .f32⟩ : BufTy).Contents (Elt F) := broadcastInDim S65536x1 ![] bcast_S_S65536x1 cst_9
  let v45 : (⟨S65536x1, .f32⟩ : BufTy).Contents (Elt F) := addf v38 v44
  let v46 : (⟨S65536x1, .f32⟩ : BufTy).Contents (Elt F) := Host.sqrt v45
  let v47 : (⟨S65536x128, .f32⟩ : BufTy).Contents (Elt F) := broadcastInDim S65536x128 ![0, 1] bcast_S65536x1_S65536x128_0_1 v46
  let v48 : (⟨S65536x128, .f32⟩ : BufTy).Contents (Elt F) := Host.divf v43 v47
  let v49 : (⟨S1x128, .f32⟩ : BufTy).Contents (Elt F) := broadcastInDim S1x128 ![1] bcast_S128_S1x128_1 a4
  let v50 : (⟨S65536x128, .f32⟩ : BufTy).Contents (Elt F) := broadcastInDim S65536x128 ![0, 1] bcast_S1x128_S65536x128_0_1 v49
  addf v48 v50

/-- The dense layer on the transposed rows, with its bias column and the skip, back as rows. -/
def stPost (a5 : (⟨S128x128, .f32⟩ : BufTy).Contents (Elt F)) (a6 : (⟨S128x1, .f32⟩ : BufTy).Contents (Elt F)) (v51 : (⟨S65536x128, .f32⟩ : BufTy).Contents (Elt F)) : (⟨S65536x128, .f32⟩ : BufTy).Contents (Elt F) :=
  let v52 : (⟨S128x65536, .f32⟩ : BufTy).Contents (Elt F) := transpose S128x65536 [1, 0] v51 transposes_S65536x128_S128x65536_1_0
  let v53 : (⟨S128x65536, .f32⟩ : BufTy).Contents (Elt F) := Host.dotGeneral dot_S128x128_S128x65536_S128x65536_1_0_0_1_n_n none a5 v52
  let v54 : (⟨S128x65536, .f32⟩ : BufTy).Contents (Elt F) := broadcastInDim S128x65536 ![0, 1] bcast_S128x1_S128x65536_0_1 a6
  let v55 : (⟨S128x65536, .f32⟩ : BufTy).Contents (Elt F) := addf v53 v54
  let v56 : (⟨S128x65536, .f32⟩ : BufTy).Contents (Elt F) := addf v55 v52
  transpose S65536x128 [1, 0] v56 transposes_S128x65536_S65536x128_1_0

/-- The program's result: the stages composed, and the rows transposed back to columns. -/
def refValS (a0 : (⟨S1x128x65536, .f32⟩ : BufTy).Contents (Elt F)) (a1 : (⟨S8x128x65536, .f32⟩ : BufTy).Contents (Elt F)) (a2 : (⟨S256x4, .f32⟩ : BufTy).Contents (Elt F)) (a3 a4 : (⟨S128, .f32⟩ : BufTy).Contents (Elt F))
    (a5 : (⟨S128x128, .f32⟩ : BufTy).Contents (Elt F)) (a6 : (⟨S128x1, .f32⟩ : BufTy).Contents (Elt F)) (a7 a8 : (⟨S128, .f32⟩ : BufTy).Contents (Elt F)) : (⟨S128x65536, .f32⟩ : BufTy).Contents (Elt F) :=
  transpose S128x65536 [1, 0]
    (stNorm (stPost a5 a6 (stNorm (stResid (stMix (stSoftmax (stLeaky (stScores a0 a1 a2))) a1) a0) a3 a4)) a7 a8)
    transposes_S65536x128_S128x65536_1_0

end Cert.ReferenceIdeal.Hand

end
-- ==== Proof.RefRunB.lean ====
import proofs.«165610_j52828097741217_2_alg».proof.Proof.RefRunA
import proofs.«165610_j52828097741217_2_alg».proof.Proof.RefStages
import proofs.«165610_j52828097741217_2_alg».proof.Defs
import Idealize.ShloMosaic.Lib.Pipeline.Frame

/-!
The reference program's run read back. Its line of host operations is cut where the stage functions
are cut; through each piece the result buffer of the piece ends at the stage's function of what the
piece read, and a buffer the piece does not write keeps its contents. Composed: @main leaves in its
result buffer the stages' composition of the nine arguments' launch contents, the arguments unchanged.
-/

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- One step of a piece's write list: the operation's result buffer is in the list. -/
local macro "writes_mem" : tactic =>
  `(tactic| (simp only [nullary_writes, unary_writes, binary_writes, ternary_writes, reshape_writes,
      Finset.singleton_subset_iff, List.mem_toFinset]; exact List.mem_map_of_mem (by decide)))

/-- Piece 1 of the line: the scores. -/
abbrev S1 : List (HloOp τ sig (Elt F)) :=
  [ reshape main_arg0 main_v0 rfl shapeCasts_S1x128x65536_S128x65536,
    unary main_v0 main_v1 (broadcastInDim S8x128x65536 ![1, 2] bcast_S128x65536_S8x128x65536_1_2 : (⟨S128x65536, .f32⟩ : BufTy).Contents (Elt F) → (⟨S8x128x65536, .f32⟩ : BufTy).Contents (Elt F)),
    binary main_v1 main_arg1 main_v2 ((fun a b => concatenate S8x256x65536 1 [⟨S8x128x65536, a⟩, ⟨S8x128x65536, b⟩] concatenates_S8x128x65536_S8x128x65536_S8x256x65536_d1) : (⟨S8x128x65536, .f32⟩ : BufTy).Contents (Elt F) → (⟨S8x128x65536, .f32⟩ : BufTy).Contents (Elt F) → (⟨S8x256x65536, .f32⟩ : BufTy).Contents (Elt F)),
    unary main_v2 main_v3 ((transpose S8x65536x256 [0, 2, 1] · transposes_S8x256x65536_S8x65536x256_0_2_1) : (⟨S8x256x65536, .f32⟩ : BufTy).Contents (Elt F) → (⟨S8x65536x256, .f32⟩ : BufTy).Contents (Elt F)),
    binary main_v3 main_arg2 main_v4 ((fun l r => Host.dotGeneral dot_S8x65536x256_S256x4_S8x65536x4_2_0_01_1_n_n none l r) : (⟨S8x65536x256, .f32⟩ : BufTy).Contents (Elt F) → (⟨S256x4, .f32⟩ : BufTy).Contents (Elt F) → (⟨S8x65536x4, .f32⟩ : BufTy).Contents (Elt F)) ]
/-- The buffers piece 1 writes. -/
abbrev W1 : List (Ref sig .tc) := [main_v0, main_v1, main_v2, main_v3, main_v4]
set_option maxRecDepth 8192 in
theorem S1_writes : (S1 : List (HloOp τ sig (Elt F))).Forall fun op => op.writes ⊆ (W1.map (Proc.devRef (τ := τ) .tc)).toFinset := by
  simp only [List.Forall]
  exact ⟨by writes_mem, by writes_mem, by writes_mem, by writes_mem, by writes_mem⟩
/-- A buffer piece 1 does not write keeps its contents through it. -/
theorem S1_keep (V : Valuation τ sig (Elt F)) (r : Ref sig .tc) (h : r ∉ W1) :
    after S1 V (Proc.devRef .tc r) = V (Proc.devRef .tc r) :=
  after_of_writes_sub S1 V S1_writes h
set_option maxRecDepth 8192 in
set_option maxHeartbeats 2000000 in
/-- Piece 1 leaves the scores of what it read. -/
theorem S1_out (V : Valuation τ sig (Elt F)) :
    after S1 V (Proc.devRef .tc main_v4) = stScores (V (Proc.devRef .tc main_arg0)) (V (Proc.devRef .tc main_arg1)) (V (Proc.devRef .tc main_arg2)) := by
  unfold S1
  after_results_simp
  rfl

/-- Piece 2 of the line: the leaky rectifier. -/
abbrev S2 : List (HloOp τ sig (Elt F)) :=
  [ nullary main_cst (constant S_ .f32 0x3C23D70A#32),
    nullary main_call0_cst (constant S_ .f32 0x00000000#32),
    unary main_call0_cst main_call0_v0 (broadcastInDim S8x65536x4 ![] bcast_S_S8x65536x4 : (⟨S_, .f32⟩ : BufTy).Contents (Elt F) → (⟨S8x65536x4, .f32⟩ : BufTy).Contents (Elt F)),
    binary main_v4 main_call0_v0 main_call0_v1 (cmpf .oge : (⟨S8x65536x4, .f32⟩ : BufTy).Contents (Elt F) → (⟨S8x65536x4, .f32⟩ : BufTy).Contents (Elt F) → (⟨S8x65536x4, .i1⟩ : BufTy).Contents (Elt F)),
    unary main_cst main_call0_v2 (id : (⟨S_, .f32⟩ : BufTy).Contents (Elt F) → (⟨S_, .f32⟩ : BufTy).Contents (Elt F)),
    unary main_call0_v2 main_call0_v3 (broadcastInDim S8x65536x4 ![] bcast_S_S8x65536x4 : (⟨S_, .f32⟩ : BufTy).Contents (Elt F) → (⟨S8x65536x4, .f32⟩ : BufTy).Contents (Elt F)),
    binary main_call0_v3 main_v4 main_call0_v4 (mulf : (⟨S8x65536x4, .f32⟩ : BufTy).Contents (Elt F) → (⟨S8x65536x4, .f32⟩ : BufTy).Contents (Elt F) → (⟨S8x65536x4, .f32⟩ : BufTy).Contents (Elt F)),
    ternary main_call0_v1 main_v4 main_call0_v4 main_v5 (select : (⟨S8x65536x4, .i1⟩ : BufTy).Contents (Elt F) → (⟨S8x65536x4, .f32⟩ : BufTy).Contents (Elt F) → (⟨S8x65536x4, .f32⟩ : BufTy).Contents (Elt F) → (⟨S8x65536x4, .f32⟩ : BufTy).Contents (Elt F)) ]
/-- The buffers piece 2 writes. -/
abbrev W2 : List (Ref sig .tc) := [main_cst, main_call0_cst, main_call0_v0, main_call0_v1, main_call0_v2, main_call0_v3, main_call0_v4, main_v5]
set_option maxRecDepth 8192 in
theorem S2_writes : (S2 : List (HloOp τ sig (Elt F))).Forall fun op => op.writes ⊆ (W2.map (Proc.devRef (τ := τ) .tc)).toFinset := by
  simp only [List.Forall]
  exact ⟨by writes_mem, by writes_mem, by writes_mem, by writes_mem, by writes_mem, by writes_mem, by writes_mem, by writes_mem⟩
/-- A buffer piece 2 does not write keeps its contents through it. -/
theorem S2_keep (V : Valuation τ sig (Elt F)) (r : Ref sig .tc) (h : r ∉ W2) :
    after S2 V (Proc.devRef .tc r) = V (Proc.devRef .tc r) :=
  after_of_writes_sub S2 V S2_writes h
set_option maxRecDepth 8192 in
set_option maxHeartbeats 2000000 in
/-- Piece 2 leaves the leaky rectifier of what it read. -/
theorem S2_out (V : Valuation τ sig (Elt F)) :
    after S2 V (Proc.devRef .tc main_v5) = stLeaky (V (Proc.devRef .tc main_v4)) := by
  unfold S2
  after_results_simp
  rfl

/-- Piece 3 of the line: the soft-max over the eight paths. -/
abbrev S3 : List (HloOp τ sig (Elt F)) :=
  [ nullary main_cst_0 (constant S_ .f32 0xFF800000#32),
    binary main_v5 main_cst_0 main_v6 ((fun x v => Host.reduce FloatOps.maximumf x v reducesTo_S8x65536x4_S65536x4_d0 h_S_) : (⟨S8x65536x4, .f32⟩ : BufTy).Contents (Elt F) → (⟨S_, .f32⟩ : BufTy).Contents (Elt F) → (⟨S65536x4, .f32⟩ : BufTy).Contents (Elt F)),
    nullary main_cst_1 (constant S_ .f32 0xFF800000#32),
    unary main_cst_1 main_v7 (broadcastInDim S65536x4 ![] bcast_S_S65536x4 : (⟨S_, .f32⟩ : BufTy).Contents (Elt F) → (⟨S65536x4, .f32⟩ : BufTy).Contents (Elt F)),
    binary main_v7 main_v6 main_v8 (maximumf : (⟨S65536x4, .f32⟩ : BufTy).Contents (Elt F) → (⟨S65536x4, .f32⟩ : BufTy).Contents (Elt F) → (⟨S65536x4, .f32⟩ : BufTy).Contents (Elt F)),
    unary main_v8 main_v9 (broadcastInDim S1x65536x4 ![1, 2] bcast_S65536x4_S1x65536x4_1_2 : (⟨S65536x4, .f32⟩ : BufTy).Contents (Elt F) → (⟨S1x65536x4, .f32⟩ : BufTy).Contents (Elt F)),
    unary main_v9 main_v10 (broadcastInDim S8x65536x4 ![0, 1, 2] bcast_S1x65536x4_S8x65536x4_0_1_2 : (⟨S1x65536x4, .f32⟩ : BufTy).Contents (Elt F) → (⟨S8x65536x4, .f32⟩ : BufTy).Contents (Elt F)),
    binary main_v5 main_v10 main_v11 (subf : (⟨S8x65536x4, .f32⟩ : BufTy).Contents (Elt F) → (⟨S8x65536x4, .f32⟩ : BufTy).Contents (Elt F) → (⟨S8x65536x4, .f32⟩ : BufTy).Contents (Elt F)),
    unary main_v11 main_v12 (Host.exp : (⟨S8x65536x4, .f32⟩ : BufTy).Contents (Elt F) → (⟨S8x65536x4, .f32⟩ : BufTy).Contents (Elt F)),
    nullary main_cst_2 (constant S_ .f32 0x00000000#32),
    binary main_v12 main_cst_2 main_v13 ((fun x v => Host.reduceAdd x v reducesTo_S8x65536x4_S65536x4_d0 h_S_) : (⟨S8x65536x4, .f32⟩ : BufTy).Contents (Elt F) → (⟨S_, .f32⟩ : BufTy).Contents (Elt F) → (⟨S65536x4, .f32⟩ : BufTy).Contents (Elt F)),
    unary main_v13 main_v14 (broadcastInDim S1x65536x4 ![1, 2] bcast_S65536x4_S1x65536x4_1_2 : (⟨S65536x4, .f32⟩ : BufTy).Contents (Elt F) → (⟨S1x65536x4, .f32⟩ : BufTy).Contents (Elt F)),
    unary main_v14 main_v15 (broadcastInDim S8x65536x4 ![0, 1, 2] bcast_S1x65536x4_S8x65536x4_0_1_2 : (⟨S1x65536x4, .f32⟩ : BufTy).Contents (Elt F) → (⟨S8x65536x4, .f32⟩ : BufTy).Contents (Elt F)),
    binary main_v12 main_v15 main_v16 (Host.divf : (⟨S8x65536x4, .f32⟩ : BufTy).Contents (Elt F) → (⟨S8x65536x4, .f32⟩ : BufTy).Contents (Elt F) → (⟨S8x65536x4, .f32⟩ : BufTy).Contents (Elt F)) ]
/-- The buffers piece 3 writes. -/
abbrev W3 : List (Ref sig .tc) := [main_cst_0, main_v6, main_cst_1, main_v7, main_v8, main_v9, main_v10, main_v11, main_v12, main_cst_2, main_v13, main_v14, main_v15, main_v16]
set_option maxRecDepth 8192 in
theorem S3_writes : (S3 : List (HloOp τ sig (Elt F))).Forall fun op => op.writes ⊆ (W3.map (Proc.devRef (τ := τ) .tc)).toFinset := by
  simp only [List.Forall]
  exact ⟨by writes_mem, by writes_mem, by writes_mem, by writes_mem, by writes_mem, by writes_mem, by writes_mem, by writes_mem, by writes_mem, by writes_mem,
    by writes_mem, by writes_mem, by writes_mem, by writes_mem⟩
/-- A buffer piece 3 does not write keeps its contents through it. -/
theorem S3_keep (V : Valuation τ sig (Elt F)) (r : Ref sig .tc) (h : r ∉ W3) :
    after S3 V (Proc.devRef .tc r) = V (Proc.devRef .tc r) :=
  after_of_writes_sub S3 V S3_writes h
set_option maxRecDepth 8192 in
set_option maxHeartbeats 2000000 in
/-- Piece 3 leaves the soft-max over the eight paths of what it read. -/
theorem S3_out (V : Valuation τ sig (Elt F)) :
    after S3 V (Proc.devRef .tc main_v16) = stSoftmax (V (Proc.devRef .tc main_v5)) := by
  unfold S3
  after_results_simp
  rfl

/-- Piece 4 of the line: the mixing of the keys, the heads' mean and its rectifier. -/
abbrev S4 : List (HloOp τ sig (Elt F)) :=
  [ unary main_v16 main_v17 ((transpose S65536x4x8 [1, 2, 0] · transposes_S8x65536x4_S65536x4x8_1_2_0) : (⟨S8x65536x4, .f32⟩ : BufTy).Contents (Elt F) → (⟨S65536x4x8, .f32⟩ : BufTy).Contents (Elt F)),
    unary main_arg1 main_v18 ((transpose S65536x8x128 [2, 0, 1] · transposes_S8x128x65536_S65536x8x128_2_0_1) : (⟨S8x128x65536, .f32⟩ : BufTy).Contents (Elt F) → (⟨S65536x8x128, .f32⟩ : BufTy).Contents (Elt F)),
    binary main_v17 main_v18 main_v19 ((fun l r => Host.dotGeneral dot_S65536x4x8_S65536x8x128_S65536x4x128_2_1_1_2_0_0 none l r) : (⟨S65536x4x8, .f32⟩ : BufTy).Contents (Elt F) → (⟨S65536x8x128, .f32⟩ : BufTy).Contents (Elt F) → (⟨S65536x4x128, .f32⟩ : BufTy).Contents (Elt F)),
    nullary main_cst_3 (constant S_ .f32 0x00000000#32),
    binary main_v19 main_cst_3 main_v20 ((fun x v => Host.reduceAdd x v reducesTo_S65536x4x128_S65536x128_d1 h_S_) : (⟨S65536x4x128, .f32⟩ : BufTy).Contents (Elt F) → (⟨S_, .f32⟩ : BufTy).Contents (Elt F) → (⟨S65536x128, .f32⟩ : BufTy).Contents (Elt F)),
    nullary main_cst_4 (constant S_ .f32 0x3E800000#32),
    unary main_cst_4 main_v21 (broadcastInDim S65536x128 ![] bcast_S_S65536x128 : (⟨S_, .f32⟩ : BufTy).Contents (Elt F) → (⟨S65536x128, .f32⟩ : BufTy).Contents (Elt F)),
    binary main_v20 main_v21 main_v22 (mulf : (⟨S65536x128, .f32⟩ : BufTy).Contents (Elt F) → (⟨S65536x128, .f32⟩ : BufTy).Contents (Elt F) → (⟨S65536x128, .f32⟩ : BufTy).Contents (Elt F)),
    nullary main_call1_cst (constant S_ .f32 0x00000000#32),
    unary main_call1_cst main_call1_v0 (broadcastInDim S65536x128 ![] bcast_S_S65536x128 : (⟨S_, .f32⟩ : BufTy).Contents (Elt F) → (⟨S65536x128, .f32⟩ : BufTy).Contents (Elt F)),
    binary main_v22 main_call1_v0 main_v23 (maximumf : (⟨S65536x128, .f32⟩ : BufTy).Contents (Elt F) → (⟨S65536x128, .f32⟩ : BufTy).Contents (Elt F) → (⟨S65536x128, .f32⟩ : BufTy).Contents (Elt F)) ]
/-- The buffers piece 4 writes. -/
abbrev W4 : List (Ref sig .tc) := [main_v17, main_v18, main_v19, main_cst_3, main_v20, main_cst_4, main_v21, main_v22, main_call1_cst, main_call1_v0, main_v23]
set_option maxRecDepth 8192 in
theorem S4_writes : (S4 : List (HloOp τ sig (Elt F))).Forall fun op => op.writes ⊆ (W4.map (Proc.devRef (τ := τ) .tc)).toFinset := by
  simp only [List.Forall]
  exact ⟨by writes_mem, by writes_mem, by writes_mem, by writes_mem, by writes_mem, by writes_mem, by writes_mem, by writes_mem, by writes_mem, by writes_mem,
    by writes_mem⟩
/-- A buffer piece 4 does not write keeps its contents through it. -/
theorem S4_keep (V : Valuation τ sig (Elt F)) (r : Ref sig .tc) (h : r ∉ W4) :
    after S4 V (Proc.devRef .tc r) = V (Proc.devRef .tc r) :=
  after_of_writes_sub S4 V S4_writes h
set_option maxRecDepth 8192 in
set_option maxHeartbeats 2000000 in
/-- Piece 4 leaves the mixing of the keys, the heads' mean and its rectifier of what it read. -/
theorem S4_out (V : Valuation τ sig (Elt F)) :
    after S4 V (Proc.devRef .tc main_v23) = stMix (V (Proc.devRef .tc main_v16)) (V (Proc.devRef .tc main_arg1)) := by
  unfold S4
  after_results_simp
  rfl

/-- Piece 5 of the line: the skip connection with the query. -/
abbrev S5 : List (HloOp τ sig (Elt F)) :=
  [ unary main_v23 main_v24 ((transpose S128x65536 [1, 0] · transposes_S65536x128_S128x65536_1_0) : (⟨S65536x128, .f32⟩ : BufTy).Contents (Elt F) → (⟨S128x65536, .f32⟩ : BufTy).Contents (Elt F)),
    reshape main_arg0 main_v25 rfl shapeCasts_S1x128x65536_S128x65536,
    binary main_v24 main_v25 main_v26 (addf : (⟨S128x65536, .f32⟩ : BufTy).Contents (Elt F) → (⟨S128x65536, .f32⟩ : BufTy).Contents (Elt F) → (⟨S128x65536, .f32⟩ : BufTy).Contents (Elt F)),
    unary main_v26 main_v27 ((transpose S65536x128 [1, 0] · transposes_S128x65536_S65536x128_1_0) : (⟨S128x65536, .f32⟩ : BufTy).Contents (Elt F) → (⟨S65536x128, .f32⟩ : BufTy).Contents (Elt F)) ]
/-- The buffers piece 5 writes. -/
abbrev W5 : List (Ref sig .tc) := [main_v24, main_v25, main_v26, main_v27]
set_option maxRecDepth 8192 in
theorem S5_writes : (S5 : List (HloOp τ sig (Elt F))).Forall fun op => op.writes ⊆ (W5.map (Proc.devRef (τ := τ) .tc)).toFinset := by
  simp only [List.Forall]
  exact ⟨by writes_mem, by writes_mem, by writes_mem, by writes_mem⟩
/-- A buffer piece 5 does not write keeps its contents through it. -/
theorem S5_keep (V : Valuation τ sig (Elt F)) (r : Ref sig .tc) (h : r ∉ W5) :
    after S5 V (Proc.devRef .tc r) = V (Proc.devRef .tc r) :=
  after_of_writes_sub S5 V S5_writes h
set_option maxRecDepth 8192 in
set_option maxHeartbeats 2000000 in
/-- Piece 5 leaves the skip connection with the query of what it read. -/
theorem S5_out (V : Valuation τ sig (Elt F)) :
    after S5 V (Proc.devRef .tc main_v27) = stResid (V (Proc.devRef .tc main_v23)) (V (Proc.devRef .tc main_arg0)) := by
  unfold S5
  after_results_simp
  rfl

/-- Piece 6 of the line: the first layer normalisation. -/
abbrev S6 : List (HloOp τ sig (Elt F)) :=
  [ nullary main_cst_5 (constant S_ .f32 0x00000000#32),
    binary main_v27 main_cst_5 main_v28 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v28 main_v29 (broadcastInDim S65536x1 ![0] bcast_S65536_S65536x1_0 : (⟨S65536, .f32⟩ : BufTy).Contents (Elt F) → (⟨S65536x1, .f32⟩ : BufTy).Contents (Elt F)),
    nullary main_cst_6 (constant S_ .f32 0x43000000#32),
    unary main_cst_6 main_v30 (broadcastInDim S65536x1 ![] bcast_S_S65536x1 : (⟨S_, .f32⟩ : BufTy).Contents (Elt F) → (⟨S65536x1, .f32⟩ : BufTy).Contents (Elt F)),
    binary main_v29 main_v30 main_v31 (Host.divf : (⟨S65536x1, .f32⟩ : BufTy).Contents (Elt F) → (⟨S65536x1, .f32⟩ : BufTy).Contents (Elt F) → (⟨S65536x1, .f32⟩ : BufTy).Contents (Elt F)),
    unary main_v31 main_v32 (broadcastInDim S65536x128 ![0, 1] bcast_S65536x1_S65536x128_0_1 : (⟨S65536x1, .f32⟩ : BufTy).Contents (Elt F) → (⟨S65536x128, .f32⟩ : BufTy).Contents (Elt F)),
    binary main_v27 main_v32 main_v33 (subf : (⟨S65536x128, .f32⟩ : BufTy).Contents (Elt F) → (⟨S65536x128, .f32⟩ : BufTy).Contents (Elt F) → (⟨S65536x128, .f32⟩ : BufTy).Contents (Elt F)),
    binary main_v33 main_v33 main_v34 (mulf : (⟨S65536x128, .f32⟩ : BufTy).Contents (Elt F) → (⟨S65536x128, .f32⟩ : BufTy).Contents (Elt F) → (⟨S65536x128, .f32⟩ : BufTy).Contents (Elt F)),
    nullary main_cst_7 (constant S_ .f32 0x00000000#32),
    binary main_v34 main_cst_7 main_v35 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v35 main_v36 (broadcastInDim S65536x1 ![0] bcast_S65536_S65536x1_0 : (⟨S65536, .f32⟩ : BufTy).Contents (Elt F) → (⟨S65536x1, .f32⟩ : BufTy).Contents (Elt F)),
    nullary main_cst_8 (constant S_ .f32 0x43000000#32),
    unary main_cst_8 main_v37 (broadcastInDim S65536x1 ![] bcast_S_S65536x1 : (⟨S_, .f32⟩ : BufTy).Contents (Elt F) → (⟨S65536x1, .f32⟩ : BufTy).Contents (Elt F)),
    binary main_v36 main_v37 main_v38 (Host.divf : (⟨S65536x1, .f32⟩ : BufTy).Contents (Elt F) → (⟨S65536x1, .f32⟩ : BufTy).Contents (Elt F) → (⟨S65536x1, .f32⟩ : BufTy).Contents (Elt F)),
    unary main_v31 main_v39 (broadcastInDim S65536x128 ![0, 1] bcast_S65536x1_S65536x128_0_1 : (⟨S65536x1, .f32⟩ : BufTy).Contents (Elt F) → (⟨S65536x128, .f32⟩ : BufTy).Contents (Elt F)),
    binary main_v27 main_v39 main_v40 (subf : (⟨S65536x128, .f32⟩ : BufTy).Contents (Elt F) → (⟨S65536x128, .f32⟩ : BufTy).Contents (Elt F) → (⟨S65536x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S65536x128 ![0, 1] bcast_S1x128_S65536x128_0_1 : (⟨S1x128, .f32⟩ : BufTy).Contents (Elt F) → (⟨S65536x128, .f32⟩ : BufTy).Contents (Elt F)),
    binary main_v42 main_v40 main_v43 (mulf : (⟨S65536x128, .f32⟩ : BufTy).Contents (Elt F) → (⟨S65536x128, .f32⟩ : BufTy).Contents (Elt F) → (⟨S65536x128, .f32⟩ : BufTy).Contents (Elt F)),
    nullary main_cst_9 (constant S_ .f32 0x358637BD#32),
    unary main_cst_9 main_v44 (broadcastInDim S65536x1 ![] bcast_S_S65536x1 : (⟨S_, .f32⟩ : BufTy).Contents (Elt F) → (⟨S65536x1, .f32⟩ : BufTy).Contents (Elt F)),
    binary main_v38 main_v44 main_v45 (addf : (⟨S65536x1, .f32⟩ : BufTy).Contents (Elt F) → (⟨S65536x1, .f32⟩ : BufTy).Contents (Elt F) → (⟨S65536x1, .f32⟩ : BufTy).Contents (Elt F)),
    unary main_v45 main_v46 (Host.sqrt : (⟨S65536x1, .f32⟩ : BufTy).Contents (Elt F) → (⟨S65536x1, .f32⟩ : BufTy).Contents (Elt F)),
    unary main_v46 main_v47 (broadcastInDim S65536x128 ![0, 1] bcast_S65536x1_S65536x128_0_1 : (⟨S65536x1, .f32⟩ : BufTy).Contents (Elt F) → (⟨S65536x128, .f32⟩ : BufTy).Contents (Elt F)),
    binary main_v43 main_v47 main_v48 (Host.divf : (⟨S65536x128, .f32⟩ : BufTy).Contents (Elt F) → (⟨S65536x128, .f32⟩ : BufTy).Contents (Elt F) → (⟨S65536x128, .f32⟩ : BufTy).Contents (Elt F)),
    unary main_arg4 main_v49 (broadcastInDim S1x128 ![1] bcast_S128_S1x128_1 : (⟨S128, .f32⟩ : BufTy).Contents (Elt F) → (⟨S1x128, .f32⟩ : BufTy).Contents (Elt F)),
    unary main_v49 main_v50 (broadcastInDim S65536x128 ![0, 1] bcast_S1x128_S65536x128_0_1 : (⟨S1x128, .f32⟩ : BufTy).Contents (Elt F) → (⟨S65536x128, .f32⟩ : BufTy).Contents (Elt F)),
    binary main_v48 main_v50 main_v51 (addf : (⟨S65536x128, .f32⟩ : BufTy).Contents (Elt F) → (⟨S65536x128, .f32⟩ : BufTy).Contents (Elt F) → (⟨S65536x128, .f32⟩ : BufTy).Contents (Elt F)) ]
/-- The buffers piece 6 writes. -/
abbrev W6 : List (Ref sig .tc) := [main_cst_5, main_v28, main_v29, main_cst_6, main_v30, main_v31, main_v32, main_v33, main_v34, main_cst_7, main_v35, main_v36, main_cst_8, main_v37, main_v38, main_v39, main_v40, main_v41, main_v42, main_v43, main_cst_9, main_v44, main_v45, main_v46, main_v47, main_v48, main_v49, main_v50, main_v51]
set_option maxRecDepth 8192 in
theorem S6_writes : (S6 : List (HloOp τ sig (Elt F))).Forall fun op => op.writes ⊆ (W6.map (Proc.devRef (τ := τ) .tc)).toFinset := by
  simp only [List.Forall]
  exact ⟨by writes_mem, by writes_mem, by writes_mem, by writes_mem, by writes_mem, by writes_mem, by writes_mem, by writes_mem, by writes_mem, by writes_mem,
    by writes_mem, by writes_mem, by writes_mem, by writes_mem, by writes_mem, by writes_mem, by writes_mem, by writes_mem, by writes_mem, by writes_mem,
    by writes_mem, by writes_mem, by writes_mem, by writes_mem, by writes_mem, by writes_mem, by writes_mem, by writes_mem, by writes_mem⟩
/-- A buffer piece 6 does not write keeps its contents through it. -/
theorem S6_keep (V : Valuation τ sig (Elt F)) (r : Ref sig .tc) (h : r ∉ W6) :
    after S6 V (Proc.devRef .tc r) = V (Proc.devRef .tc r) :=
  after_of_writes_sub S6 V S6_writes h
set_option maxRecDepth 8192 in
set_option maxHeartbeats 2000000 in
/-- Piece 6 leaves the first layer normalisation of what it read. -/
theorem S6_out (V : Valuation τ sig (Elt F)) :
    after S6 V (Proc.devRef .tc main_v51) = stNorm (V (Proc.devRef .tc main_v27)) (V (Proc.devRef .tc main_arg3)) (V (Proc.devRef .tc main_arg4)) := by
  unfold S6
  after_results_simp
  rfl

/-- Piece 7 of the line: the dense layer with bias and skip. -/
abbrev S7 : List (HloOp τ sig (Elt F)) :=
  [ unary main_v51 main_v52 ((transpose S128x65536 [1, 0] · transposes_S65536x128_S128x65536_1_0) : (⟨S65536x128, .f32⟩ : BufTy).Contents (Elt F) → (⟨S128x65536, .f32⟩ : BufTy).Contents (Elt F)),
    binary main_arg5 main_v52 main_v53 ((fun l r => Host.dotGeneral dot_S128x128_S128x65536_S128x65536_1_0_0_1_n_n none l r) : (⟨S128x128, .f32⟩ : BufTy).Contents (Elt F) → (⟨S128x65536, .f32⟩ : BufTy).Contents (Elt F) → (⟨S128x65536, .f32⟩ : BufTy).Contents (Elt F)),
    unary main_arg6 main_v54 (broadcastInDim S128x65536 ![0, 1] bcast_S128x1_S128x65536_0_1 : (⟨S128x1, .f32⟩ : BufTy).Contents (Elt F) → (⟨S128x65536, .f32⟩ : BufTy).Contents (Elt F)),
    binary main_v53 main_v54 main_v55 (addf : (⟨S128x65536, .f32⟩ : BufTy).Contents (Elt F) → (⟨S128x65536, .f32⟩ : BufTy).Contents (Elt F) → (⟨S128x65536, .f32⟩ : BufTy).Contents (Elt F)),
    binary main_v55 main_v52 main_v56 (addf : (⟨S128x65536, .f32⟩ : BufTy).Contents (Elt F) → (⟨S128x65536, .f32⟩ : BufTy).Contents (Elt F) → (⟨S128x65536, .f32⟩ : BufTy).Contents (Elt F)),
    unary main_v56 main_v57 ((transpose S65536x128 [1, 0] · transposes_S128x65536_S65536x128_1_0) : (⟨S128x65536, .f32⟩ : BufTy).Contents (Elt F) → (⟨S65536x128, .f32⟩ : BufTy).Contents (Elt F)) ]
/-- The buffers piece 7 writes. -/
abbrev W7 : List (Ref sig .tc) := [main_v52, main_v53, main_v54, main_v55, main_v56, main_v57]
set_option maxRecDepth 8192 in
theorem S7_writes : (S7 : List (HloOp τ sig (Elt F))).Forall fun op => op.writes ⊆ (W7.map (Proc.devRef (τ := τ) .tc)).toFinset := by
  simp only [List.Forall]
  exact ⟨by writes_mem, by writes_mem, by writes_mem, by writes_mem, by writes_mem, by writes_mem⟩
/-- A buffer piece 7 does not write keeps its contents through it. -/
theorem S7_keep (V : Valuation τ sig (Elt F)) (r : Ref sig .tc) (h : r ∉ W7) :
    after S7 V (Proc.devRef .tc r) = V (Proc.devRef .tc r) :=
  after_of_writes_sub S7 V S7_writes h
set_option maxRecDepth 8192 in
set_option maxHeartbeats 2000000 in
/-- Piece 7 leaves the dense layer with bias and skip of what it read. -/
theorem S7_out (V : Valuation τ sig (Elt F)) :
    after S7 V (Proc.devRef .tc main_v57) = stPost (V (Proc.devRef .tc main_arg5)) (V (Proc.devRef .tc main_arg6)) (V (Proc.devRef .tc main_v51)) := by
  unfold S7
  after_results_simp
  rfl

/-- Piece 8 of the line: the second layer normalisation. -/
abbrev S8 : List (HloOp τ sig (Elt F)) :=
  [ nullary main_cst_10 (constant S_ .f32 0x00000000#32),
    binary main_v57 main_cst_10 main_v58 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v58 main_v59 (broadcastInDim S65536x1 ![0] bcast_S65536_S65536x1_0 : (⟨S65536, .f32⟩ : BufTy).Contents (Elt F) → (⟨S65536x1, .f32⟩ : BufTy).Contents (Elt F)),
    nullary main_cst_11 (constant S_ .f32 0x43000000#32),
    unary main_cst_11 main_v60 (broadcastInDim S65536x1 ![] bcast_S_S65536x1 : (⟨S_, .f32⟩ : BufTy).Contents (Elt F) → (⟨S65536x1, .f32⟩ : BufTy).Contents (Elt F)),
    binary main_v59 main_v60 main_v61 (Host.divf : (⟨S65536x1, .f32⟩ : BufTy).Contents (Elt F) → (⟨S65536x1, .f32⟩ : BufTy).Contents (Elt F) → (⟨S65536x1, .f32⟩ : BufTy).Contents (Elt F)),
    unary main_v61 main_v62 (broadcastInDim S65536x128 ![0, 1] bcast_S65536x1_S65536x128_0_1 : (⟨S65536x1, .f32⟩ : BufTy).Contents (Elt F) → (⟨S65536x128, .f32⟩ : BufTy).Contents (Elt F)),
    binary main_v57 main_v62 main_v63 (subf : (⟨S65536x128, .f32⟩ : BufTy).Contents (Elt F) → (⟨S65536x128, .f32⟩ : BufTy).Contents (Elt F) → (⟨S65536x128, .f32⟩ : BufTy).Contents (Elt F)),
    binary main_v63 main_v63 main_v64 (mulf : (⟨S65536x128, .f32⟩ : BufTy).Contents (Elt F) → (⟨S65536x128, .f32⟩ : BufTy).Contents (Elt F) → (⟨S65536x128, .f32⟩ : BufTy).Contents (Elt F)),
    nullary main_cst_12 (constant S_ .f32 0x00000000#32),
    binary main_v64 main_cst_12 main_v65 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v65 main_v66 (broadcastInDim S65536x1 ![0] bcast_S65536_S65536x1_0 : (⟨S65536, .f32⟩ : BufTy).Contents (Elt F) → (⟨S65536x1, .f32⟩ : BufTy).Contents (Elt F)),
    nullary main_cst_13 (constant S_ .f32 0x43000000#32),
    unary main_cst_13 main_v67 (broadcastInDim S65536x1 ![] bcast_S_S65536x1 : (⟨S_, .f32⟩ : BufTy).Contents (Elt F) → (⟨S65536x1, .f32⟩ : BufTy).Contents (Elt F)),
    binary main_v66 main_v67 main_v68 (Host.divf : (⟨S65536x1, .f32⟩ : BufTy).Contents (Elt F) → (⟨S65536x1, .f32⟩ : BufTy).Contents (Elt F) → (⟨S65536x1, .f32⟩ : BufTy).Contents (Elt F)),
    unary main_v61 main_v69 (broadcastInDim S65536x128 ![0, 1] bcast_S65536x1_S65536x128_0_1 : (⟨S65536x1, .f32⟩ : BufTy).Contents (Elt F) → (⟨S65536x128, .f32⟩ : BufTy).Contents (Elt F)),
    binary main_v57 main_v69 main_v70 (subf : (⟨S65536x128, .f32⟩ : BufTy).Contents (Elt F) → (⟨S65536x128, .f32⟩ : BufTy).Contents (Elt F) → (⟨S65536x128, .f32⟩ : BufTy).Contents (Elt F)),
    unary main_arg7 main_v71 (broadcastInDim S1x128 ![1] bcast_S128_S1x128_1 : (⟨S128, .f32⟩ : BufTy).Contents (Elt F) → (⟨S1x128, .f32⟩ : BufTy).Contents (Elt F)),
    unary main_v71 main_v72 (broadcastInDim S65536x128 ![0, 1] bcast_S1x128_S65536x128_0_1 : (⟨S1x128, .f32⟩ : BufTy).Contents (Elt F) → (⟨S65536x128, .f32⟩ : BufTy).Contents (Elt F)),
    binary main_v72 main_v70 main_v73 (mulf : (⟨S65536x128, .f32⟩ : BufTy).Contents (Elt F) → (⟨S65536x128, .f32⟩ : BufTy).Contents (Elt F) → (⟨S65536x128, .f32⟩ : BufTy).Contents (Elt F)),
    nullary main_cst_14 (constant S_ .f32 0x358637BD#32),
    unary main_cst_14 main_v74 (broadcastInDim S65536x1 ![] bcast_S_S65536x1 : (⟨S_, .f32⟩ : BufTy).Contents (Elt F) → (⟨S65536x1, .f32⟩ : BufTy).Contents (Elt F)),
    binary main_v68 main_v74 main_v75 (addf : (⟨S65536x1, .f32⟩ : BufTy).Contents (Elt F) → (⟨S65536x1, .f32⟩ : BufTy).Contents (Elt F) → (⟨S65536x1, .f32⟩ : BufTy).Contents (Elt F)),
    unary main_v75 main_v76 (Host.sqrt : (⟨S65536x1, .f32⟩ : BufTy).Contents (Elt F) → (⟨S65536x1, .f32⟩ : BufTy).Contents (Elt F)),
    unary main_v76 main_v77 (broadcastInDim S65536x128 ![0, 1] bcast_S65536x1_S65536x128_0_1 : (⟨S65536x1, .f32⟩ : BufTy).Contents (Elt F) → (⟨S65536x128, .f32⟩ : BufTy).Contents (Elt F)),
    binary main_v73 main_v77 main_v78 (Host.divf : (⟨S65536x128, .f32⟩ : BufTy).Contents (Elt F) → (⟨S65536x128, .f32⟩ : BufTy).Contents (Elt F) → (⟨S65536x128, .f32⟩ : BufTy).Contents (Elt F)),
    unary main_arg8 main_v79 (broadcastInDim S1x128 ![1] bcast_S128_S1x128_1 : (⟨S128, .f32⟩ : BufTy).Contents (Elt F) → (⟨S1x128, .f32⟩ : BufTy).Contents (Elt F)),
    unary main_v79 main_v80 (broadcastInDim S65536x128 ![0, 1] bcast_S1x128_S65536x128_0_1 : (⟨S1x128, .f32⟩ : BufTy).Contents (Elt F) → (⟨S65536x128, .f32⟩ : BufTy).Contents (Elt F)),
    binary main_v78 main_v80 main_v81 (addf : (⟨S65536x128, .f32⟩ : BufTy).Contents (Elt F) → (⟨S65536x128, .f32⟩ : BufTy).Contents (Elt F) → (⟨S65536x128, .f32⟩ : BufTy).Contents (Elt F)) ]
/-- The buffers piece 8 writes. -/
abbrev W8 : List (Ref sig .tc) := [main_cst_10, main_v58, main_v59, main_cst_11, main_v60, main_v61, main_v62, main_v63, main_v64, main_cst_12, main_v65, main_v66, main_cst_13, main_v67, main_v68, main_v69, main_v70, main_v71, main_v72, main_v73, main_cst_14, main_v74, main_v75, main_v76, main_v77, main_v78, main_v79, main_v80, main_v81]
set_option maxRecDepth 8192 in
theorem S8_writes : (S8 : List (HloOp τ sig (Elt F))).Forall fun op => op.writes ⊆ (W8.map (Proc.devRef (τ := τ) .tc)).toFinset := by
  simp only [List.Forall]
  exact ⟨by writes_mem, by writes_mem, by writes_mem, by writes_mem, by writes_mem, by writes_mem, by writes_mem, by writes_mem, by writes_mem, by writes_mem,
    by writes_mem, by writes_mem, by writes_mem, by writes_mem, by writes_mem, by writes_mem, by writes_mem, by writes_mem, by writes_mem, by writes_mem,
    by writes_mem, by writes_mem, by writes_mem, by writes_mem, by writes_mem, by writes_mem, by writes_mem, by writes_mem, by writes_mem⟩
/-- A buffer piece 8 does not write keeps its contents through it. -/
theorem S8_keep (V : Valuation τ sig (Elt F)) (r : Ref sig .tc) (h : r ∉ W8) :
    after S8 V (Proc.devRef .tc r) = V (Proc.devRef .tc r) :=
  after_of_writes_sub S8 V S8_writes h
set_option maxRecDepth 8192 in
set_option maxHeartbeats 2000000 in
/-- Piece 8 leaves the second layer normalisation of what it read. -/
theorem S8_out (V : Valuation τ sig (Elt F)) :
    after S8 V (Proc.devRef .tc main_v81) = stNorm (V (Proc.devRef .tc main_v57)) (V (Proc.devRef .tc main_arg7)) (V (Proc.devRef .tc main_arg8)) := by
  unfold S8
  after_results_simp
  rfl

/-- Piece 9 of the line: the final transposition. -/
abbrev S9 : List (HloOp τ sig (Elt F)) :=
  [ unary main_v81 main_v82 ((transpose S128x65536 [1, 0] · transposes_S65536x128_S128x65536_1_0) : (⟨S65536x128, .f32⟩ : BufTy).Contents (Elt F) → (⟨S128x65536, .f32⟩ : BufTy).Contents (Elt F)) ]
/-- The buffers piece 9 writes. -/
abbrev W9 : List (Ref sig .tc) := [main_v82]
set_option maxRecDepth 8192 in
theorem S9_writes : (S9 : List (HloOp τ sig (Elt F))).Forall fun op => op.writes ⊆ (W9.map (Proc.devRef (τ := τ) .tc)).toFinset := by
  simp only [List.Forall]
  writes_mem
/-- A buffer piece 9 does not write keeps its contents through it. -/
theorem S9_keep (V : Valuation τ sig (Elt F)) (r : Ref sig .tc) (h : r ∉ W9) :
    after S9 V (Proc.devRef .tc r) = V (Proc.devRef .tc r) :=
  after_of_writes_sub S9 V S9_writes h
set_option maxRecDepth 8192 in
set_option maxHeartbeats 2000000 in
/-- Piece 9 leaves the final transposition of what it read. -/
theorem S9_out (V : Valuation τ sig (Elt F)) :
    after S9 V (Proc.devRef .tc main_v82) = transpose S128x65536 [1, 0] (V (Proc.devRef .tc main_v81)) transposes_S65536x128_S128x65536_1_0 := by
  unfold S9
  after_results_simp

/-- The line is its pieces in order. -/
theorem ops_split : (ops : List (HloOp τ sig (Elt F))) = S1 ++ (S2 ++ (S3 ++ (S4 ++ (S5 ++ (S6 ++ (S7 ++ (S8 ++ S9))))))) := rfl

set_option maxRecDepth 8192 in
set_option maxHeartbeats 2000000 in
/-- After the whole line the result buffer holds the stages' composition of the arguments' contents: piece by
    piece from the last, each piece's result is its stage of what it read, and what it read from an argument
    buffer no earlier piece wrote. -/
theorem out_eq (V : Valuation τ sig (Elt F)) :
    after ops V (Proc.devRef .tc main_v82) = refValS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_split]
  simp only [after_append]
  rw [S9_out, S8_out, S7_keep _ main_arg7 (by decide), S7_keep _ main_arg8 (by decide),
    S7_out, S6_keep _ main_arg7 (by decide), S6_keep _ main_arg8 (by decide), S6_keep _ main_arg5 (by decide),
    S6_keep _ main_arg6 (by decide), S6_out, S5_keep _ main_arg7 (by decide), S5_keep _ main_arg8 (by decide),
    S5_keep _ main_arg5 (by decide), S5_keep _ main_arg6 (by decide), S5_keep _ main_arg3 (by decide), S5_keep _ main_arg4 (by decide),
    S5_out, S4_keep _ main_arg7 (by decide), S4_keep _ main_arg8 (by decide), S4_keep _ main_arg5 (by decide),
    S4_keep _ main_arg6 (by decide), S4_keep _ main_arg3 (by decide), S4_keep _ main_arg4 (by decide), S4_keep _ main_arg0 (by decide),
    S4_out, S3_keep _ main_arg7 (by decide), S3_keep _ main_arg8 (by decide), S3_keep _ main_arg5 (by decide),
    S3_keep _ main_arg6 (by decide), S3_keep _ main_arg3 (by decide), S3_keep _ main_arg4 (by decide), S3_keep _ main_arg0 (by decide),
    S3_keep _ main_arg1 (by decide), S3_out, S2_keep _ main_arg7 (by decide), S2_keep _ main_arg8 (by decide),
    S2_keep _ main_arg5 (by decide), S2_keep _ main_arg6 (by decide), S2_keep _ main_arg3 (by decide), S2_keep _ main_arg4 (by decide),
    S2_keep _ main_arg0 (by decide), S2_keep _ main_arg1 (by decide), S2_out, S1_keep _ main_arg7 (by decide),
    S1_keep _ main_arg8 (by decide), S1_keep _ main_arg5 (by decide), S1_keep _ main_arg6 (by decide), S1_keep _ main_arg3 (by decide),
    S1_keep _ main_arg4 (by decide), S1_keep _ main_arg0 (by decide), S1_keep _ main_arg1 (by decide), S1_out]
  rfl

/-- A buffer no piece writes keeps its contents through the whole line. -/
theorem ops_keep (V : Valuation τ sig (Elt F)) (r : Ref sig .tc)
    (h1 : r ∉ W1) (h2 : r ∉ W2) (h3 : r ∉ W3) (h4 : r ∉ W4) (h5 : r ∉ W5) (h6 : r ∉ W6) (h7 : r ∉ W7) (h8 : r ∉ W8) (h9 : r ∉ W9) :
    after ops V (Proc.devRef .tc r) = V (Proc.devRef .tc r) := by
  rw [ops_split]
  simp only [after_append]
  rw [S9_keep _ r h9, S8_keep _ r h8, S7_keep _ r h7, S6_keep _ r h6, S5_keep _ r h5, S4_keep _ r h4, S3_keep _ r h3, S2_keep _ r h2, S1_keep _ r h1]

/-- On every device, for any float values, from any memory with zero counters: every weakly fair execution of
    @main terminates with the result buffer at the stages' composition of the arguments' launch contents and the
    nine arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v82) = refValS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v82).trans (out_eq (launchContents m c)),
      (h c main_arg0).trans (ops_keep (launchContents m c) main_arg0 (by decide) (by decide) (by decide) (by decide) (by decide) (by decide) (by decide) (by decide) (by decide)),
      (h c main_arg1).trans (ops_keep (launchContents m c) main_arg1 (by decide) (by decide) (by decide) (by decide) (by decide) (by decide) (by decide) (by decide) (by decide)),
      (h c main_arg2).trans (ops_keep (launchContents m c) main_arg2 (by decide) (by decide) (by decide) (by decide) (by decide) (by decide) (by decide) (by decide) (by decide)),
      (h c main_arg3).trans (ops_keep (launchContents m c) main_arg3 (by decide) (by decide) (by decide) (by decide) (by decide) (by decide) (by decide) (by decide) (by decide)),
      (h c main_arg4).trans (ops_keep (launchContents m c) main_arg4 (by decide) (by decide) (by decide) (by decide) (by decide) (by decide) (by decide) (by decide) (by decide)),
      (h c main_arg5).trans (ops_keep (launchContents m c) main_arg5 (by decide) (by decide) (by decide) (by decide) (by decide) (by decide) (by decide) (by decide) (by decide)),
      (h c main_arg6).trans (ops_keep (launchContents m c) main_arg6 (by decide) (by decide) (by decide) (by decide) (by decide) (by decide) (by decide) (by decide) (by decide)),
      (h c main_arg7).trans (ops_keep (launchContents m c) main_arg7 (by decide) (by decide) (by decide) (by decide) (by decide) (by decide) (by decide) (by decide) (by decide)),
      (h c main_arg8).trans (ops_keep (launchContents m c) main_arg8 (by decide) (by decide) (by decide) (by decide) (by decide) (by decide) (by decide) (by decide) (by decide))⟩)
    (run_main m ρ)

/-- The reference runs and leaves its nine argument arrays unchanged: the run above with the result dropped. -/
theorem frame [Cert.Pre_finite_inputs.Facts] : Cert.frame_ReferenceIdeal :=
  fun m g _ => (θ_run (defs (F := Ideal)) _ _).mono (fun _ h c => (h c).2) (run (F := Ideal) m g)

end Cert.ReferenceIdeal.Hand

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.LibBatchNorm.lean ====
/-
  Batch normalisation of a column of real numbers, on the extended reals, in its two usual forms, and the proof that
  they are one function.

  A column `z : Fin n → EReal` of real entries has sum `S = ∑ z`, sum of squares `Q = ∑ z²`, mean `m = S / n`.

  * The ONE-PASS form computes the variance as `Q / n − m²` (the mean of the squares minus the square of the mean) and
    folds the normalisation into one affine map `z ↦ z · scale + shift` with `scale = γ · rsqrt(var + ε)` and
    `shift = β − m · scale`.
  * The TWO-PASS form computes the variance as the mean of the squared deviations `(∑ (z − m)²) / n` and normalises as
    `γ · (z − m) · rsqrt(var + ε) + β`.

  Over the reals the two variances are equal (expand the square; `∑ z = n · m`), both are non-negative (the second is a
  sum of squares), so with `ε > 0` the reciprocal square root is taken at a positive real and is a real; the rest is the
  distributive law, which the extended reals have at finite values only — hence the hypothesis that every entry is real.

  * `IsReal`: an extended real that is a real number, with its closure under the field operations, finite sums, `max`,
    and the ideal operations `div` (by a nonzero real), `rsqrt` (of a positive real), `exp`, `log1p` (of a real above −1).
  * `real_sum_sq_dev`, `real_variance`: the variance identity over the reals.
  * `fold_eq`, `fold_eq'`, `fold_real`, `var_add_eps_pos`: the two forms agree, their value is real, and `var + ε` is a
    positive real.
-/
import Idealize.ShloMosaic.PureOps.Ideal
import proofs.«165610_j52828097741217_2_alg».proof.Proof.LibERealFinite

noncomputable section

open scoped BigOperators

namespace Cert.LibBatchNorm

open Idealize.ShloMosaic
open Cert.LibERealFinite

/-! ## Real extended reals -/

/-- An extended real that is a real number (neither infinity). -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.ne_top {x : EReal} (h : IsReal x) : x ≠ ⊤ := by
  obtain ⟨a, rfl⟩ := h; exact EReal.coe_ne_top a
theorem IsReal.ne_bot {x : EReal} (h : IsReal x) : x ≠ ⊥ := by
  obtain ⟨a, rfl⟩ := h; exact EReal.coe_ne_bot a

/-- An extended real that is neither infinity is a real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.min {x y : EReal} (hx : IsReal x) (hy : IsReal y) : IsReal (min x y) := by
  rcases le_total x y with h | h
  · rw [min_eq_left h]; exact hx
  · rw [min_eq_right h]; exact hy

/-- A finite sum of reals is real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- A sum over a finite type of reals is real. -/
theorem IsReal.sum_univ {ι : Type*} [Fintype ι] (f : ι → EReal) (h : ∀ i, IsReal (f i)) : IsReal (∑ i, f i) :=
  IsReal.sum _ f fun i _ => h i

/-- The ideal quotient of a real by a nonzero real is the real quotient. -/
theorem div_coe_coe (a : ℝ) {b : ℝ} (hb : b ≠ 0) : Ideal.div (a : EReal) (b : EReal) = ((a * (1 / b) : ℝ) : EReal) := by
  rw [Ideal.div_coe hb, ← EReal.coe_mul]

theorem IsReal.div {x c : EReal} (hx : IsReal x) (hc : IsReal c) (h0 : c ≠ 0) : IsReal (Ideal.div x c) := by
  obtain ⟨a, rfl⟩ := hx; obtain ⟨b, rfl⟩ := hc
  exact ⟨_, div_coe_coe a (EReal.coe_ne_zero.mp h0)⟩

/-- The ideal reciprocal square root of a positive real is the real one. -/
theorem rsqrt_coe_pos {a : ℝ} (h : 0 < a) : Ideal.rsqrt (a : EReal) = (((Real.sqrt a)⁻¹ : ℝ) : EReal) := by
  rw [Ideal.rsqrt_coe, if_neg (not_lt.mpr h.le), if_neg h.ne']

theorem IsReal.rsqrt {x : EReal} (hx : IsReal x) (h0 : 0 < x) : IsReal (Ideal.rsqrt x) := by
  obtain ⟨a, rfl⟩ := hx
  exact ⟨_, rsqrt_coe_pos (EReal.coe_pos.mp h0)⟩

/-- The reciprocal square root of a positive real is positive. -/
theorem rsqrt_pos {x : EReal} (hx : IsReal x) (h0 : 0 < x) : 0 < Ideal.rsqrt x := by
  obtain ⟨a, rfl⟩ := hx
  have ha : 0 < a := EReal.coe_pos.mp h0
  rw [rsqrt_coe_pos ha]
  exact EReal.coe_pos.mpr (inv_pos.mpr (Real.sqrt_pos.mpr ha))

theorem IsReal.exp {x : EReal} (hx : IsReal x) : IsReal (Ideal.exp x) := by
  obtain ⟨a, rfl⟩ := hx; exact ⟨Real.exp a, Ideal.exp_coe a⟩

/-- The exponential of a real is positive. -/
theorem exp_pos {x : EReal} (hx : IsReal x) : 0 < Ideal.exp x := by
  obtain ⟨a, rfl⟩ := hx
  rw [Ideal.exp_coe]; exact EReal.coe_pos.mpr (Real.exp_pos a)

/-- `log (1 + x)` at a real `x > −1` is the real logarithm. -/
theorem log1p_coe_of_lt {a : ℝ} (h : -1 < a) : Ideal.log1p (a : EReal) = ((Real.log (1 + a) : ℝ) : EReal) := by
  rw [Ideal.log1p, ← EReal.coe_one, ← EReal.coe_add, Ideal.log_coe, if_neg (by linarith)]

theorem IsReal.log1p {x : EReal} (hx : IsReal x) (h : -1 < x) : IsReal (Ideal.log1p x) := by
  obtain ⟨a, rfl⟩ := hx
  have ha : -1 < a := by
    have : ((-1 : ℝ) : EReal) < (a : EReal) := by simpa using h
    exact EReal.coe_lt_coe_iff.mp this
  exact ⟨_, log1p_coe_of_lt ha⟩

/-! ## The variance identity over the reals -/

/-- The sum of the squared deviations from any number `m`: expand the square. -/
theorem real_sum_sq_dev {n : ℕ} (z : Fin n → ℝ) (m : ℝ) :
    ∑ r, (z r - m) * (z r - m) = (∑ r, z r * z r) - 2 * m * (∑ r, z r) + n * (m * m) := by
  have h : ∀ r, (z r - m) * (z r - m) = z r * z r - 2 * m * z r + m * m := fun r => by ring
  simp only [h]
  rw [Finset.sum_add_distrib, Finset.sum_sub_distrib, ← Finset.mul_sum, Finset.sum_const, Finset.card_univ,
    Fintype.card_fin, nsmul_eq_mul]

/-- The mean of the squared deviations from the mean is the mean of the squares minus the square of the mean. -/
theorem real_variance {n : ℕ} (hn : n ≠ 0) (z : Fin n → ℝ) :
    (∑ r, (z r - (∑ s, z s) * (1 / (n : ℝ))) * (z r - (∑ s, z s) * (1 / (n : ℝ)))) * (1 / (n : ℝ))
      = (∑ r, z r * z r) * (1 / (n : ℝ)) - ((∑ s, z s) * (1 / (n : ℝ))) * ((∑ s, z s) * (1 / (n : ℝ))) := by
  have hn' : (n : ℝ) ≠ 0 := Nat.cast_ne_zero.mpr hn
  rw [real_sum_sq_dev]
  field_simp
  ring

/-- The mean of the squared deviations is non-negative. -/
theorem real_variance_nonneg {n : ℕ} (z : Fin n → ℝ) (m : ℝ) :
    0 ≤ (∑ r, (z r - m) * (z r - m)) * (1 / (n : ℝ)) :=
  mul_nonneg (Finset.sum_nonneg fun r _ => mul_self_nonneg _) (by positivity)

/-! ## The folded and the two-pass normalisation agree -/

section Fold

variable {n : ℕ}

/-- With real entries, count `n ≠ 0` and `ε > 0`: the one-pass variance plus `ε` is a positive real. -/
theorem var_add_eps_pos (hn : n ≠ 0) (c : EReal) (hc : c = ((n : ℝ) : EReal)) (e : ℝ) (he : 0 < e) (eps : EReal)
    (heps : eps = (e : EReal)) (z : Fin n → EReal) (hz : ∀ r, IsReal (z r)) :
    IsReal ((Ideal.div (∑ r, z r * z r) c - Ideal.div (∑ r, z r) c * Ideal.div (∑ r, z r) c) + eps)
      ∧ 0 < (Ideal.div (∑ r, z r * z r) c - Ideal.div (∑ r, z r) c * Ideal.div (∑ r, z r) c) + eps := by
  subst hc heps
  choose z' hz' using hz
  obtain rfl : z = fun r => (z' r : EReal) := funext hz'
  have hn' : (n : ℝ) ≠ 0 := Nat.cast_ne_zero.mpr hn
  have hpos : 0 < (∑ r, z' r * z' r) * (1 / (n : ℝ)) - ((∑ s, z' s) * (1 / (n : ℝ))) * ((∑ s, z' s) * (1 / (n : ℝ))) + e := by
    rw [← real_variance hn z']
    have := real_variance_nonneg z' ((∑ s, z' s) * (1 / (n : ℝ)))
    linarith
  simp only [← EReal.coe_mul, ← coe_sum, div_coe_coe _ hn', ← EReal.coe_sub, ← EReal.coe_add]
  exact ⟨isReal_coe _, EReal.coe_pos.mpr hpos⟩

/-- **The folded batch normalisation is the two-pass one.** For a column `z` of `n ≠ 0` real entries, real `γ`, `β`
    and `ε > 0`: the affine map `z i · scale + shift` built from the sum `S` and the sum of squares `Q`
    (`mean = S / n`, `var = Q / n − mean²`, `scale = γ · rsqrt (var + ε)`, `shift = β − mean · scale`) equals
    `γ · (z i − mean) · rsqrt ((∑ (z − mean)²) / n + ε) + β`. -/
theorem fold_eq (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - Ideal.div (∑ r, z r) c))
          * Ideal.rsqrt (Ideal.div (∑ r, (z r - Ideal.div (∑ s, z s) c) * (z r - Ideal.div (∑ s, z s) c)) c + eps)) + β := by
  subst hc heps
  choose z' hz' using hz
  obtain rfl : z = fun r => (z' r : EReal) := funext hz'
  obtain ⟨g', rfl⟩ := hg
  obtain ⟨β', rfl⟩ := hβ
  have hn' : (n : ℝ) ≠ 0 := Nat.cast_ne_zero.mpr hn
  have hvar := real_variance hn z'
  have hpos : 0 < (∑ r, z' r * z' r) * (1 / (n : ℝ)) - ((∑ s, z' s) * (1 / (n : ℝ))) * ((∑ s, z' s) * (1 / (n : ℝ))) + e := by
    rw [← hvar]
    have := real_variance_nonneg z' ((∑ s, z' s) * (1 / (n : ℝ)))
    linarith
  simp only [← EReal.coe_mul, ← coe_sum, div_coe_coe _ hn', ← EReal.coe_sub, ← EReal.coe_add]
  rw [hvar, rsqrt_coe_pos hpos]
  simp only [← EReal.coe_mul, ← EReal.coe_sub, ← EReal.coe_add]
  exact congrArg _ (by ring)

/-- The mean of a real column over a nonzero count is real. -/
theorem mean_real (hn : n ≠ 0) (c : EReal) (hc : c = ((n : ℝ) : EReal)) (z : Fin n → EReal) (hz : ∀ r, IsReal (z r)) :
    IsReal (Ideal.div (∑ r, z r) c) := by
  have hc0 : c ≠ 0 := by rw [hc]; exact EReal.coe_ne_zero.mpr (Nat.cast_ne_zero.mpr hn)
  exact IsReal.div (IsReal.sum_univ _ hz) (hc ▸ isReal_coe _) hc0

/-- The folded scale `γ · rsqrt (var + ε)` is real. -/
theorem scale_real (hn : n ≠ 0) (c : EReal) (hc : c = ((n : ℝ) : EReal)) (e : ℝ) (he : 0 < e) (eps : EReal)
    (heps : eps = (e : EReal)) (z : Fin n → EReal) (hz : ∀ r, IsReal (z r)) (g : EReal) (hg : IsReal g) :
    IsReal (g * Ideal.rsqrt ((Ideal.div (∑ r, z r * z r) c - Ideal.div (∑ r, z r) c * Ideal.div (∑ r, z r) c) + eps)) := by
  obtain ⟨hV, hVpos⟩ := var_add_eps_pos hn c hc e he eps heps z hz
  exact hg.mul (IsReal.rsqrt hV hVpos)

/-- The folded shift `β − mean · scale` is real. -/
theorem shift_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) :
    IsReal (β - Ideal.div (∑ r, z r) c
      * (g * Ideal.rsqrt ((Ideal.div (∑ r, z r * z r) c - Ideal.div (∑ r, z r) c * Ideal.div (∑ r, z r) c) + eps))) :=
  hβ.sub ((mean_real hn c hc z hz).mul (scale_real hn c hc e he eps heps z hz g hg))

/-- The normalised entry (in its folded form, hence in both) is real. -/
theorem fold_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    IsReal (z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))) :=
  ((hz i).mul (scale_real hn c hc e he eps heps z hz g hg)).add (shift_real hn c hc e he eps heps z hz g β hg hβ)

/-- The same identity with the two-pass side's mean `m` and variance `v` given by name. -/
theorem fold_eq' (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) (m v : EReal) (hm : m = Ideal.div (∑ r, z r) c)
    (hv : v = Ideal.div (∑ r, (z r - m) * (z r - m)) c) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - m)) * Ideal.rsqrt (v + eps)) + β := by
  subst hv; subst hm
  exact fold_eq hn c hc e he eps heps z hz g β hg hβ i

end Fold

end Cert.LibBatchNorm

end
-- ==== Proof.LibScaledSum.lean ====
/-
  Sums on the extended reals scaled by a non-negative real factor.

  On `EReal` multiplication does not distribute over addition in general (`⊤ + ⊥ = ⊥`), but it does when the
  factor is a non-negative real: `(y + z) · d = y · d + z · d` for `0 ≤ d`, `d ≠ ⊤`, whatever `y` and `z` are.
  By induction the same holds for a finite sum (`sum_mul_of_nonneg_of_ne_top`). Such factors arise as
  reciprocal square roots: `Ideal.rsqrt z` is a non-negative real for every `0 < z`, the value `⊤` included
  (`rsqrt ⊤ = 0`), and a sum of squares plus a positive constant is such a `z` with no assumption on the
  summands, since `a · a ≥ 0` for every extended real (`⊥ · ⊥ = ⊤`).

  `scaled_sum_eq` is the law a weight-demodulated channel contraction rests on: scaling every weight by `d`
  before the contraction equals scaling the contraction's result by `d`,
  `∑ x·((w·s)·d) + β = (∑ (x·s)·w)·d + β`.
-/
import Idealize.ShloMosaic.PureOps.Ideal
import Idealize.ShloMosaic.PureOps.Ideal.Laws

noncomputable section

namespace ScaledSum

open Idealize.ShloMosaic
open scoped BigOperators

/-- A non-negative real factor distributes over a finite sum of extended reals. -/
theorem sum_mul_of_nonneg_of_ne_top {ι : Type*} (s : Finset ι) (a : ι → EReal) {d : EReal} (h0 : 0 ≤ d) (ht : d ≠ ⊤) :
    (∑ c ∈ s, a c) * d = ∑ c ∈ s, a c * d := by
  classical
  induction s using Finset.induction_on with
  | empty => simp
  | insert i s hi ih =>
    rw [Finset.sum_insert hi, Finset.sum_insert hi, EReal.right_distrib_of_nonneg_of_ne_top h0 ht, ih]

/-- A square is non-negative on the extended reals: `⊥ · ⊥ = ⊤ · ⊤ = ⊤`. -/
theorem mul_self_nonneg (a : EReal) : 0 ≤ a * a := by
  induction a using EReal.rec with
  | bot => rw [EReal.bot_mul_bot]; exact le_top
  | coe r => rw [← EReal.coe_mul]; exact EReal.coe_nonneg.mpr (_root_.mul_self_nonneg r)
  | top => rw [EReal.top_mul_top]; exact le_top

/-- A sum of squares from a zero start, plus a positive constant, is positive — for any extended-real summands. -/
theorem sum_sq_add_pos {ι : Type*} [Fintype ι] (a : ι → EReal) {z ε : EReal} (hz : z = 0) (hε : 0 < ε) :
    0 < (z + ∑ c, a c * a c) + ε := by
  subst hz
  rw [zero_add]
  exact lt_of_lt_of_le hε (le_add_of_nonneg_left (Finset.sum_nonneg fun c _ => mul_self_nonneg (a c)))

/-- The reciprocal square root of a positive extended real is non-negative (`rsqrt ⊤ = 0`). -/
theorem rsqrt_nonneg_of_pos {z : EReal} (hz : 0 < z) : 0 ≤ Ideal.rsqrt z := by
  induction z using EReal.rec with
  | bot => exact absurd hz (by simp)
  | coe r =>
    have hr : 0 < r := EReal.coe_pos.mp hz
    rw [Ideal.rsqrt_coe, if_neg (not_lt.mpr hr.le), if_neg hr.ne']
    exact EReal.coe_nonneg.mpr (inv_nonneg.mpr (Real.sqrt_nonneg r))
  | top => rw [Ideal.rsqrt_top]

/-- and it is a real number: never `⊤` (the pole is at zero). -/
theorem rsqrt_ne_top_of_pos {z : EReal} (hz : 0 < z) : Ideal.rsqrt z ≠ ⊤ := by
  induction z using EReal.rec with
  | bot => exact absurd hz (by simp)
  | coe r =>
    have hr : 0 < r := EReal.coe_pos.mp hz
    rw [Ideal.rsqrt_coe, if_neg (not_lt.mpr hr.le), if_neg hr.ne']
    exact EReal.coe_ne_top _
  | top => rw [Ideal.rsqrt_top]; exact EReal.zero_ne_top

/-- The f32 pattern `0x322BCC77` (the nearest f32 to `1e-8`) denotes a positive number. -/
theorem eps_pos : (0 : EReal) < Ideal.ofBits .f32 0x322BCC77#32 := by
  have h : Ideal.ofBits .f32 0x322BCC77#32 = (((11258999 : ℝ) * ((2 : ℝ) ^ 50)⁻¹ : ℝ) : EReal) := by
    simp [Ideal.ofBits, Ideal.ieee]
  rw [h, EReal.coe_pos]
  positivity

/-- Scaling every weight `w c · s c` by `d` before contracting against `x` equals contracting `x · s` against `w`
    and scaling the result by `d`, when `d` is a non-negative real. -/
theorem scaled_sum_eq {ι : Type*} [Fintype ι] (x s w : ι → EReal) {d : EReal} (h0 : 0 ≤ d) (ht : d ≠ ⊤) (β : EReal) :
    (∑ c, x c * ((w c * s c) * d)) + β = (∑ c, (x c * s c) * w c) * d + β := by
  rw [sum_mul_of_nonneg_of_ne_top _ _ h0 ht]
  congr 1
  refine Finset.sum_congr rfl fun c _ => ?_
  rw [mul_comm (w c) (s c), ← mul_assoc, ← mul_assoc]

end ScaledSum

end
-- ==== Proof.RefSpec.lean ====
/-
  The same column function in the arrangement the reference computes it in, and the laws that join the two.

  The reference scores a path against the CONCATENATED column [query; key] of 256 entries and the whole 256 x 4
  attention matrix; its rectifier tests s ≥ 0; it takes the maximum and the sum over the eight paths as one
  supremum and one sum; it divides each exponential by the normaliser; it contracts the weights against the keys
  first, head by head, and adds the heads afterwards; and its normalisations divide by a square root where the
  kernel multiplies by a reciprocal square root. Each difference is an identity of the extended reals:
  splitting a sum of 256 terms, the value of the rectifier at zero, a nested maximum being the supremum,
  e / Z = e * (1 / Z) for Z ≠ 0, exchanging two finite sums of real numbers, and a * rsqrt v = a / sqrt v for v > 0.
  Only the normaliser being nonzero and the exchange of sums use that the inputs are real numbers: a real score
  makes the largest exponential equal to one.
-/
import proofs.«165610_j52828097741217_2_alg».proof.Proof.Spec
import proofs.«165610_j52828097741217_2_alg».proof.Proof.LibBatchNorm
import proofs.«165610_j52828097741217_2_alg».proof.Proof.LibScaledSum

noncomputable section

namespace Cert.Spec

open Idealize.ShloMosaic Cert.LibBatchNorm Cert.LibERealFinite
open scoped BigOperators

/-! ## The reference's arrangement -/

/-- The rectifier as the reference tests it: the identity from zero on. -/
def rleaky (s : EReal) : EReal := if 0 ≤ s then s else cSlope * s

/-- The concatenated column: the query's 128 entries, then the key's. -/
def cat (q kn : Fin 128 → EReal) (j : Fin 256) : EReal :=
  if h : j.val < 128 then q ⟨j.val, h⟩ else kn ⟨j.val - 128, by omega⟩

/-- Head h's score of the concatenated column against the whole attention matrix. -/
def rscore (a : Fin 256 → Fin 4 → EReal) (q kn : Fin 128 → EReal) (h : Fin 4) : EReal :=
  ∑ j : Fin 256, cat q kn j * a j h

def rlk (a : Fin 256 → Fin 4 → EReal) (q : Fin 128 → EReal) (k : Fin 8 → Fin 128 → EReal) (n : Fin 8) (h : Fin 4) : EReal :=
  rleaky (rscore a q (k n) h)

/-- The exponential shifted by the supremum over the paths. -/
def rex (l : Fin 8 → EReal) (n : Fin 8) : EReal := Ideal.exp (l n - ⨆ n', l n')

def rZ (l : Fin 8 → EReal) : EReal := ∑ n : Fin 8, rex l n

/-- The soft-max weight as a quotient. -/
def rwgt (l : Fin 8 → EReal) (n : Fin 8) : EReal := Ideal.div (rex l n) (rZ l)

/-- The keys contracted with the weights head by head, the heads added afterwards. -/
def rcomb (L : Fin 8 → Fin 4 → EReal) (k : Fin 8 → Fin 128 → EReal) (d : Fin 128) : EReal :=
  ∑ h : Fin 4, ∑ n : Fin 8, rwgt (fun n' => L n' h) n * k n d

def rpre (L : Fin 8 → Fin 4 → EReal) (k : Fin 8 → Fin 128 → EReal) (q : Fin 128 → EReal) (d : Fin 128) : EReal :=
  max (rcomb L k d * cQuarter) 0 + q d

/-- Layer normalisation dividing by the standard deviation. -/
def rlnorm (g β x : Fin 128 → EReal) (d : Fin 128) : EReal :=
  Ideal.div (g d * (x d - mean x)) (Ideal.sqrt (var x + cEps)) + β d

def rcolOut (a : Fin 256 → Fin 4 → EReal) (q : Fin 128 → EReal) (k : Fin 8 → Fin 128 → EReal)
    (g1 b1 : Fin 128 → EReal) (W : Fin 128 → Fin 128 → EReal) (pb g2 b2 : Fin 128 → EReal) : Fin 128 → EReal :=
  rlnorm g2 b2 (lin W pb (rlnorm g1 b1 (rpre (rlk a q k) k q)))

end Cert.Spec

end
-- ==== Proof.Algebra.lean ====
/-
  The laws joining the reference's arrangement of a column to the kernel's.
-/
import proofs.«165610_j52828097741217_2_alg».proof.Proof.RefSpec

noncomputable section

namespace Cert.Spec

open Idealize.ShloMosaic Cert.LibBatchNorm Cert.LibERealFinite
open scoped BigOperators

/-! ## Constants -/

theorem cOne_eq : cOne = 1 := by
  have h : cOne = (((8388608 : ℝ) * ((2 : ℝ) ^ 23)⁻¹ : ℝ) : EReal) := by
    simp [cOne, Ideal.ofBits, Ideal.ieee]
  rw [h, ← EReal.coe_one]
  exact congrArg _ (by norm_num)

theorem c128_eq : c128 = ((128 : ℝ) : EReal) := by
  have h : c128 = (((8388608 : ℝ) * ((2 : ℝ) ^ 16)⁻¹ : ℝ) : EReal) := by
    simp [c128, Ideal.ofBits, Ideal.ieee]
  rw [h]
  exact congrArg _ (by norm_num)

theorem cEps_pos : (0 : EReal) < cEps := by
  have h : cEps = (((8796093 : ℝ) * ((2 : ℝ) ^ 43)⁻¹ : ℝ) : EReal) := by
    simp [cEps, Ideal.ofBits, Ideal.ieee]
  rw [h, EReal.coe_pos]
  positivity

theorem cSlope_real : IsReal cSlope := by
  have h : cSlope = (((10737418 : ℝ) * ((2 : ℝ) ^ 30)⁻¹ : ℝ) : EReal) := by
    simp [cSlope, Ideal.ofBits, Ideal.ieee]
  exact ⟨_, h⟩

/-! ## The score: a sum of 256 terms split at 128 -/

theorem sum_split (f : Fin 256 → EReal) :
    ∑ j : Fin 256, f j = (∑ d : Fin 128, f ⟨d.val, by omega⟩) + ∑ d : Fin 128, f ⟨128 + d.val, by omega⟩ := by
  have h := Fin.sum_univ_add (M := EReal) (a := 128) (b := 128) (fun j : Fin (128 + 128) => f ⟨j.val, by omega⟩)
  refine Eq.trans ?_ (h.trans ?_)
  · rfl
  · rfl

theorem rscore_eq (a : Fin 256 → Fin 4 → EReal) (q kn : Fin 128 → EReal) (h : Fin 4) :
    rscore a q kn h = score (fun d h => a ⟨d.val, by omega⟩ h) (fun d h => a ⟨128 + d.val, by omega⟩ h) q kn h := by
  unfold rscore score
  rw [sum_split]
  congr 1
  · refine Finset.sum_congr rfl fun d _ => ?_
    have hd : cat q kn ⟨d.val, by omega⟩ = q d := by
      unfold cat; rw [dif_pos (show d.val < 128 from d.isLt)]
    rw [hd, mul_comm]
  · refine Finset.sum_congr rfl fun d _ => ?_
    have hd : cat q kn ⟨128 + d.val, by omega⟩ = kn d := by
      unfold cat
      rw [dif_neg (show ¬ (128 + d.val < 128) by omega)]
      exact congrArg kn (Fin.ext (by show 128 + d.val - 128 = d.val; omega))
    rw [hd, mul_comm]

/-! ## The rectifier at zero -/

theorem rleaky_eq (s : EReal) : rleaky s = leaky s := by
  unfold rleaky leaky
  rcases lt_trichotomy 0 s with h | h | h
  · rw [if_pos h.le, if_pos h]
  · subst h; rw [if_pos le_rfl, if_neg (lt_irrefl _), mul_zero]
  · rw [if_neg (not_le.mpr h), if_neg (not_lt.mpr h.le)]

/-! ## The nested maximum is the supremum -/

theorem mx_eq_iSup (l : Fin 8 → EReal) : mx l = ⨆ n, l n := by
  refine eq_of_forall_ge_iff fun z => ?_
  rw [iSup_le_iff]
  unfold mx
  simp only [max_le_iff]
  constructor
  · rintro ⟨⟨⟨⟨⟨⟨⟨h0, h1⟩, h2⟩, h3⟩, h4⟩, h5⟩, h6⟩, h7⟩ n
    fin_cases n
    · exact h0
    · exact h1
    · exact h2
    · exact h3
    · exact h4
    · exact h5
    · exact h6
    · exact h7
  · intro h
    exact ⟨⟨⟨⟨⟨⟨⟨h 0, h 1⟩, h 2⟩, h 3⟩, h 4⟩, h 5⟩, h 6⟩, h 7⟩

theorem rex_eq (l : Fin 8 → EReal) (n : Fin 8) : rex l n = ex l n := by
  unfold rex ex; rw [mx_eq_iSup]

theorem rZ_eq (l : Fin 8 → EReal) : rZ l = Z l := by
  unfold rZ Z
  rw [Fin.sum_univ_eight]
  simp only [rex_eq]

/-! ## A real score keeps the normaliser away from zero -/

theorem exp_nonneg (x : EReal) : 0 ≤ Ideal.exp x := by
  induction x using EReal.rec with
  | bot => rw [Ideal.exp_bot]
  | coe r => rw [Ideal.exp_coe]; exact EReal.coe_nonneg.mpr (Real.exp_pos r).le
  | top => rw [Ideal.exp_top]; exact le_top

theorem mx_mem (l : Fin 8 → EReal) : ∃ n, mx l = l n := by
  unfold mx
  have key : ∀ (a b : EReal), max a b = a ∨ max a b = b := fun a b => max_choice a b
  rcases key (max (max (max (max (max (max (l 0) (l 1)) (l 2)) (l 3)) (l 4)) (l 5)) (l 6)) (l 7) with h | h
  · rw [h]
    rcases key (max (max (max (max (max (l 0) (l 1)) (l 2)) (l 3)) (l 4)) (l 5)) (l 6) with h | h
    · rw [h]
      rcases key (max (max (max (max (l 0) (l 1)) (l 2)) (l 3)) (l 4)) (l 5) with h | h
      · rw [h]
        rcases key (max (max (max (l 0) (l 1)) (l 2)) (l 3)) (l 4) with h | h
        · rw [h]
          rcases key (max (max (l 0) (l 1)) (l 2)) (l 3) with h | h
          · rw [h]
            rcases key (max (l 0) (l 1)) (l 2) with h | h
            · rw [h]
              rcases key (l 0) (l 1) with h | h
              · exact ⟨0, h⟩
              · exact ⟨1, h⟩
            · exact ⟨2, h⟩
          · exact ⟨3, h⟩
        · exact ⟨4, h⟩
      · exact ⟨5, h⟩
    · exact ⟨6, h⟩
  · exact ⟨7, h⟩

theorem Z_pos (l : Fin 8 → EReal) (hl : ∀ n, IsReal (l n)) : 0 < Z l := by
  obtain ⟨n₀, hn₀⟩ := mx_mem l
  have h1 : ex l n₀ = 1 := by
    unfold ex
    rw [hn₀]
    obtain ⟨r, hr⟩ := hl n₀
    rw [hr, ← EReal.coe_sub, sub_self, Ideal.exp_coe, Real.exp_zero, EReal.coe_one]
  have hle : ex l n₀ ≤ ∑ n : Fin 8, ex l n :=
    Finset.single_le_sum (f := fun n => ex l n) (fun n _ => exp_nonneg _) (Finset.mem_univ n₀)
  have hZ : Z l = ∑ n : Fin 8, ex l n := by
    unfold Z; rw [Fin.sum_univ_eight]
  rw [hZ]
  exact lt_of_lt_of_le (by rw [h1]; exact zero_lt_one) hle

theorem mx_real (l : Fin 8 → EReal) (hl : ∀ n, IsReal (l n)) : IsReal (mx l) := by
  obtain ⟨n, hn⟩ := mx_mem l
  rw [hn]; exact hl n

theorem ex_real (l : Fin 8 → EReal) (hl : ∀ n, IsReal (l n)) (n : Fin 8) : IsReal (ex l n) :=
  IsReal.exp ((hl n).sub (mx_real l hl))

theorem Z_real (l : Fin 8 → EReal) (hl : ∀ n, IsReal (l n)) : IsReal (Z l) := by
  have hZ : Z l = ∑ n : Fin 8, ex l n := by
    unfold Z; rw [Fin.sum_univ_eight]
  rw [hZ]
  exact IsReal.sum_univ _ (ex_real l hl)

/-! ## The weight: a quotient is the product with the reciprocal -/

theorem rwgt_eq (l : Fin 8 → EReal) (hl : ∀ n, IsReal (l n)) (n : Fin 8) : rwgt l n = wgt l n := by
  unfold rwgt wgt
  rw [rZ_eq, rex_eq]
  have hz : Z l ≠ 0 := (Z_pos l hl).ne'
  unfold Ideal.div
  rw [if_neg hz, if_neg hz, cOne_eq, one_mul]

theorem wgt_real (l : Fin 8 → EReal) (hl : ∀ n, IsReal (l n)) (n : Fin 8) : IsReal (wgt l n) := by
  unfold wgt
  refine (ex_real l hl n).mul (IsReal.div ?_ (Z_real l hl) (Z_pos l hl).ne')
  rw [cOne_eq]; exact isReal_one

/-! ## Exchanging the sums over heads and paths -/

theorem mul_sum_real {ι : Type*} [Fintype ι] (c : EReal) (f : ι → EReal) (hc : IsReal c) (hf : ∀ i, IsReal (f i)) :
    c * ∑ i, f i = ∑ i, c * f i := by
  obtain ⟨r, rfl⟩ := hc
  choose g hg using hf
  obtain rfl : f = fun i => (g i : EReal) := funext hg
  rw [← coe_sum, ← EReal.coe_mul, Finset.mul_sum, coe_sum]
  refine Finset.sum_congr rfl fun i _ => ?_
  rw [EReal.coe_mul]

theorem comb_eq_sum (L : Fin 8 → Fin 4 → EReal) (k : Fin 8 → Fin 128 → EReal) (d : Fin 128) :
    comb L k d = ∑ n : Fin 8, k n d * sn L n := by
  unfold comb
  rw [Fin.sum_univ_eight, zero_add]

theorem rcomb_eq (L : Fin 8 → Fin 4 → EReal) (k : Fin 8 → Fin 128 → EReal) (d : Fin 128)
    (hL : ∀ n h, IsReal (L n h)) (hk : ∀ n d, IsReal (k n d)) : rcomb L k d = comb L k d := by
  rw [comb_eq_sum]
  unfold rcomb sn
  rw [Finset.sum_comm]
  refine Finset.sum_congr rfl fun n _ => ?_
  rw [mul_sum_real _ _ (hk n d) (fun h => wgt_real _ (fun n' => hL n' h) n)]
  refine Finset.sum_congr rfl fun h _ => ?_
  rw [rwgt_eq _ (fun n' => hL n' h), mul_comm]

/-! ## Dividing by the standard deviation is multiplying by its reciprocal -/

theorem mul_rsqrt_eq_div_sqrt (a v : EReal) (hv : 0 < v) : a * Ideal.rsqrt v = Ideal.div a (Ideal.sqrt v) := by
  induction v using EReal.rec with
  | bot => exact absurd hv (by simp)
  | coe r =>
    have hr : 0 < r := EReal.coe_pos.mp hv
    have hs : Real.sqrt r ≠ 0 := (Real.sqrt_pos.mpr hr).ne'
    rw [Ideal.rsqrt_coe, if_neg (not_lt.mpr hr.le), if_neg hr.ne', Ideal.sqrt_coe, if_neg (not_lt.mpr hr.le)]
    unfold Ideal.div
    rw [if_neg (by exact_mod_cast hs), EReal.coe_inv]
  | top =>
    rw [Ideal.rsqrt_top, Ideal.sqrt_top]
    unfold Ideal.div
    rw [if_neg EReal.top_ne_zero, EReal.inv_top]

theorem var_nonneg (x : Fin 128 → EReal) : 0 ≤ var x := by
  unfold var mean
  rw [c128_eq, Ideal.div_coe (by norm_num : (128 : ℝ) ≠ 0)]
  refine EReal.mul_nonneg (Finset.sum_nonneg fun d _ => ScaledSum.mul_self_nonneg _) ?_
  exact EReal.coe_nonneg.mpr (by norm_num)

theorem var_eps_pos (x : Fin 128 → EReal) : 0 < var x + cEps :=
  lt_of_lt_of_le cEps_pos (le_add_of_nonneg_left (var_nonneg x))

theorem rlnorm_eq (g β x : Fin 128 → EReal) : rlnorm g β x = lnorm g β x := by
  funext d
  unfold rlnorm lnorm
  rw [mul_rsqrt_eq_div_sqrt _ _ (var_eps_pos x)]

/-! ## The rectified scores of real inputs are real -/

theorem score_real (aq ak : Fin 128 → Fin 4 → EReal) (q kn : Fin 128 → EReal) (h : Fin 4)
    (haq : ∀ d h, IsReal (aq d h)) (hak : ∀ d h, IsReal (ak d h)) (hq : ∀ d, IsReal (q d)) (hkn : ∀ d, IsReal (kn d)) :
    IsReal (score aq ak q kn h) := by
  unfold score
  exact (IsReal.sum_univ _ fun d => (haq d h).mul (hq d)).add (IsReal.sum_univ _ fun d => (hak d h).mul (hkn d))

theorem leaky_real (s : EReal) (hs : IsReal s) : IsReal (leaky s) := by
  unfold leaky
  split
  · exact hs
  · exact cSlope_real.mul hs

/-! ## The two arrangements agree on real inputs -/

theorem rcolOut_eq (a : Fin 256 → Fin 4 → EReal) (q : Fin 128 → EReal) (k : Fin 8 → Fin 128 → EReal)
    (g1 b1 : Fin 128 → EReal) (W : Fin 128 → Fin 128 → EReal) (pb g2 b2 : Fin 128 → EReal)
    (ha : ∀ j h, IsReal (a j h)) (hq : ∀ d, IsReal (q d)) (hk : ∀ n d, IsReal (k n d)) :
    rcolOut a q k g1 b1 W pb g2 b2
      = colOut (fun d h => a ⟨d.val, by omega⟩ h) (fun d h => a ⟨128 + d.val, by omega⟩ h) q k g1 b1 W pb g2 b2 := by
  unfold rcolOut colOut
  rw [rlnorm_eq, rlnorm_eq]
  have hlk : rlk a q k = lk (fun d h => a ⟨d.val, by omega⟩ h) (fun d h => a ⟨128 + d.val, by omega⟩ h) q k := by
    funext n h
    unfold rlk lk
    rw [rleaky_eq, rscore_eq]
  have hL : ∀ n h, IsReal (lk (fun d h => a ⟨d.val, by omega⟩ h) (fun d h => a ⟨128 + d.val, by omega⟩ h) q k n h) :=
    fun n h => leaky_real _ (score_real _ _ _ _ _ (fun d h => ha _ h) (fun d h => ha _ h) hq (hk n))
  have hpre : rpre (rlk a q k) k q
      = pre (lk (fun d h => a ⟨d.val, by omega⟩ h) (fun d h => a ⟨128 + d.val, by omega⟩ h) q k) k q := by
    funext d
    unfold rpre pre
    rw [hlk, rcomb_eq _ _ _ hL hk]
  rw [hpre]

end Cert.Spec

end
-- ==== Proof.RefTools.lean ====
/-
  Small reading lemmas for host operations on the extended reals: the pointwise operations at an index, a scalar
  constant spread over an array, and a contraction over one axis as a sum over that axis's coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RefTools

open Idealize.ShloMosaic Idealize.ShloMosaic.ValueIdx
open scoped BigOperators

theorem addf_at {s : Shape} (x y : FVec Ideal s .f32) (i : s.Idx) : addf x y i = x i + y i := rfl
theorem subf_at {s : Shape} (x y : FVec Ideal s .f32) (i : s.Idx) : subf x y i = x i - y i := rfl
theorem mulf_at {s : Shape} (x y : FVec Ideal s .f32) (i : s.Idx) : mulf x y i = x i * y i := rfl
theorem maximumf_at {s : Shape} (x y : FVec Ideal s .f32) (i : s.Idx) : maximumf x y i = max (x i) (y i) := rfl
theorem hostDivf_at {s : Shape} (x y : FVec Ideal s .f32) (i : s.Idx) : Host.divf x y i = Ideal.div (x i) (y i) := rfl
theorem hostSqrt_at {s : Shape} (x : FVec Ideal s .f32) (i : s.Idx) : Host.sqrt x i = Ideal.sqrt (x i) := rfl
theorem hostExp_at {s : Shape} (x : FVec Ideal s .f32) (i : s.Idx) : Host.exp x i = Ideal.exp (x i) := rfl

/-- A scalar constant spread over an array reads its value at every index. -/
theorem splatConst_apply {s : Shape} (w : BitVec 32) (dims : Fin (⟨0, ![]⟩ : Shape).rank → Fin s.rank)
    (g0 : (⟨0, ![]⟩ : Shape).BroadcastsInDim s dims) (i : s.Idx) :
    broadcastInDim s dims g0 (constant (F := Ideal) ⟨0, ![]⟩ .f32 w) i = Ideal.ofBits .f32 w :=
  broadcastInDim_apply dims g0 _ i ix0 (fun a => a.elim0)

/-- The host's product contracting ONE axis of extent K reads, at j, the sum over that axis's coordinate of the
    operands' entries at the indices the dimension numbers name. -/
theorem dot1_apply {sl sr so : Shape} (d : DotDims sl sr so) (K : ℕ) (hr : d.contr.rank = 1)
    (hs : d.contr.size ⟨0, by omega⟩ = K) (lhs : FVec Ideal sl .f32) (rhs : FVec Ideal sr .f32) (j : so.Idx)
    (L R : Fin K → EReal)
    (hl : ∀ c : Fin K, lhs (d.lhsIdx j ((contrEquiv1 d K hr hs).symm c)) = L c)
    (hR : ∀ c : Fin K, rhs (d.rhsIdx j ((contrEquiv1 d K hr hs).symm c)) = R c) :
    Host.dotGeneral d none lhs rhs j = ∑ c : Fin K, L c * R c := by
  show FloatOps.dotGeneral d none .single lhs rhs j = _
  rw [Ideal.dotGeneral_apply, ← Equiv.sum_comp (contrEquiv1 d K hr hs).symm]
  exact Finset.sum_congr rfl fun c _ => by rw [hl c, hR c]

end Cert.RefTools

end
-- ==== Proof.RefScores.lean ====
/-
  The reference's scores, read at an entry: at (n, b, h) the concatenated column [query; key n] of batch column b
  against column h of the 256 x 4 attention matrix.
-/
import proofs.«165610_j52828097741217_2_alg».proof.Proof.RefStages
import proofs.«165610_j52828097741217_2_alg».proof.Proof.RefSpec
import proofs.«165610_j52828097741217_2_alg».proof.Proof.RefTools

noncomputable section

namespace Cert.ReferenceIdeal.Hand

open Idealize.ShloMosaic Idealize.ShloMosaic.ValueIdx
open Cert.Spec Cert.RefTools
open Cert.ReferenceIdeal Cert.ReferenceIdeal.Facts₀ Cert.ReferenceIdeal.Facts
open scoped BigOperators

variable [Facts]

/-- The query repeated over the paths, at (n, j, b): the query's entry (0, j, b). -/
theorem queryStack_apply (a0 : FVec Ideal S1x128x65536 .f32) (n : Fin 8) (j : Fin 128) (b : Fin 65536) :
    broadcastInDim S8x128x65536 ![1, 2] bcast_S128x65536_S8x128x65536_1_2
        (shapeCast S128x65536 a0 shapeCasts_S1x128x65536_S128x65536) (ix3 n j b) = a0 (ix3 (0 : Fin 1) j b) := by
  rw [broadcastInDim_apply _ bcast_S128x65536_S8x128x65536_1_2 _ (ix3 n j b) (ix2 j b)
    (fun ax => match ax with | ⟨0, _⟩ => rfl | ⟨1, _⟩ => rfl), shapeCast_1ab_ab_apply]

/-- The stacked array at (n, j, b): the query for j < 128, key n at j - 128 otherwise. -/
theorem stacked_apply (v1 a1 : FVec Ideal S8x128x65536 .f32) (n : Fin 8) (j : Fin 256) (b : Fin 65536) :
    concatenate S8x256x65536 1 [⟨S8x128x65536, v1⟩, ⟨S8x128x65536, a1⟩] concatenates_S8x128x65536_S8x128x65536_S8x256x65536_d1 (ix3 n j b)
      = if h : j.val < 128 then v1 (ix3 n (⟨j.val, h⟩ : Fin 128) b) else a1 (ix3 n (⟨j.val - 128, by omega⟩ : Fin 128) b) := by
  by_cases h : j.val < 128
  · rw [dif_pos h]
    exact concatenate_pair_apply_left (1 : Fin 3) v1 a1 concatenates_S8x128x65536_S8x128x65536_S8x256x65536_d1 (ix3 n j b) rfl
      (ix3 n (⟨j.val, h⟩ : Fin 128) b) (fun bb => match bb with | ⟨0, _⟩ => rfl | ⟨1, _⟩ => rfl | ⟨2, _⟩ => rfl)
  · rw [dif_neg h]
    exact concatenate_pair_apply_right (1 : Fin 3) v1 a1 concatenates_S8x128x65536_S8x128x65536_S8x256x65536_d1 (ix3 n j b) rfl rfl
      (ix3 n (⟨j.val - 128, by omega⟩ : Fin 128) b)
      (fun bb hne => match bb, hne with
        | ⟨0, _⟩, _ => rfl
        | ⟨1, _⟩, hne => absurd rfl hne
        | ⟨2, _⟩, _ => rfl)
      (by show j.val - 128 + 128 = j.val; omega)

/-- The scores at (n, b, h). -/
theorem stScores_apply (a0 : FVec Ideal S1x128x65536 .f32) (a1 : FVec Ideal S8x128x65536 .f32) (a2 : FVec Ideal S256x4 .f32)
    (n : Fin 8) (b : Fin 65536) (h : Fin 4) :
    stScores (F := Ideal) a0 a1 a2 (ix3 n b h)
      = rscore (fun j h' => a2 (ix2 j h')) (fun d => a0 (ix3 (0 : Fin 1) d b)) (fun d => a1 (ix3 n d b)) h := by
  unfold stScores rscore
  refine dot1_apply dot_S8x65536x256_S256x4_S8x65536x4_2_0_01_1_n_n 256 rfl rfl _ a2 (ix3 n b h) _ _ (fun j => ?_) (fun j => ?_)
  · have e : dot_S8x65536x256_S256x4_S8x65536x4_2_0_01_1_n_n.lhsIdx (ix3 n b h)
        ((contrEquiv1 dot_S8x65536x256_S256x4_S8x65536x4_2_0_01_1_n_n 256 rfl rfl).symm j) = ix3 n b j := by
      funext ax; apply Fin.ext
      match ax with
      | ⟨0, _⟩ => simp [DotDims.lhsIdx, dot_S8x65536x256_S256x4_S8x65536x4_2_0_01_1_n_n]; rfl
      | ⟨1, _⟩ => simp [DotDims.lhsIdx, dot_S8x65536x256_S256x4_S8x65536x4_2_0_01_1_n_n]; rfl
      | ⟨2, _⟩ =>
        exact (DotDims.lhsIdx_val_of_single _ (cl := (2 : Fin 3)) rfl _ _).trans
          (contrEquiv1_symm_val dot_S8x65536x256_S256x4_S8x65536x4_2_0_01_1_n_n 256 rfl rfl j)
    rw [e, transpose_ix3_021_apply, stacked_apply]
    unfold cat
    by_cases hj : j.val < 128
    · rw [dif_pos hj, dif_pos hj, queryStack_apply]
    · rw [dif_neg hj, dif_neg hj]
  · refine congrArg a2 (funext fun ax => Fin.ext ?_)
    match ax with
    | ⟨0, _⟩ =>
      exact (DotDims.rhsIdx_val_of_single _ (cr := (0 : Fin 2)) rfl _ _).trans
        (contrEquiv1_symm_val dot_S8x65536x256_S256x4_S8x65536x4_2_0_01_1_n_n 256 rfl rfl j)
    | ⟨1, _⟩ => simp [DotDims.rhsIdx, dot_S8x65536x256_S256x4_S8x65536x4_2_0_01_1_n_n]; rfl

end Cert.ReferenceIdeal.Hand

end
-- ==== Proof.LibMaxReduce.lean ====
/-
  Maximum reductions over one axis, on the extended reals (the twin of the minimum statements).

  * `fold_max_bot`: folding `max` from the bottom element over all of a finite type gives the supremum of the family
    (both are characterised by: the result is below `z` iff every member is below `z`).
  * `ofBits_neg_inf`: the f32 pattern of `-∞` is the bottom extended real.
  * `multiReduction_maximumf_sup`: a vector max-reduction over one axis from the accumulator `-∞`, read with exact
    values, is at each result index the supremum over that axis's coordinates.
-/
import Idealize.ShloMosaic.PureOps.Ideal.Laws

noncomputable section

namespace Cert.LibMaxReduce

open Idealize.ShloMosaic

/-- Folding `max` from `⊥` over a whole finite type is the supremum of the family. -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of `-∞` is the bottom extended real. -/
theorem ofBits_neg_inf : Ideal.ofBits .f32 0xFF800000#32 = (⊥ : EReal) := by
  simp [Ideal.ofBits, Ideal.ieee]

/-- From the accumulator `-∞` (f32), a max-reduction over one axis is the supremum over that axis's coordinates. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [Ideal.multiReduction_maximumf_single]
  show (Finset.univ : Finset (Fin (s.size a))).fold max (Ideal.ofBits .f32 0xFF800000#32) (src ∘ h.lift j) = _
  rw [ofBits_neg_inf, fold_max_bot]
  rfl

end Cert.LibMaxReduce

end
-- ==== Proof.RefSoftmax.lean ====
/-
  The reference's leaky rectifier and its soft-max over the eight paths, read at an entry.

  The soft-max is stated for any batch and head extents: at (n, b, h) it is the quotient of the exponential of the
  entry less the supremum over the paths by the sum over the paths of those exponentials.
-/
import proofs.«165610_j52828097741217_2_alg».proof.Proof.RefStages
import proofs.«165610_j52828097741217_2_alg».proof.Proof.RefSpec
import proofs.«165610_j52828097741217_2_alg».proof.Proof.RefTools
import proofs.«165610_j52828097741217_2_alg».proof.Proof.LibMaxReduce

noncomputable section

namespace Cert.ReferenceIdeal.Hand

open Idealize.ShloMosaic Idealize.ShloMosaic.ValueIdx
open Cert.Spec Cert.RefTools Cert.LibMaxReduce
open scoped BigOperators

variable {α : Type}

/-! ## Layout -/

/-- An [a, b] array given a leading unit axis reads, at (0, i, j), the array at (i, j). -/
theorem leadUnit_apply {a b : ℕ} (x : (⟨2, ![a, b]⟩ : Shape).Idx → α)
    (g : (⟨2, ![a, b]⟩ : Shape).BroadcastsInDim ⟨3, ![1, a, b]⟩ ![1, 2]) (u : Fin 1) (i : Fin a) (j : Fin b) :
    broadcastInDim ⟨3, ![1, a, b]⟩ ![1, 2] g x (ix3 u i j) = x (ix2 i j) := by
  have hi : i.val = if a = 1 then 0 else i.val := by
    split
    · have := i.isLt; omega
    · rfl
  have hj : j.val = if b = 1 then 0 else j.val := by
    split
    · have := j.isLt; omega
    · rfl
  exact broadcastInDim_apply _ g x (ix3 u i j) (ix2 i j) fun ax =>
    match ax with
    | ⟨0, _⟩ => hi
    | ⟨1, _⟩ => hj

/-- A [1, a, b] array repeated m times along its leading axis reads, at (k, i, j), the array at (0, i, j). -/
theorem leadSpread_apply {m a b : ℕ} (x : (⟨3, ![1, a, b]⟩ : Shape).Idx → α)
    (g : (⟨3, ![1, a, b]⟩ : Shape).BroadcastsInDim ⟨3, ![m, a, b]⟩ ![0, 1, 2]) (k : Fin m) (i : Fin a) (j : Fin b) :
    broadcastInDim ⟨3, ![m, a, b]⟩ ![0, 1, 2] g x (ix3 k i j) = x (ix3 (0 : Fin 1) i j) := by
  have hi : i.val = if a = 1 then 0 else i.val := by
    split
    · have := i.isLt; omega
    · rfl
  have hj : j.val = if b = 1 then 0 else j.val := by
    split
    · have := j.isLt; omega
    · rfl
  exact broadcastInDim_apply _ g x (ix3 k i j) (ix3 (0 : Fin 1) i j) fun ax =>
    match ax with
    | ⟨0, _⟩ => rfl
    | ⟨1, _⟩ => hi
    | ⟨2, _⟩ => hj

/-- Reducing the leading axis of an [m, a, b] array inserts the coordinate in front. -/
theorem lift_lead {m a b : ℕ} (h : (⟨3, ![m, a, b]⟩ : Shape).Reduces [0] ⟨2, ![a, b]⟩) (i : Fin a) (j : Fin b)
    (k : Fin ((⟨3, ![m, a, b]⟩ : Shape).size 0)) : h.lift (ix2 i j) k = ix3 (k : Fin m) i j := by
  funext c
  apply Fin.ext
  rw [Shape.Reduces.lift_val]
  unfold Shape.Reduces.liftVal
  match c with
  | ⟨0, _⟩ => rfl
  | ⟨1, _⟩ => rfl
  | ⟨2, _⟩ => rfl

/-- The host's sum over the leading axis from zero, at (i, j). -/
theorem hostLeadSum_apply {m a b : ℕ} (Z : FVec Ideal ⟨3, ![m, a, b]⟩ .f32)
    (h' : (⟨3, ![m, a, b]⟩ : Shape).ReducesTo [0] ⟨2, ![a, b]⟩) (h : (⟨3, ![m, a, b]⟩ : Shape).Reduces [0] ⟨2, ![a, b]⟩)
    (hu : 0 < (⟨0, ![]⟩ : Shape).numel) (i : Fin a) (j : Fin b) :
    Host.reduceAdd Z (constant ⟨0, ![]⟩ .f32 0x00000000#32) h' hu (ix2 i j) = ∑ k : Fin m, Z (ix3 k i j) := by
  show Ideal.hostReduceAdd h' Z (Ideal.ofBits .f32 0x00000000#32) (ix2 i j) = _
  rw [Ideal.hostReduceAdd_single h' h, Ideal.ofBits_zero_f32, zero_add]
  exact Finset.sum_congr rfl fun k _ => congrArg Z (lift_lead h i j k)

/-- The host's maximum over the leading axis from -inf, at (i, j): the supremum. -/
theorem hostLeadMax_apply {m a b : ℕ} (Z : FVec Ideal ⟨3, ![m, a, b]⟩ .f32)
    (h' : (⟨3, ![m, a, b]⟩ : Shape).ReducesTo [0] ⟨2, ![a, b]⟩) (h : (⟨3, ![m, a, b]⟩ : Shape).Reduces [0] ⟨2, ![a, b]⟩)
    (hu : 0 < (⟨0, ![]⟩ : Shape).numel) (i : Fin a) (j : Fin b) :
    Host.reduce FloatOps.maximumf Z (constant ⟨0, ![]⟩ .f32 0xFF800000#32) h' hu (ix2 i j) = ⨆ k : Fin m, Z (ix3 k i j) := by
  rw [Host.reduce_eq_fold_single FloatOps.maximumf Z _ h' h hu (ix2 i j)]
  have e : (Z ∘ h.lift (ix2 i j)) = fun k : Fin m => Z (ix3 k i j) := funext fun k => congrArg Z (lift_lead h i j k)
  rw [e]
  show (Finset.univ : Finset (Fin m)).fold max (Ideal.ofBits .f32 0xFF800000#32) (fun k => Z (ix3 k i j)) = _
  rw [ofBits_neg_inf, fold_max_bot]

/-! ## The leaky rectifier -/

theorem select_oge (x a b : EReal) : Scalar.select (Ideal.cmp .oge x 0) a b = if 0 ≤ x then a else b := by
  unfold Ideal.cmp
  by_cases h : 0 ≤ x
  · rw [if_pos h]
    have : decide (0 ≤ x) = true := decide_eq_true h
    simp only [this]
    exact select_one a b
  · rw [if_neg h]
    have : decide (0 ≤ x) = false := decide_eq_false h
    simp only [this]
    exact select_zero a b

/-! ## The soft-max over the leading axis of eight -/

/-- The host's soft-max chain over the eight paths of a [8, B, H] array. -/
def hostSoftmax {B H : ℕ}
    (gI : (⟨0, ![]⟩ : Shape).BroadcastsInDim ⟨2, ![B, H]⟩ ![])
    (g1 : (⟨2, ![B, H]⟩ : Shape).BroadcastsInDim ⟨3, ![1, B, H]⟩ ![1, 2])
    (g2 : (⟨3, ![1, B, H]⟩ : Shape).BroadcastsInDim ⟨3, ![8, B, H]⟩ ![0, 1, 2])
    (h' : (⟨3, ![8, B, H]⟩ : Shape).ReducesTo [0] ⟨2, ![B, H]⟩) (hu : 0 < (⟨0, ![]⟩ : Shape).numel)
    (v5 : FVec Ideal ⟨3, ![8, B, H]⟩ .f32) : FVec Ideal ⟨3, ![8, B, H]⟩ .f32 :=
  Host.divf
    (Host.exp (subf v5 (broadcastInDim ⟨3, ![8, B, H]⟩ ![0, 1, 2] g2 (broadcastInDim ⟨3, ![1, B, H]⟩ ![1, 2] g1
      (maximumf (broadcastInDim ⟨2, ![B, H]⟩ ![] gI (constant (F := Ideal) ⟨0, ![]⟩ .f32 0xFF800000#32))
        (Host.reduce FloatOps.maximumf v5 (constant (F := Ideal) ⟨0, ![]⟩ .f32 0xFF800000#32) h' hu))))))
    (broadcastInDim ⟨3, ![8, B, H]⟩ ![0, 1, 2] g2 (broadcastInDim ⟨3, ![1, B, H]⟩ ![1, 2] g1
      (Host.reduceAdd
        (Host.exp (subf v5 (broadcastInDim ⟨3, ![8, B, H]⟩ ![0, 1, 2] g2 (broadcastInDim ⟨3, ![1, B, H]⟩ ![1, 2] g1
          (maximumf (broadcastInDim ⟨2, ![B, H]⟩ ![] gI (constant (F := Ideal) ⟨0, ![]⟩ .f32 0xFF800000#32))
            (Host.reduce FloatOps.maximumf v5 (constant (F := Ideal) ⟨0, ![]⟩ .f32 0xFF800000#32) h' hu))))))
        (constant (F := Ideal) ⟨0, ![]⟩ .f32 0x00000000#32) h' hu)))

/-- The shifted exponential of the chain at (n, b, h). -/
theorem hostShiftExp_apply {B H : ℕ}
    (gI : (⟨0, ![]⟩ : Shape).BroadcastsInDim ⟨2, ![B, H]⟩ ![])
    (g1 : (⟨2, ![B, H]⟩ : Shape).BroadcastsInDim ⟨3, ![1, B, H]⟩ ![1, 2])
    (g2 : (⟨3, ![1, B, H]⟩ : Shape).BroadcastsInDim ⟨3, ![8, B, H]⟩ ![0, 1, 2])
    (h' : (⟨3, ![8, B, H]⟩ : Shape).ReducesTo [0] ⟨2, ![B, H]⟩) (h : (⟨3, ![8, B, H]⟩ : Shape).Reduces [0] ⟨2, ![B, H]⟩)
    (hu : 0 < (⟨0, ![]⟩ : Shape).numel) (v5 : FVec Ideal ⟨3, ![8, B, H]⟩ .f32) (n : Fin 8) (b : Fin B) (hh : Fin H) :
    Host.exp (subf v5 (broadcastInDim ⟨3, ![8, B, H]⟩ ![0, 1, 2] g2 (broadcastInDim ⟨3, ![1, B, H]⟩ ![1, 2] g1
      (maximumf (broadcastInDim ⟨2, ![B, H]⟩ ![] gI (constant (F := Ideal) ⟨0, ![]⟩ .f32 0xFF800000#32))
        (Host.reduce FloatOps.maximumf v5 (constant (F := Ideal) ⟨0, ![]⟩ .f32 0xFF800000#32) h' hu))))) (ix3 n b hh)
      = rex (fun n' => v5 (ix3 n' b hh)) n := by
  unfold rex
  rw [hostExp_at, subf_at, leadSpread_apply, leadUnit_apply, maximumf_at, splatConst_apply, hostLeadMax_apply _ h' h hu,
    ofBits_neg_inf, max_eq_right bot_le]

theorem hostSoftmax_apply {B H : ℕ}
    (gI : (⟨0, ![]⟩ : Shape).BroadcastsInDim ⟨2, ![B, H]⟩ ![])
    (g1 : (⟨2, ![B, H]⟩ : Shape).BroadcastsInDim ⟨3, ![1, B, H]⟩ ![1, 2])
    (g2 : (⟨3, ![1, B, H]⟩ : Shape).BroadcastsInDim ⟨3, ![8, B, H]⟩ ![0, 1, 2])
    (h' : (⟨3, ![8, B, H]⟩ : Shape).ReducesTo [0] ⟨2, ![B, H]⟩) (h : (⟨3, ![8, B, H]⟩ : Shape).Reduces [0] ⟨2, ![B, H]⟩)
    (hu : 0 < (⟨0, ![]⟩ : Shape).numel) (v5 : FVec Ideal ⟨3, ![8, B, H]⟩ .f32) (n : Fin 8) (b : Fin B) (hh : Fin H) :
    hostSoftmax gI g1 g2 h' hu v5 (ix3 n b hh) = rwgt (fun n' => v5 (ix3 n' b hh)) n := by
  unfold hostSoftmax rwgt rZ
  rw [hostDivf_at, hostShiftExp_apply gI g1 g2 h' h hu, leadSpread_apply, leadUnit_apply, hostLeadSum_apply _ h' h hu]
  refine congrArg (fun s => Ideal.div (rex (fun n' => v5 (ix3 n' b hh)) n) s) ?_
  exact Finset.sum_congr rfl fun k _ => hostShiftExp_apply gI g1 g2 h' h hu v5 k b hh

/-! ## The program's stages -/

open Cert.ReferenceIdeal Cert.ReferenceIdeal.Facts₀ Cert.ReferenceIdeal.Facts

variable [Facts]

theorem paths_reduces : S8x65536x4.Reduces [0] S65536x4 := by decide

theorem stSoftmax_apply (v5 : FVec Ideal S8x65536x4 .f32) (n : Fin 8) (b : Fin 65536) (h : Fin 4) :
    stSoftmax (F := Ideal) v5 (ix3 n b h) = rwgt (fun n' => v5 (ix3 n' b h)) n :=
  hostSoftmax_apply (B := 65536) (H := 4) bcast_S_S65536x4 bcast_S65536x4_S1x65536x4_1_2 bcast_S1x65536x4_S8x65536x4_0_1_2
    reducesTo_S8x65536x4_S65536x4_d0 paths_reduces h_S_ v5 n b h

theorem stLeaky_apply (v4 : FVec Ideal S8x65536x4 .f32) (i : S8x65536x4.Idx) :
    stLeaky (F := Ideal) v4 i = rleaky (v4 i) := by
  unfold stLeaky rleaky
  simp only [id]
  rw [select_apply, cmpf_apply, mulf_at, splatConst_apply, splatConst_apply, Ideal.cmpf_def, Ideal.ofBits_zero_f32, select_oge]

end Cert.ReferenceIdeal.Hand

end
-- ==== Proof.RefMix.lean ====
/-
  The reference's mixing of the keys, read at an entry: at (b, d) the soft-max weights of batch column b are
  contracted against the keys' feature d over the eight paths, head by head; the four heads are added from zero,
  the sum is scaled by a quarter and rectified.
-/
import proofs.«165610_j52828097741217_2_alg».proof.Proof.RefStages
import proofs.«165610_j52828097741217_2_alg».proof.Proof.RefSpec
import proofs.«165610_j52828097741217_2_alg».proof.Proof.RefTools

noncomputable section

namespace Cert.ReferenceIdeal.Hand

open Idealize.ShloMosaic Idealize.ShloMosaic.ValueIdx
open Cert.Spec Cert.RefTools
open scoped BigOperators

/-- Reducing the middle axis of an [a, m, c] array inserts the coordinate in the middle. -/
theorem lift_mid {a m c : ℕ} (h : (⟨3, ![a, m, c]⟩ : Shape).Reduces [1] ⟨2, ![a, c]⟩) (i : Fin a) (j : Fin c)
    (k : Fin ((⟨3, ![a, m, c]⟩ : Shape).size 1)) : h.lift (ix2 i j) k = ix3 i (k : Fin m) j := by
  funext ax
  apply Fin.ext
  rw [Shape.Reduces.lift_val]
  unfold Shape.Reduces.liftVal
  match ax with
  | ⟨0, _⟩ => rfl
  | ⟨1, _⟩ => rfl
  | ⟨2, _⟩ => rfl

/-- The host's sum over the middle axis from zero, at (i, j). -/
theorem hostMidSum_apply {a m c : ℕ} (Z : FVec Ideal ⟨3, ![a, m, c]⟩ .f32)
    (h' : (⟨3, ![a, m, c]⟩ : Shape).ReducesTo [1] ⟨2, ![a, c]⟩) (h : (⟨3, ![a, m, c]⟩ : Shape).Reduces [1] ⟨2, ![a, c]⟩)
    (hu : 0 < (⟨0, ![]⟩ : Shape).numel) (i : Fin a) (j : Fin c) :
    Host.reduceAdd Z (constant ⟨0, ![]⟩ .f32 0x00000000#32) h' hu (ix2 i j) = ∑ k : Fin m, Z (ix3 i k j) := by
  show Ideal.hostReduceAdd h' Z (Ideal.ofBits .f32 0x00000000#32) (ix2 i j) = _
  rw [Ideal.hostReduceAdd_single h' h, Ideal.ofBits_zero_f32, zero_add]
  exact Finset.sum_congr rfl fun k _ => congrArg Z (lift_mid h i j k)

open Cert.ReferenceIdeal Cert.ReferenceIdeal.Facts₀ Cert.ReferenceIdeal.Facts

variable [Facts]

theorem heads_reduces : S65536x4x128.Reduces [1] S65536x128 := by decide

/-- The weights contracted against the keys over the eight paths, at (b, h, d). -/
theorem mixDot_apply (v16 : FVec Ideal S8x65536x4 .f32) (a1 : FVec Ideal S8x128x65536 .f32) (b : Fin 65536) (h : Fin 4) (d : Fin 128) :
    Host.dotGeneral dot_S65536x4x8_S65536x8x128_S65536x4x128_2_1_1_2_0_0 none
        (transpose S65536x4x8 [1, 2, 0] v16 transposes_S8x65536x4_S65536x4x8_1_2_0)
        (transpose S65536x8x128 [2, 0, 1] a1 transposes_S8x128x65536_S65536x8x128_2_0_1) (ix3 b h d)
      = ∑ n : Fin 8, v16 (ix3 n b h) * a1 (ix3 n d b) := by
  refine dot1_apply dot_S65536x4x8_S65536x8x128_S65536x4x128_2_1_1_2_0_0 8 rfl rfl _ _ (ix3 b h d) _ _ (fun n => ?_) (fun n => ?_)
  · have e : dot_S65536x4x8_S65536x8x128_S65536x4x128_2_1_1_2_0_0.lhsIdx (ix3 b h d)
        ((contrEquiv1 dot_S65536x4x8_S65536x8x128_S65536x4x128_2_1_1_2_0_0 8 rfl rfl).symm n) = ix3 b h n := by
      funext ax; apply Fin.ext
      match ax with
      | ⟨0, _⟩ => simp [DotDims.lhsIdx, dot_S65536x4x8_S65536x8x128_S65536x4x128_2_1_1_2_0_0]; rfl
      | ⟨1, _⟩ => simp [DotDims.lhsIdx, dot_S65536x4x8_S65536x8x128_S65536x4x128_2_1_1_2_0_0]; rfl
      | ⟨2, _⟩ =>
        exact (DotDims.lhsIdx_val_of_single _ (cl := (2 : Fin 3)) rfl _ _).trans
          (contrEquiv1_symm_val dot_S65536x4x8_S65536x8x128_S65536x4x128_2_1_1_2_0_0 8 rfl rfl n)
    rw [e]
    exact transpose_apply _ v16 _ (ix3 b h n) (ix3 n b h) fun c => match c with | ⟨0, _⟩ => rfl | ⟨1, _⟩ => rfl | ⟨2, _⟩ => rfl
  · have e : dot_S65536x4x8_S65536x8x128_S65536x4x128_2_1_1_2_0_0.rhsIdx (ix3 b h d)
        ((contrEquiv1 dot_S65536x4x8_S65536x8x128_S65536x4x128_2_1_1_2_0_0 8 rfl rfl).symm n) = ix3 b n d := by
      funext ax; apply Fin.ext
      match ax with
      | ⟨0, _⟩ => simp [DotDims.rhsIdx, dot_S65536x4x8_S65536x8x128_S65536x4x128_2_1_1_2_0_0]; rfl
      | ⟨1, _⟩ =>
        exact (DotDims.rhsIdx_val_of_single _ (cr := (1 : Fin 3)) rfl _ _).trans
          (contrEquiv1_symm_val dot_S65536x4x8_S65536x8x128_S65536x4x128_2_1_1_2_0_0 8 rfl rfl n)
      | ⟨2, _⟩ => simp [DotDims.rhsIdx, dot_S65536x4x8_S65536x8x128_S65536x4x128_2_1_1_2_0_0]; rfl
    rw [e]
    exact transpose_apply _ a1 _ (ix3 b n d) (ix3 n d b) fun c => match c with | ⟨0, _⟩ => rfl | ⟨1, _⟩ => rfl | ⟨2, _⟩ => rfl

/-- The mixing stage at (b, d). -/
theorem stMix_apply (v16 : FVec Ideal S8x65536x4 .f32) (a1 : FVec Ideal S8x128x65536 .f32) (b : Fin 65536) (d : Fin 128) :
    stMix (F := Ideal) v16 a1 (ix2 b d)
      = max ((∑ h : Fin 4, ∑ n : Fin 8, v16 (ix3 n b h) * a1 (ix3 n d b)) * cQuarter) 0 := by
  unfold stMix
  rw [maximumf_at, mulf_at, splatConst_apply, splatConst_apply, Ideal.ofBits_zero_f32,
    hostMidSum_apply _ reducesTo_S65536x4x128_S65536x128_d1 heads_reduces h_S_ b d]
  refine congrArg (fun s => max (s * cQuarter) 0) ?_
  exact Finset.sum_congr rfl fun h _ => mixDot_apply v16 a1 b h d

end Cert.ReferenceIdeal.Hand

end
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.RefPost.lean ====
/-
  The reference's dense layer with bias and skip, and the skip connection with the query, read at an entry.
  Rows are batch columns here: entry (b, d) of a [65536, 128] array is feature d of batch column b.
-/
import proofs.«165610_j52828097741217_2_alg».proof.Proof.RefStages
import proofs.«165610_j52828097741217_2_alg».proof.Proof.RefSpec
import proofs.«165610_j52828097741217_2_alg».proof.Proof.LibRowWise
import proofs.«165610_j52828097741217_2_alg».proof.Proof.RefTools

noncomputable section

namespace Cert.ReferenceIdeal.Hand

open Idealize.ShloMosaic Idealize.ShloMosaic.ValueIdx
open Cert.Spec Cert.RowWise Cert.RefTools
open Cert.ReferenceIdeal Cert.ReferenceIdeal.Facts₀ Cert.ReferenceIdeal.Facts
open scoped BigOperators

variable [Facts]

/-- The skip connection: the mixed value plus the query, at (b, d). -/
theorem stResid_apply (v23 : FVec Ideal S65536x128 .f32) (a0 : FVec Ideal S1x128x65536 .f32) (b : Fin 65536) (d : Fin 128) :
    stResid (F := Ideal) v23 a0 (ix2 b d) = v23 (ix2 b d) + a0 (ix3 (0 : Fin 1) d b) := by
  unfold stResid
  rw [transpose_ix2_apply, addf_at, transpose_ix2_apply, shapeCast_1ab_ab_apply]

/-- The dense layer with bias and skip, at (b, d): the row of the matrix against the column's entries. -/
theorem stPost_apply (a5 : FVec Ideal S128x128 .f32) (a6 : FVec Ideal S128x1 .f32) (y : FVec Ideal S65536x128 .f32)
    (b : Fin 65536) (d : Fin 128) :
    stPost (F := Ideal) a5 a6 y (ix2 b d)
      = lin (fun d' j => a5 (ix2 d' j)) (fun d' => a6 (ix2 d' (0 : Fin 1))) (fun j => y (ix2 b j)) d := by
  unfold stPost lin
  rw [transpose_ix2_apply, addf_at, addf_at, colSpread_apply, transpose_ix2_apply]
  refine congrArg (fun s => s + a6 (ix2 d (0 : Fin 1)) + y (ix2 b d)) ?_
  refine dot1_apply dot_S128x128_S128x65536_S128x65536_1_0_0_1_n_n 128 rfl rfl a5 _ (ix2 d b) _ _ (fun c => ?_) (fun c => ?_)
  · refine congrArg a5 (funext fun ax => Fin.ext ?_)
    match ax with
    | ⟨0, _⟩ => simp [DotDims.lhsIdx, dot_S128x128_S128x65536_S128x65536_1_0_0_1_n_n]; rfl
    | ⟨1, _⟩ =>
      exact (DotDims.lhsIdx_val_of_single _ (cl := (1 : Fin 2)) rfl _ _).trans (contrEquiv1_symm_val dot_S128x128_S128x65536_S128x65536_1_0_0_1_n_n 128 rfl rfl c)
  · have e : dot_S128x128_S128x65536_S128x65536_1_0_0_1_n_n.rhsIdx (ix2 d b)
        ((contrEquiv1 dot_S128x128_S128x65536_S128x65536_1_0_0_1_n_n 128 rfl rfl).symm c) = ix2 c b := by
      funext ax; apply Fin.ext
      match ax with
      | ⟨0, _⟩ =>
        exact (DotDims.rhsIdx_val_of_single _ (cr := (0 : Fin 2)) rfl _ _).trans (contrEquiv1_symm_val dot_S128x128_S128x65536_S128x65536_1_0_0_1_n_n 128 rfl rfl c)
      | ⟨1, _⟩ => simp [DotDims.rhsIdx, dot_S128x128_S128x65536_S128x65536_1_0_0_1_n_n]; rfl
    rw [e, transpose_ix2_apply]

end Cert.ReferenceIdeal.Hand

end
-- ==== Proof.RefNorm.lean ====
/-
  The reference's layer normalisation of rows, read at an entry: at (a, b) it is the normalisation, in the
  reference's arrangement (a quotient by the standard deviation), of row a, with the gain and offset at b.
  Stated for any number of rows, each of 128 entries.
-/
import proofs.«165610_j52828097741217_2_alg».proof.Proof.RefStages
import proofs.«165610_j52828097741217_2_alg».proof.Proof.RefSpec
import proofs.«165610_j52828097741217_2_alg».proof.Proof.LibRowWise
import proofs.«165610_j52828097741217_2_alg».proof.Proof.RefTools

noncomputable section

namespace Cert.ReferenceIdeal.Hand

open Idealize.ShloMosaic Idealize.ShloMosaic.ValueIdx
open Cert.Spec Cert.RowWise Cert.RefTools
open scoped BigOperators

/-! ## The normalisation of rows -/

/-- The host's chain for one layer normalisation of the rows of Z: mean and variance of each row by sums from zero
    and quotients by the splat of the word cw, the deviation times the gain row, divided by the square root of the
    variance plus the splat of the word ew, plus the offset row. -/
def hostNorm {m : ℕ} (cw ew : BitVec 32)
    (gC : (⟨0, ![]⟩ : Shape).BroadcastsInDim ⟨2, ![m, 1]⟩ ![])
    (g1 : (⟨1, ![m]⟩ : Shape).BroadcastsInDim ⟨2, ![m, 1]⟩ ![0])
    (g2 : (⟨2, ![m, 1]⟩ : Shape).BroadcastsInDim ⟨2, ![m, 128]⟩ ![0, 1])
    (r1 : (⟨1, ![128]⟩ : Shape).BroadcastsInDim ⟨2, ![1, 128]⟩ ![1])
    (r2 : (⟨2, ![1, 128]⟩ : Shape).BroadcastsInDim ⟨2, ![m, 128]⟩ ![0, 1])
    (h' : (⟨2, ![m, 128]⟩ : Shape).ReducesTo [1] ⟨1, ![m]⟩) (hu : 0 < (⟨0, ![]⟩ : Shape).numel)
    (Z : FVec Ideal ⟨2, ![m, 128]⟩ .f32) (g β : FVec Ideal ⟨1, ![128]⟩ .f32) : FVec Ideal ⟨2, ![m, 128]⟩ .f32 :=
  addf
    (Host.divf
      (mulf (broadcastInDim ⟨2, ![m, 128]⟩ ![0, 1] r2 (broadcastInDim ⟨2, ![1, 128]⟩ ![1] r1 g))
        (subf Z (broadcastInDim ⟨2, ![m, 128]⟩ ![0, 1] g2 (Host.divf
          (broadcastInDim ⟨2, ![m, 1]⟩ ![0] g1 (Host.reduceAdd Z (constant (F := Ideal) ⟨0, ![]⟩ .f32 0x00000000#32) h' hu))
          (broadcastInDim ⟨2, ![m, 1]⟩ ![] gC (constant (F := Ideal) ⟨0, ![]⟩ .f32 cw))))))
      (broadcastInDim ⟨2, ![m, 128]⟩ ![0, 1] g2 (Host.sqrt (addf
        (Host.divf
          (broadcastInDim ⟨2, ![m, 1]⟩ ![0] g1 (Host.reduceAdd
            (mulf
              (subf Z (broadcastInDim ⟨2, ![m, 128]⟩ ![0, 1] g2 (Host.divf
                (broadcastInDim ⟨2, ![m, 1]⟩ ![0] g1 (Host.reduceAdd Z (constant (F := Ideal) ⟨0, ![]⟩ .f32 0x00000000#32) h' hu))
                (broadcastInDim ⟨2, ![m, 1]⟩ ![] gC (constant (F := Ideal) ⟨0, ![]⟩ .f32 cw)))))
              (subf Z (broadcastInDim ⟨2, ![m, 128]⟩ ![0, 1] g2 (Host.divf
                (broadcastInDim ⟨2, ![m, 1]⟩ ![0] g1 (Host.reduceAdd Z (constant (F := Ideal) ⟨0, ![]⟩ .f32 0x00000000#32) h' hu))
                (broadcastInDim ⟨2, ![m, 1]⟩ ![] gC (constant (F := Ideal) ⟨0, ![]⟩ .f32 cw))))))
            (constant (F := Ideal) ⟨0, ![]⟩ .f32 0x00000000#32) h' hu))
          (broadcastInDim ⟨2, ![m, 1]⟩ ![] gC (constant (F := Ideal) ⟨0, ![]⟩ .f32 cw)))
        (broadcastInDim ⟨2, ![m, 1]⟩ ![] gC (constant (F := Ideal) ⟨0, ![]⟩ .f32 ew))))))
    (broadcastInDim ⟨2, ![m, 128]⟩ ![0, 1] r2 (broadcastInDim ⟨2, ![1, 128]⟩ ![1] r1 β))

/-- The row mean as the host spreads it reads, at (a, b), the mean of row a. -/
theorem rowMean_apply {m : ℕ} (cw : BitVec 32)
    (gC : (⟨0, ![]⟩ : Shape).BroadcastsInDim ⟨2, ![m, 1]⟩ ![])
    (g1 : (⟨1, ![m]⟩ : Shape).BroadcastsInDim ⟨2, ![m, 1]⟩ ![0])
    (g2 : (⟨2, ![m, 1]⟩ : Shape).BroadcastsInDim ⟨2, ![m, 128]⟩ ![0, 1])
    (h' : (⟨2, ![m, 128]⟩ : Shape).ReducesTo [1] ⟨1, ![m]⟩) (h : (⟨2, ![m, 128]⟩ : Shape).Reduces [1] ⟨1, ![m]⟩)
    (hu : 0 < (⟨0, ![]⟩ : Shape).numel) (Z : FVec Ideal ⟨2, ![m, 128]⟩ .f32) (a : Fin m) (b : Fin 128) :
    broadcastInDim ⟨2, ![m, 128]⟩ ![0, 1] g2 (Host.divf
        (broadcastInDim ⟨2, ![m, 1]⟩ ![0] g1 (Host.reduceAdd Z (constant (F := Ideal) ⟨0, ![]⟩ .f32 0x00000000#32) h' hu))
        (broadcastInDim ⟨2, ![m, 1]⟩ ![] gC (constant (F := Ideal) ⟨0, ![]⟩ .f32 cw))) (ix2 a b)
      = Ideal.div (∑ k : Fin 128, Z (ix2 a k)) (Ideal.ofBits .f32 cw) := by
  rw [colSpread_apply, hostDivf_at, colLift_apply, hostRowSum_apply Z h' h hu a, splatConst_apply]

/-- The chain at (a, b): the reference's normalisation of row a at entry b, for the length word 128 and the
    epsilon word of the program. -/
theorem hostNorm_apply {m : ℕ}
    (gC : (⟨0, ![]⟩ : Shape).BroadcastsInDim ⟨2, ![m, 1]⟩ ![])
    (g1 : (⟨1, ![m]⟩ : Shape).BroadcastsInDim ⟨2, ![m, 1]⟩ ![0])
    (g2 : (⟨2, ![m, 1]⟩ : Shape).BroadcastsInDim ⟨2, ![m, 128]⟩ ![0, 1])
    (r1 : (⟨1, ![128]⟩ : Shape).BroadcastsInDim ⟨2, ![1, 128]⟩ ![1])
    (r2 : (⟨2, ![1, 128]⟩ : Shape).BroadcastsInDim ⟨2, ![m, 128]⟩ ![0, 1])
    (h' : (⟨2, ![m, 128]⟩ : Shape).ReducesTo [1] ⟨1, ![m]⟩) (h : (⟨2, ![m, 128]⟩ : Shape).Reduces [1] ⟨1, ![m]⟩)
    (hu : 0 < (⟨0, ![]⟩ : Shape).numel)
    (Z : FVec Ideal ⟨2, ![m, 128]⟩ .f32) (g β : FVec Ideal ⟨1, ![128]⟩ .f32) (a : Fin m) (b : Fin 128) :
    hostNorm 0x43000000#32 0x358637BD#32 gC g1 g2 r1 r2 h' hu Z g β (ix2 a b)
      = rlnorm (fun d' => g (ix1 d')) (fun d' => β (ix1 d')) (fun d' => Z (ix2 a d')) b := by
  unfold hostNorm rlnorm var mean
  rw [addf_at, hostDivf_at, mulf_at, biasRow_apply, biasRow_apply, subf_at,
    rowMean_apply 0x43000000#32 gC g1 g2 h' h hu Z a b, colSpread_apply, hostSqrt_at, addf_at, hostDivf_at,
    colLift_apply, hostRowSum_apply _ h' h hu a, splatConst_apply, splatConst_apply]
  refine congrArg (fun s => Ideal.div (g (ix1 b) * (Z (ix2 a b) - Ideal.div (∑ k : Fin 128, Z (ix2 a k)) c128))
      (Ideal.sqrt (Ideal.div s c128 + cEps)) + β (ix1 b)) ?_
  refine Finset.sum_congr rfl fun k _ => ?_
  rw [mulf_at, subf_at, rowMean_apply 0x43000000#32 gC g1 g2 h' h hu Z a k]

/-! ## The program's stage is that chain -/

open Cert.ReferenceIdeal Cert.ReferenceIdeal.Facts₀ Cert.ReferenceIdeal.Facts

variable [Facts]

theorem rows_reduces : S65536x128.Reduces [1] S65536 := by decide

theorem stNorm_apply (x : FVec Ideal S65536x128 .f32) (g β : FVec Ideal S128 .f32) (b : Fin 65536) (d : Fin 128) :
    stNorm (F := Ideal) x g β (ix2 b d)
      = rlnorm (fun d' => g (ix1 d')) (fun d' => β (ix1 d')) (fun d' => x (ix2 b d')) d :=
  hostNorm_apply (m := 65536) bcast_S_S65536x1 bcast_S65536_S65536x1_0 bcast_S65536x1_S65536x128_0_1 bcast_S128_S1x128_1
    bcast_S1x128_S65536x128_0_1 reducesTo_S65536x128_S65536_d1 rows_reduces h_S_ x g β b d

end Cert.ReferenceIdeal.Hand

end
-- ==== Proof.RefValue.lean ====
import proofs.«165610_j52828097741217_2_alg».proof.Proof.RefStages
import proofs.«165610_j52828097741217_2_alg».proof.Proof.RefSpec
import proofs.«165610_j52828097741217_2_alg».proof.Proof.Algebra
import proofs.«165610_j52828097741217_2_alg».proof.Proof.RefTools
import proofs.«165610_j52828097741217_2_alg».proof.Proof.RefScores
import proofs.«165610_j52828097741217_2_alg».proof.Proof.RefSoftmax
import proofs.«165610_j52828097741217_2_alg».proof.Proof.RefMix
import proofs.«165610_j52828097741217_2_alg».proof.Proof.RefPost
import proofs.«165610_j52828097741217_2_alg».proof.Proof.RefNorm

/-!
The reference's value. Each stage reads, at an index, a function of one batch column of its operand;
composed from the scores outward, the stages' composition read at row d of batch column b is the
column function in the reference's arrangement, applied to column b of the inputs. On real inputs
that arrangement is the common column function, so the reference's result is the whole-array
function G of the nine arguments.
-/

noncomputable section

namespace Cert.ReferenceIdeal.Hand

open Idealize.ShloMosaic Idealize.ShloMosaic.ValueIdx
open Cert.Spec Cert.RefTools Cert.LibBatchNorm
open Cert.ReferenceIdeal Cert.ReferenceIdeal.Facts₀ Cert.ReferenceIdeal.Facts
open scoped BigOperators

variable [Facts]

/-- The stages' composition at row d of batch column b: the reference's column function of column b of
    the query and the keys, the attention matrix and the parameters, at row d. -/
theorem refValS_apply (a0 : FVec Ideal S1x128x65536 .f32) (a1 : FVec Ideal S8x128x65536 .f32) (a2 : FVec Ideal S256x4 .f32)
    (a3 a4 : FVec Ideal S128 .f32) (a5 : FVec Ideal S128x128 .f32) (a6 : FVec Ideal S128x1 .f32) (a7 a8 : FVec Ideal S128 .f32)
    (d : Fin 128) (b : Fin 65536) :
    refValS (F := Ideal) a0 a1 a2 a3 a4 a5 a6 a7 a8 (ix2 d b)
      = rcolOut (fun j h => a2 (ix2 j h)) (fun d' => a0 (ix3 (0 : Fin 1) d' b)) (fun n d' => a1 (ix3 n d' b))
          (fun d' => a3 (ix1 d')) (fun d' => a4 (ix1 d')) (fun d' j => a5 (ix2 d' j)) (fun d' => a6 (ix2 d' (0 : Fin 1)))
          (fun d' => a7 (ix1 d')) (fun d' => a8 (ix1 d')) d := by
  -- the rectified scores of column b
  have hL : ∀ (n : Fin 8) (h : Fin 4), (stLeaky (stScores (F := Ideal) a0 a1 a2)) (ix3 n b h) = (rlk (fun j h => a2 (ix2 j h)) (fun d' => a0 (ix3 (0 : Fin 1) d' b)) (fun n d' => a1 (ix3 n d' b))) n h := by
    intro n h
    rw [stLeaky_apply, stScores_apply]
    rfl
  -- the soft-max weights of column b
  have hW : ∀ (n : Fin 8) (h : Fin 4),
      (stSoftmax (stLeaky (stScores (F := Ideal) a0 a1 a2))) (ix3 n b h) = rwgt (fun n' => (rlk (fun j h => a2 (ix2 j h)) (fun d' => a0 (ix3 (0 : Fin 1) d' b)) (fun n d' => a1 (ix3 n d' b))) n' h) n := by
    intro n h
    rw [stSoftmax_apply]
    exact congrArg (fun l => rwgt l n) (funext fun n' => hL n' h)
  -- the attended column with the skip
  have hX : ∀ d' : Fin 128, (stResid (stMix (stSoftmax (stLeaky (stScores (F := Ideal) a0 a1 a2))) a1) a0) (ix2 b d') = (rpre (rlk (fun j h => a2 (ix2 j h)) (fun d' => a0 (ix3 (0 : Fin 1) d' b)) (fun n d' => a1 (ix3 n d' b))) (fun n d' => a1 (ix3 n d' b)) (fun d' => a0 (ix3 (0 : Fin 1) d' b))) d' := by
    intro d'
    rw [stResid_apply, stMix_apply]
    unfold rpre rcomb
    simp only [hW]
  -- the first normalisation
  have hY : ∀ j : Fin 128, (stNorm (stResid (stMix (stSoftmax (stLeaky (stScores (F := Ideal) a0 a1 a2))) a1) a0) a3 a4) (ix2 b j) = (rlnorm (fun d' => a3 (ix1 d')) (fun d' => a4 (ix1 d')) (rpre (rlk (fun j h => a2 (ix2 j h)) (fun d' => a0 (ix3 (0 : Fin 1) d' b)) (fun n d' => a1 (ix3 n d' b))) (fun n d' => a1 (ix3 n d' b)) (fun d' => a0 (ix3 (0 : Fin 1) d' b)))) j := by
    intro j
    rw [stNorm_apply]
    exact congrArg (fun x => rlnorm (fun d' => a3 (ix1 d')) (fun d' => a4 (ix1 d')) x j) (funext hX)
  -- the dense layer with bias and skip
  have hZ : ∀ d' : Fin 128, (stPost a5 a6 (stNorm (stResid (stMix (stSoftmax (stLeaky (stScores (F := Ideal) a0 a1 a2))) a1) a0) a3 a4)) (ix2 b d') = (lin (fun d' j => a5 (ix2 d' j)) (fun d' => a6 (ix2 d' (0 : Fin 1))) (rlnorm (fun d' => a3 (ix1 d')) (fun d' => a4 (ix1 d')) (rpre (rlk (fun j h => a2 (ix2 j h)) (fun d' => a0 (ix3 (0 : Fin 1) d' b)) (fun n d' => a1 (ix3 n d' b))) (fun n d' => a1 (ix3 n d' b)) (fun d' => a0 (ix3 (0 : Fin 1) d' b))))) d' := by
    intro d'
    rw [stPost_apply]
    exact congrArg (fun y => lin (fun d' j => a5 (ix2 d' j)) (fun d' => a6 (ix2 d' (0 : Fin 1))) y d') (funext hY)
  -- the second normalisation, read through the final transposition
  unfold refValS rcolOut
  rw [transpose_ix2_apply, stNorm_apply]
  exact congrArg (fun x => rlnorm (fun d' => a7 (ix1 d')) (fun d' => a8 (ix1 d')) x d) (funext hZ)

/-- On real query, keys and attention matrix the stages' composition is the whole-array function G. -/
theorem refValS_eq_G (a0 : FVec Ideal S1x128x65536 .f32) (a1 : FVec Ideal S8x128x65536 .f32) (a2 : FVec Ideal S256x4 .f32)
    (a3 a4 : FVec Ideal S128 .f32) (a5 : FVec Ideal S128x128 .f32) (a6 : FVec Ideal S128x1 .f32) (a7 a8 : FVec Ideal S128 .f32)
    (h0 : ∀ i, IsReal (a0 i)) (h1 : ∀ i, IsReal (a1 i)) (h2 : ∀ i, IsReal (a2 i)) :
    refValS (F := Ideal) a0 a1 a2 a3 a4 a5 a6 a7 a8 = Cert.Spec.G a0 a1 a2 a3 a4 a5 a6 a7 a8 := by
  funext i
  obtain ⟨d, b, rfl⟩ : ∃ (d : Fin 128) (b : Fin 65536), i = ix2 d b := ⟨i 0, i 1, eq_ix2 i⟩
  rw [refValS_apply, rcolOut_eq (fun j h => a2 (ix2 j h)) (fun d' => a0 (ix3 (0 : Fin 1) d' b)) (fun n d' => a1 (ix3 n d' b))
      (fun d' => a3 (ix1 d')) (fun d' => a4 (ix1 d')) (fun d' j => a5 (ix2 d' j)) (fun d' => a6 (ix2 d' (0 : Fin 1)))
      (fun d' => a7 (ix1 d')) (fun d' => a8 (ix1 d')) (fun j h => h2 _) (fun d' => h0 _) (fun n d' => h1 _)]
  rfl

end Cert.ReferenceIdeal.Hand

end
-- ==== Proof.Finite.lean ====
/-
  The precondition read back: every entry of the query, key and attention-vector arrays is a real number.

  The predicate is the conjunction, array by array, of "every entry's absolute value is below +infinity";
  a conjunction of one-bit words that is 1 has every word 1, an all-reduction by 'and' that is 1 has every entry 1,
  and an extended real whose absolute value is below the top element is a real number.
-/
import proofs.«165610_j52828097741217_2_alg».proof.Pre_finite_inputs
import proofs.«165610_j52828097741217_2_alg».proof.Proof.LibBatchNorm
import Idealize.ShloMosaic.Lib.ReduceAll
import Idealize.ShloMosaic.Lib.ValueIdx
import Idealize.ShloMosaic.Lib.Pipeline.Value

noncomputable section

namespace Cert.Pre_finite_inputs.Hand

open Idealize.ShloMosaic Idealize.ShloMosaic.ValueIdx Cert.LibBatchNorm Cert.LibERealFinite
open Cert.Pre_finite_inputs Cert.Pre_finite_inputs.Facts

instance : Subsingleton S_.Idx := ⟨fun a b => funext fun d => d.elim0⟩

/-- One array's conjunct: if "all |a| < +inf" holds then every entry of a is real. -/
theorem real_of_all {s : Shape} {axes : List (Fin s.rank)} (a : FVec Ideal s .f32) (dims : Fin S_.rank → Fin s.rank)
    (hb : S_.BroadcastsInDim s dims) (hr : s.ReducesTo axes S_) (hu : 0 < S_.numel)
    (e : Host.reduce IntOp.andi (cmpf .olt (Host.absf a) (broadcastInDim s dims hb (constant S_ .f32 0x7F800000#32)))
          (constantI S_ 1 1#1) hr hu ix0 = 1#1) (i : s.Idx) : IsReal (a i) := by
  have h1 := Host.reduce_andi_all _ _ hr hu ix0 e i
  have h2 : broadcastInDim s dims hb (constant (F := Ideal) S_ .f32 0x7F800000#32) i = Ideal.ofBits .f32 0x7F800000#32 :=
    broadcastInDim_apply dims hb _ i ix0 (fun ax => ax.elim0)
  refine real_of_abs_lt (a i) ?_
  rw [← h2]
  exact h1

variable [Facts]

/-- The query, key and attention-vector arrays of a memory satisfying the precondition hold real numbers. -/
theorem real_of_fn (a0 : FVec Ideal S1x128x65536 .f32) (a1 : FVec Ideal S8x128x65536 .f32) (a2 : FVec Ideal S256x4 .f32)
    (a3 a4 : FVec Ideal S128 .f32) (a5 : FVec Ideal S128x128 .f32) (a6 : FVec Ideal S128x1 .f32) (a7 a8 : FVec Ideal S128 .f32)
    (h : fn (F := Ideal) a0 a1 a2 a3 a4 a5 a6 a7 a8 = fun _ => 1#1) :
    (∀ i, IsReal (a0 i)) ∧ (∀ i, IsReal (a1 i)) ∧ (∀ i, IsReal (a2 i)) := by
  have h0 : fn (F := Ideal) a0 a1 a2 a3 a4 a5 a6 a7 a8 ix0 = 1#1 := congrFun h ix0
  unfold fn fn_part1 fn_part2 at h0
  simp only [andi, IntOp.andi_eq_one] at h0
  obtain ⟨⟨⟨⟨⟨⟨⟨⟨e0, e1⟩, e2⟩, -⟩, -⟩, -⟩, -⟩, -⟩, -⟩ := h0
  exact ⟨real_of_all a0 _ _ _ _ e0, real_of_all a1 _ _ _ _ e1, real_of_all a2 _ _ _ _ e2⟩

end Cert.Pre_finite_inputs.Hand

end
-- ==== Proof.lean ====
/-
  The certificate's five claims.

  Both programs compute, batch column by batch column, one function of the nine argument arrays (Proof/Spec.lean):
  scores of each of eight key columns against the query column, a leaky rectifier, a soft-max over the eight
  paths, the keys mixed by the weights and averaged over four heads, a rectifier and a skip, and two layer
  normalisations with a dense layer and a skip between them.
  The kernel runs over 32 tiles of 2048 batch columns; the block a grid point writes back is that function of the
  point's input blocks, which are the argument arrays' blocks (the query through a reshape, the five parameter
  vectors through a concatenation into one [128, 5] array), and the blocks cover the output array.
  The reference computes the same function in another arrangement: the joining laws (Proof/Algebra.lean) hold for
  real entries of the query, key and attention arrays, which the precondition gives (Proof/Finite.lean).
  The three frames are the runs with their value dropped; nothing was rewritten by the idealization.
-/
import proofs.«165610_j52828097741217_2_alg».proof.Defs
import proofs.«165610_j52828097741217_2_alg».proof.Proof.Gen.Kernel
import proofs.«165610_j52828097741217_2_alg».proof.Proof.Gen.KernelIdeal
import proofs.«165610_j52828097741217_2_alg».proof.Proof.Gen.ReferenceIdeal
import proofs.«165610_j52828097741217_2_alg».proof.Proof.Gen.Pre_finite_inputs
import proofs.«165610_j52828097741217_2_alg».proof.Proof.KernelFrame
import proofs.«165610_j52828097741217_2_alg».proof.Proof.KernelIdealFrame
import proofs.«165610_j52828097741217_2_alg».proof.Proof.KernelValue
import proofs.«165610_j52828097741217_2_alg».proof.Proof.RefRunB
import proofs.«165610_j52828097741217_2_alg».proof.Proof.RefValue
import proofs.«165610_j52828097741217_2_alg».proof.Proof.Finite

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame (F := Bits) m ρ

theorem frame_kernelIdeal :
    Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_reference :
    Cert.frame_ReferenceIdeal (hReferenceIdeal := Cert.ReferenceIdeal.Gen.facts) (hPre_finite_inputs := Cert.Pre_finite_inputs.Gen.facts) :=
  @Cert.ReferenceIdeal.Hand.frame Cert.ReferenceIdeal.Gen.facts Cert.Pre_finite_inputs.Gen.facts

/-- From memories that agree on the arguments, and real query, key and attention entries, both programs end with
    the output array at the one function of the arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨_, Cert.KernelIdeal.Hand.value_run m ρ, ?_⟩
  refine (θ_run (Cert.ReferenceIdeal.defs (F := Ideal)) _ _).mono (fun _ h c => ⟨(h c).1.trans ?_, (h c).2⟩)
    (@Cert.ReferenceIdeal.Hand.run Ideal _ Cert.ReferenceIdeal.Gen.facts m' ρ')
  obtain ⟨e0, e1, e2, e3, e4, e5, e6, e7, e8⟩ := hagree c
  rw [e0, e1, e2, e3, e4, e5, e6, e7, e8]
  obtain ⟨h0, h1, h2⟩ := @Cert.Pre_finite_inputs.Hand.real_of_fn Cert.Pre_finite_inputs.Gen.facts _ _ _ _ _ _ _ _ _ (hpre c)
  exact @Cert.ReferenceIdeal.Hand.refValS_eq_G Cert.ReferenceIdeal.Gen.facts _ _ _ _ _ _ _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
